-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_arg13 : FVec F S128x128 .f32) (main_arg14 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128x128 .f32 := Host.absf main_arg13
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  main_v63

def fn_part2 {F : FTy → Type} [FloatOps F] (main_arg9 : FVec F S128x128 .f32) (main_arg10 : FVec F S128x128 .f32) (main_arg11 : FVec F S128 .f32) (main_arg12 : FVec F S128x128 .f32) (main_arg13 : FVec F S128x128 .f32) (main_arg14 : FVec F S128 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg13 main_arg14 main_v48 main_v49 main_v50

def fn_part1 {F : FTy → Type} [FloatOps F] (main_arg6 : FVec F S128x128 .f32) (main_arg7 : FVec F S128x128 .f32) (main_arg8 : FVec F S128 .f32) (main_arg9 : FVec F S128x128 .f32) (main_arg10 : FVec F S128x128 .f32) (main_arg11 : FVec F S128 .f32) (main_arg12 : FVec F S128x128 .f32) (main_arg13 : FVec F S128x128 .f32) (main_arg14 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S100000x128 .f32) (main_arg1 : IVec S1600000 32) (main_arg2 : IVec S1600000 32) (main_arg3 : FVec F S128x128 .f32) (main_arg4 : FVec F S128x128 .f32) (main_arg5 : FVec F S128 .f32) (main_arg6 : FVec F S128x128 .f32) (main_arg7 : FVec F S128x128 .f32) (main_arg8 : FVec F S128 .f32) (main_arg9 : FVec F S128x128 .f32) (main_arg10 : FVec F S128x128 .f32) (main_arg11 : FVec F S128 .f32) (main_arg12 : FVec F S128x128 .f32) (main_arg13 : FVec F S128x128 .f32) (main_arg14 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S4000x128 : Shape := ⟨2, ![4000, 128]⟩

abbrev nBuf : Space → Nat
  | .hbm => 179
  | .vmem => 36
  | .smem => 0
  | _ => 0

abbrev hbmTy0_0 (i : Nat) : BufTy := match i % 128 with
  | 0 => ⟨S100000x128, .f32⟩
  | 1 => ⟨S1600000, .i32⟩
  | 2 => ⟨S1600000, .i32⟩
  | 3 => ⟨S128x128, .f32⟩
  | 4 => ⟨S128x128, .f32⟩
  | 5 => ⟨S128, .f32⟩
  | 6 => ⟨S128x128, .f32⟩
  | 7 => ⟨S128x128, .f32⟩
  | 8 => ⟨S128, .f32⟩
  | 9 => ⟨S128x128, .f32⟩
  | 10 => ⟨S128x128, .f32⟩
  | 11 => ⟨S128, .f32⟩
  | 12 => ⟨S128x128, .f32⟩
  | 13 => ⟨S128x128, .f32⟩
  | 14 => ⟨S128, .f32⟩
  | 15 => ⟨S_, .i32⟩
  | 16 => ⟨S1600000, .i32⟩
  | 17 => ⟨S1600000, .i1⟩
  | 18 => ⟨S_, .i32⟩
  | 19 => ⟨S1600000, .i32⟩
  | 20 => ⟨S1600000, .i32⟩
  | 21 => ⟨S1600000, .i32⟩
  | 22 => ⟨S1600000x1, .i32⟩
  | 23 => ⟨S1, .i32⟩
  | 24 => ⟨S_, .i32⟩
  | 25 => ⟨S1600000x1, .i32⟩
  | 26 => ⟨S1600000x1, .i1⟩
  | 27 => ⟨S1x1, .i32⟩
  | 28 => ⟨S1600000x1, .i32⟩
  | 29 => ⟨S1600000x1, .i1⟩
  | 30 => ⟨S1600000x1, .i1⟩
  | 31 => ⟨S_, .i1⟩
  | 32 => ⟨S1600000, .i1⟩
  | 33 => ⟨S1600000x128, .f32⟩
  | 34 => ⟨S1600000x128, .i1⟩
  | 35 => ⟨S_, .f32⟩
  | 36 => ⟨S1600000x128, .f32⟩
  | 37 => ⟨S1600000x128, .f32⟩
  | 38 => ⟨S_, .f32⟩
  | 39 => ⟨S100000x128, .f32⟩
  | 40 => ⟨S1600000x1, .i32⟩
  | 41 => ⟨S100000x128, .f32⟩
  | 42 => ⟨S_, .f32⟩
  | 43 => ⟨S1600000, .f32⟩
  | 44 => ⟨S_, .f32⟩
  | 45 => ⟨S100000, .f32⟩
  | 46 => ⟨S1600000x1, .i32⟩
  | 47 => ⟨S100000, .f32⟩
  | 48 => ⟨S_, .f32⟩
  | 49 => ⟨S100000, .f32⟩
  | 50 => ⟨S100000, .f32⟩
  | 51 => ⟨S100000x1, .f32⟩
  | 52 => ⟨S100000x128, .f32⟩
  | 53 => ⟨S100000x128, .f32⟩
  | 54 => ⟨S1x128, .f32⟩
  | 55 => ⟨S100000x128, .f32⟩
  | 56 => ⟨S_, .i32⟩
  | 57 => ⟨S1600000, .i32⟩
  | 58 => ⟨S1600000, .i1⟩
  | 59 => ⟨S_, .i32⟩
  | 60 => ⟨S1600000, .i32⟩
  | 61 => ⟨S1600000, .i32⟩
  | 62 => ⟨S1600000, .i32⟩
  | 63 => ⟨S1600000x1, .i32⟩
  | 64 => ⟨S1, .i32⟩
  | 65 => ⟨S_, .i32⟩
  | 66 => ⟨S1600000x1, .i32⟩
  | 67 => ⟨S1600000x1, .i1⟩
  | 68 => ⟨S1x1, .i32⟩
  | 69 => ⟨S1600000x1, .i32⟩
  | 70 => ⟨S1600000x1, .i1⟩
  | 71 => ⟨S1600000x1, .i1⟩
  | 72 => ⟨S_, .i1⟩
  | 73 => ⟨S1600000, .i1⟩
  | 74 => ⟨S1600000x128, .f32⟩
  | 75 => ⟨S1600000x128, .i1⟩
  | 76 => ⟨S_, .f32⟩
  | 77 => ⟨S1600000x128, .f32⟩
  | 78 => ⟨S1600000x128, .f32⟩
  | 79 => ⟨S_, .f32⟩
  | 80 => ⟨S100000x128, .f32⟩
  | 81 => ⟨S1600000x1, .i32⟩
  | 82 => ⟨S100000x128, .f32⟩
  | 83 => ⟨S_, .f32⟩
  | 84 => ⟨S1600000, .f32⟩
  | 85 => ⟨S_, .f32⟩
  | 86 => ⟨S100000, .f32⟩
  | 87 => ⟨S1600000x1, .i32⟩
  | 88 => ⟨S100000, .f32⟩
  | 89 => ⟨S_, .f32⟩
  | 90 => ⟨S100000, .f32⟩
  | 91 => ⟨S100000, .f32⟩
  | 92 => ⟨S100000x1, .f32⟩
  | 93 => ⟨S100000x128, .f32⟩
  | 94 => ⟨S100000x128, .f32⟩
  | 95 => ⟨S1x128, .f32⟩
  | 96 => ⟨S100000x128, .f32⟩
  | 97 => ⟨S_, .i32⟩
  | 98 => ⟨S1600000, .i32⟩
  | 99 => ⟨S1600000, .i1⟩
  | 100 => ⟨S_, .i32⟩
  | 101 => ⟨S1600000, .i32⟩
  | 102 => ⟨S1600000, .i32⟩
  | 103 => ⟨S1600000, .i32⟩
  | 104 => ⟨S1600000x1, .i32⟩
  | 105 => ⟨S1, .i32⟩
  | 106 => ⟨S_, .i32⟩
  | 107 => ⟨S1600000x1, .i32⟩
  | 108 => ⟨S1600000x1, .i1⟩
  | 109 => ⟨S1x1, .i32⟩
  | 110 => ⟨S1600000x1, .i32⟩
  | 111 => ⟨S1600000x1, .i1⟩
  | 112 => ⟨S1600000x1, .i1⟩
  | 113 => ⟨S_, .i1⟩
  | 114 => ⟨S1600000, .i1⟩
  | 115 => ⟨S1600000x128, .f32⟩
  | 116 => ⟨S1600000x128, .i1⟩
  | 117 => ⟨S_, .f32⟩
  | 118 => ⟨S1600000x128, .f32⟩
  | 119 => ⟨S1600000x128, .f32⟩
  | 120 => ⟨S_, .f32⟩
  | 121 => ⟨S100000x128, .f32⟩
  | 122 => ⟨S1600000x1, .i32⟩
  | 123 => ⟨S100000x128, .f32⟩
  | 124 => ⟨S_, .f32⟩
  | 125 => ⟨S1600000, .f32⟩
  | 126 => ⟨S_, .f32⟩
  | 127 => ⟨S100000, .f32⟩
  | _ => ⟨S100000x128, .f32⟩

abbrev hbmTy0_1 (i : Nat) : BufTy := match i % 128 with
  | 0 => ⟨S1600000x1, .i32⟩
  | 1 => ⟨S100000, .f32⟩
  | 2 => ⟨S_, .f32⟩
  | 3 => ⟨S100000, .f32⟩
  | 4 => ⟨S100000, .f32⟩
  | 5 => ⟨S100000x1, .f32⟩
  | 6 => ⟨S100000x128, .f32⟩
  | 7 => ⟨S100000x128, .f32⟩
  | 8 => ⟨S1x128, .f32⟩
  | 9 => ⟨S100000x128, .f32⟩
  | 10 => ⟨S_, .i32⟩
  | 11 => ⟨S1600000, .i32⟩
  | 12 => ⟨S1600000, .i1⟩
  | 13 => ⟨S_, .i32⟩
  | 14 => ⟨S1600000, .i32⟩
  | 15 => ⟨S1600000, .i32⟩
  | 16 => ⟨S1600000, .i32⟩
  | 17 => ⟨S1600000x1, .i32⟩
  | 18 => ⟨S1, .i32⟩
  | 19 => ⟨S_, .i32⟩
  | 20 => ⟨S1600000x1, .i32⟩
  | 21 => ⟨S1600000x1, .i1⟩
  | 22 => ⟨S1x1, .i32⟩
  | 23 => ⟨S1600000x1, .i32⟩
  | 24 => ⟨S1600000x1, .i1⟩
  | 25 => ⟨S1600000x1, .i1⟩
  | 26 => ⟨S_, .i1⟩
  | 27 => ⟨S1600000, .i1⟩
  | 28 => ⟨S1600000x128, .f32⟩
  | 29 => ⟨S1600000x128, .i1⟩
  | 30 => ⟨S_, .f32⟩
  | 31 => ⟨S1600000x128, .f32⟩
  | 32 => ⟨S1600000x128, .f32⟩
  | 33 => ⟨S_, .f32⟩
  | 34 => ⟨S100000x128, .f32⟩
  | 35 => ⟨S1600000x1, .i32⟩
  | 36 => ⟨S100000x128, .f32⟩
  | 37 => ⟨S_, .f32⟩
  | 38 => ⟨S1600000, .f32⟩
  | 39 => ⟨S_, .f32⟩
  | 40 => ⟨S100000, .f32⟩
  | 41 => ⟨S1600000x1, .i32⟩
  | 42 => ⟨S100000, .f32⟩
  | 43 => ⟨S_, .f32⟩
  | 44 => ⟨S100000, .f32⟩
  | 45 => ⟨S100000, .f32⟩
  | 46 => ⟨S100000x1, .f32⟩
  | 47 => ⟨S100000x128, .f32⟩
  | 48 => ⟨S100000x128, .f32⟩
  | 49 => ⟨S1x128, .f32⟩
  | 50 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S4000x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S4000x128, .f32⟩
  | .local _ .vmem, ⟨17, _⟩ => ⟨S4000x128, .f32⟩
  | .local _ .vmem, ⟨18, _⟩ => ⟨S4000x128, .f32⟩
  | .local _ .vmem, ⟨19, _⟩ => ⟨S4000x128, .f32⟩
  | .local _ .vmem, ⟨20, _⟩ => ⟨S4000x128, .f32⟩
  | .local _ .vmem, ⟨21, _⟩ => ⟨S4000x128, .f32⟩
  | .local _ .vmem, ⟨22, _⟩ => ⟨S128x128, .f32⟩
  | .local _ .vmem, ⟨23, _⟩ => ⟨S128x128, .f32⟩
  | .local _ .vmem, ⟨24, _⟩ => ⟨S1x128, .f32⟩
  | .local _ .vmem, ⟨25, _⟩ => ⟨S4000x128, .f32⟩
  | .local _ .vmem, ⟨26, _⟩ => ⟨S4000x128, .f32⟩
  | .local _ .vmem, ⟨27, _⟩ => ⟨S4000x128, .f32⟩
  | .local _ .vmem, ⟨28, _⟩ => ⟨S4000x128, .f32⟩
  | .local _ .vmem, ⟨29, _⟩ => ⟨S4000x128, .f32⟩
  | .local _ .vmem, ⟨30, _⟩ => ⟨S4000x128, .f32⟩
  | .local _ .vmem, ⟨31, _⟩ => ⟨S128x128, .f32⟩
  | .local _ .vmem, ⟨32, _⟩ => ⟨S128x128, .f32⟩
  | .local _ .vmem, ⟨33, _⟩ => ⟨S1x128, .f32⟩
  | .local _ .vmem, ⟨34, _⟩ => ⟨S4000x128, .f32⟩
  | .local _ .vmem, ⟨35, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_c_1 : Ref sig .tc := ⟨.hbm, 23, rfl⟩
abbrev main_call0_c_2 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_3 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_call0_cst : Ref sig .tc := ⟨.hbm, 35, rfl⟩
abbrev main_call0_v15 : Ref sig .tc := ⟨.hbm, 36, rfl⟩
abbrev main_v0 : Ref sig .tc := ⟨.hbm, 37, rfl⟩
abbrev main_cst : Ref sig .tc := ⟨.hbm, 38, rfl⟩
abbrev main_v1 : Ref sig .tc := ⟨.hbm, 39, rfl⟩
abbrev main_v2 : Ref sig .tc := ⟨.hbm, 40, rfl⟩
abbrev main_v3 : Ref sig .tc := ⟨.hbm, 41, rfl⟩
abbrev main_cst_0 : Ref sig .tc := ⟨.hbm, 42, rfl⟩
abbrev main_v4 : Ref sig .tc := ⟨.hbm, 43, rfl⟩
abbrev main_cst_1 : Ref sig .tc := ⟨.hbm, 44, rfl⟩
abbrev main_v5 : Ref sig .tc := ⟨.hbm, 45, rfl⟩
abbrev main_v6 : Ref sig .tc := ⟨.hbm, 46, rfl⟩
abbrev main_v7 : Ref sig .tc := ⟨.hbm, 47, rfl⟩
abbrev main_cst_2 : Ref sig .tc := ⟨.hbm, 48, rfl⟩
abbrev main_v8 : Ref sig .tc := ⟨.hbm, 49, rfl⟩
abbrev main_v9 : Ref sig .tc := ⟨.hbm, 50, rfl⟩
abbrev main_v10 : Ref sig .tc := ⟨.hbm, 51, rfl⟩
abbrev main_v11 : Ref sig .tc := ⟨.hbm, 52, rfl⟩
abbrev main_v12 : Ref sig .tc := ⟨.hbm, 53, rfl⟩
abbrev main_v13 : Ref sig .tc := ⟨.hbm, 54, rfl⟩
abbrev main_v14 : Ref sig .tc := ⟨.hbm, 55, rfl⟩
abbrev main_call1_c : Ref sig .tc := ⟨.hbm, 56, rfl⟩
abbrev main_call1_v0 : Ref sig .tc := ⟨.hbm, 57, rfl⟩
abbrev main_call1_v1 : Ref sig .tc := ⟨.hbm, 58, rfl⟩
abbrev main_call1_c_0 : Ref sig .tc := ⟨.hbm, 59, rfl⟩
abbrev main_call1_v2 : Ref sig .tc := ⟨.hbm, 60, rfl⟩
abbrev main_call1_v3 : Ref sig .tc := ⟨.hbm, 61, rfl⟩
abbrev main_call1_v4 : Ref sig .tc := ⟨.hbm, 62, rfl⟩
abbrev main_call1_v5 : Ref sig .tc := ⟨.hbm, 63, rfl⟩
abbrev main_call1_c_1 : Ref sig .tc := ⟨.hbm, 64, rfl⟩
abbrev main_call1_c_2 : Ref sig .tc := ⟨.hbm, 65, rfl⟩
abbrev main_call1_v6 : Ref sig .tc := ⟨.hbm, 66, rfl⟩
abbrev main_call1_v7 : Ref sig .tc := ⟨.hbm, 67, rfl⟩
abbrev main_call1_v8 : Ref sig .tc := ⟨.hbm, 68, rfl⟩
abbrev main_call1_v9 : Ref sig .tc := ⟨.hbm, 69, rfl⟩
abbrev main_call1_v10 : Ref sig .tc := ⟨.hbm, 70, rfl⟩
abbrev main_call1_v11 : Ref sig .tc := ⟨.hbm, 71, rfl⟩
abbrev main_call1_c_3 : Ref sig .tc := ⟨.hbm, 72, rfl⟩
abbrev main_call1_v12 : Ref sig .tc := ⟨.hbm, 73, rfl⟩
abbrev main_call1_v13 : Ref sig .tc := ⟨.hbm, 74, rfl⟩
abbrev main_call1_v14 : Ref sig .tc := ⟨.hbm, 75, rfl⟩
abbrev main_call1_cst : Ref sig .tc := ⟨.hbm, 76, rfl⟩
abbrev main_call1_v15 : Ref sig .tc := ⟨.hbm, 77, rfl⟩
abbrev main_v15 : Ref sig .tc := ⟨.hbm, 78, rfl⟩
abbrev main_cst_3 : Ref sig .tc := ⟨.hbm, 79, rfl⟩
abbrev main_v16 : Ref sig .tc := ⟨.hbm, 80, rfl⟩
abbrev main_v17 : Ref sig .tc := ⟨.hbm, 81, rfl⟩
abbrev main_v18 : Ref sig .tc := ⟨.hbm, 82, rfl⟩
abbrev main_cst_4 : Ref sig .tc := ⟨.hbm, 83, rfl⟩
abbrev main_v19 : Ref sig .tc := ⟨.hbm, 84, rfl⟩
abbrev main_cst_5 : Ref sig .tc := ⟨.hbm, 85, rfl⟩
abbrev main_v20 : Ref sig .tc := ⟨.hbm, 86, rfl⟩
abbrev main_v21 : Ref sig .tc := ⟨.hbm, 87, rfl⟩
abbrev main_v22 : Ref sig .tc := ⟨.hbm, 88, rfl⟩
abbrev main_cst_6 : Ref sig .tc := ⟨.hbm, 89, rfl⟩
abbrev main_v23 : Ref sig .tc := ⟨.hbm, 90, rfl⟩
abbrev main_v24 : Ref sig .tc := ⟨.hbm, 91, rfl⟩
abbrev main_v25 : Ref sig .tc := ⟨.hbm, 92, rfl⟩
abbrev main_v26 : Ref sig .tc := ⟨.hbm, 93, rfl⟩
abbrev main_v27 : Ref sig .tc := ⟨.hbm, 94, rfl⟩
abbrev main_v28 : Ref sig .tc := ⟨.hbm, 95, rfl⟩
abbrev main_v29 : Ref sig .tc := ⟨.hbm, 96, rfl⟩
abbrev main_call2_c : Ref sig .tc := ⟨.hbm, 97, rfl⟩
abbrev main_call2_v0 : Ref sig .tc := ⟨.hbm, 98, rfl⟩
abbrev main_call2_v1 : Ref sig .tc := ⟨.hbm, 99, rfl⟩
abbrev main_call2_c_0 : Ref sig .tc := ⟨.hbm, 100, rfl⟩
abbrev main_call2_v2 : Ref sig .tc := ⟨.hbm, 101, rfl⟩
abbrev main_call2_v3 : Ref sig .tc := ⟨.hbm, 102, rfl⟩
abbrev main_call2_v4 : Ref sig .tc := ⟨.hbm, 103, rfl⟩
abbrev main_call2_v5 : Ref sig .tc := ⟨.hbm, 104, rfl⟩
abbrev main_call2_c_1 : Ref sig .tc := ⟨.hbm, 105, rfl⟩
abbrev main_call2_c_2 : Ref sig .tc := ⟨.hbm, 106, rfl⟩
abbrev main_call2_v6 : Ref sig .tc := ⟨.hbm, 107, rfl⟩
abbrev main_call2_v7 : Ref sig .tc := ⟨.hbm, 108, rfl⟩
abbrev main_call2_v8 : Ref sig .tc := ⟨.hbm, 109, rfl⟩
abbrev main_call2_v9 : Ref sig .tc := ⟨.hbm, 110, rfl⟩
abbrev main_call2_v10 : Ref sig .tc := ⟨.hbm, 111, rfl⟩
abbrev main_call2_v11 : Ref sig .tc := ⟨.hbm, 112, rfl⟩
abbrev main_call2_c_3 : Ref sig .tc := ⟨.hbm, 113, rfl⟩
abbrev main_call2_v12 : Ref sig .tc := ⟨.hbm, 114, rfl⟩
abbrev main_call2_v13 : Ref sig .tc := ⟨.hbm, 115, rfl⟩
abbrev main_call2_v14 : Ref sig .tc := ⟨.hbm, 116, rfl⟩
abbrev main_call2_cst : Ref sig .tc := ⟨.hbm, 117, rfl⟩
abbrev main_call2_v15 : Ref sig .tc := ⟨.hbm, 118, rfl⟩
abbrev main_v30 : Ref sig .tc := ⟨.hbm, 119, rfl⟩
abbrev main_cst_7 : Ref sig .tc := ⟨.hbm, 120, rfl⟩
abbrev main_v31 : Ref sig .tc := ⟨.hbm, 121, rfl⟩
abbrev main_v32 : Ref sig .tc := ⟨.hbm, 122, rfl⟩
abbrev main_v33 : Ref sig .tc := ⟨.hbm, 123, rfl⟩
abbrev main_cst_8 : Ref sig .tc := ⟨.hbm, 124, rfl⟩
abbrev main_v34 : Ref sig .tc := ⟨.hbm, 125, rfl⟩
abbrev main_cst_9 : Ref sig .tc := ⟨.hbm, 126, rfl⟩
abbrev main_v35 : Ref sig .tc := ⟨.hbm, 127, rfl⟩
abbrev main_v36 : Ref sig .tc := ⟨.hbm, 128, rfl⟩
abbrev main_v37 : Ref sig .tc := ⟨.hbm, 129, rfl⟩
abbrev main_cst_10 : Ref sig .tc := ⟨.hbm, 130, rfl⟩
abbrev main_v38 : Ref sig .tc := ⟨.hbm, 131, rfl⟩
abbrev main_v39 : Ref sig .tc := ⟨.hbm, 132, rfl⟩
abbrev main_v40 : Ref sig .tc := ⟨.hbm, 133, rfl⟩
abbrev main_v41 : Ref sig .tc := ⟨.hbm, 134, rfl⟩
abbrev main_v42 : Ref sig .tc := ⟨.hbm, 135, rfl⟩
abbrev main_v43 : Ref sig .tc := ⟨.hbm, 136, rfl⟩
abbrev main_v44 : Ref sig .tc := ⟨.hbm, 137, rfl⟩
abbrev main_call3_c : Ref sig .tc := ⟨.hbm, 138, rfl⟩
abbrev main_call3_v0 : Ref sig .tc := ⟨.hbm, 139, rfl⟩
abbrev main_call3_v1 : Ref sig .tc := ⟨.hbm, 140, rfl⟩
abbrev main_call3_c_0 : Ref sig .tc := ⟨.hbm, 141, rfl⟩
abbrev main_call3_v2 : Ref sig .tc := ⟨.hbm, 142, rfl⟩
abbrev main_call3_v3 : Ref sig .tc := ⟨.hbm, 143, rfl⟩
abbrev main_call3_v4 : Ref sig .tc := ⟨.hbm, 144, rfl⟩
abbrev main_call3_v5 : Ref sig .tc := ⟨.hbm, 145, rfl⟩
abbrev main_call3_c_1 : Ref sig .tc := ⟨.hbm, 146, rfl⟩
abbrev main_call3_c_2 : Ref sig .tc := ⟨.hbm, 147, rfl⟩
abbrev main_call3_v6 : Ref sig .tc := ⟨.hbm, 148, rfl⟩
abbrev main_call3_v7 : Ref sig .tc := ⟨.hbm, 149, rfl⟩
abbrev main_call3_v8 : Ref sig .tc := ⟨.hbm, 150, rfl⟩
abbrev main_call3_v9 : Ref sig .tc := ⟨.hbm, 151, rfl⟩
abbrev main_call3_v10 : Ref sig .tc := ⟨.hbm, 152, rfl⟩
abbrev main_call3_v11 : Ref sig .tc := ⟨.hbm, 153, rfl⟩
abbrev main_call3_c_3 : Ref sig .tc := ⟨.hbm, 154, rfl⟩
abbrev main_call3_v12 : Ref sig .tc := ⟨.hbm, 155, rfl⟩
abbrev main_call3_v13 : Ref sig .tc := ⟨.hbm, 156, rfl⟩
abbrev main_call3_v14 : Ref sig .tc := ⟨.hbm, 157, rfl⟩
abbrev main_call3_cst : Ref sig .tc := ⟨.hbm, 158, rfl⟩
abbrev main_call3_v15 : Ref sig .tc := ⟨.hbm, 159, rfl⟩
abbrev main_v45 : Ref sig .tc := ⟨.hbm, 160, rfl⟩
abbrev main_cst_11 : Ref sig .tc := ⟨.hbm, 161, rfl⟩
abbrev main_v46 : Ref sig .tc := ⟨.hbm, 162, rfl⟩
abbrev main_v47 : Ref sig .tc := ⟨.hbm, 163, rfl⟩
abbrev main_v48 : Ref sig .tc := ⟨.hbm, 164, rfl⟩
abbrev main_cst_12 : Ref sig .tc := ⟨.hbm, 165, rfl⟩
abbrev main_v49 : Ref sig .tc := ⟨.hbm, 166, rfl⟩
abbrev main_cst_13 : Ref sig .tc := ⟨.hbm, 167, rfl⟩
abbrev main_v50 : Ref sig .tc := ⟨.hbm, 168, rfl⟩
abbrev main_v51 : Ref sig .tc := ⟨.hbm, 169, rfl⟩
abbrev main_v52 : Ref sig .tc := ⟨.hbm, 170, rfl⟩
abbrev main_cst_14 : Ref sig .tc := ⟨.hbm, 171, rfl⟩
abbrev main_v53 : Ref sig .tc := ⟨.hbm, 172, rfl⟩
abbrev main_v54 : Ref sig .tc := ⟨.hbm, 173, rfl⟩
abbrev main_v55 : Ref sig .tc := ⟨.hbm, 174, rfl⟩
abbrev main_v56 : Ref sig .tc := ⟨.hbm, 175, rfl⟩
abbrev main_v57 : Ref sig .tc := ⟨.hbm, 176, rfl⟩
abbrev main_v58 : Ref sig .tc := ⟨.hbm, 177, rfl⟩
abbrev main_v59 : Ref sig .tc := ⟨.hbm, 178, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S4000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S100000x128.size a
  hwx0_5 : ∀ i : grid0.Coords, EltTy.bits .f32 = 32 ∨ (Rect.block (s := S100000x128) S4000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x128.size a ≤ S100000x128.size a
  hwx1_5 : ∀ i : grid1.Coords, EltTy.bits .f32 = 32 ∨ (Rect.block (s := S100000x128) S4000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S100000x128.size a
  hwx2_1 : ∀ i : grid2.Coords, EltTy.bits .f32 = 32 ∨ (Rect.block (s := S100000x128) S4000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4000x128.size a ≤ S100000x128.size a
  hwx2_5 : ∀ i : grid2.Coords, EltTy.bits .f32 = 32 ∨ (Rect.block (s := S100000x128) S4000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S100000x128.size a
  hwx3_0 : ∀ i : grid3.Coords, EltTy.bits .f32 = 32 ∨ (Rect.block (s := S100000x128) S4000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x128.size a ≤ S100000x128.size a
  hwx3_1 : ∀ i : grid3.Coords, EltTy.bits .f32 = 32 ∨ (Rect.block (s := S100000x128) S4000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S4000x128.size a ≤ S100000x128.size a
  hwx3_5 : ∀ i : grid3.Coords, EltTy.bits .f32 = 32 ∨ (Rect.block (s := S100000x128) S4000x128.size (cc3_transform_5 i) (hinb3_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S4000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v14) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v29) S4000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v29) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v42) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v43) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v44) S4000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v44) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v57) S4000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg12) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg13) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v58) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v59) S4000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 204
  | .vmem => 0
  | .smem => 0
  | _ => 0

abbrev hbmTy0_0 (i : Nat) : BufTy := match i % 128 with
  | 0 => ⟨S100000x128, .f32⟩
  | 1 => ⟨S1600000, .i32⟩
  | 2 => ⟨S1600000, .i32⟩
  | 3 => ⟨S128x128, .f32⟩
  | 4 => ⟨S128x128, .f32⟩
  | 5 => ⟨S128, .f32⟩
  | 6 => ⟨S128x128, .f32⟩
  | 7 => ⟨S128x128, .f32⟩
  | 8 => ⟨S128, .f32⟩
  | 9 => ⟨S128x128, .f32⟩
  | 10 => ⟨S128x128, .f32⟩
  | 11 => ⟨S128, .f32⟩
  | 12 => ⟨S128x128, .f32⟩
  | 13 => ⟨S128x128, .f32⟩
  | 14 => ⟨S128, .f32⟩
  | 15 => ⟨S_, .i32⟩
  | 16 => ⟨S1600000, .i32⟩
  | 17 => ⟨S1600000, .i1⟩
  | 18 => ⟨S_, .i32⟩
  | 19 => ⟨S1600000, .i32⟩
  | 20 => ⟨S1600000, .i32⟩
  | 21 => ⟨S1600000, .i32⟩
  | 22 => ⟨S1600000x1, .i32⟩
  | 23 => ⟨S1, .i32⟩
  | 24 => ⟨S_, .i32⟩
  | 25 => ⟨S1600000x1, .i32⟩
  | 26 => ⟨S1600000x1, .i1⟩
  | 27 => ⟨S1x1, .i32⟩
  | 28 => ⟨S1600000x1, .i32⟩
  | 29 => ⟨S1600000x1, .i1⟩
  | 30 => ⟨S1600000x1, .i1⟩
  | 31 => ⟨S_, .i1⟩
  | 32 => ⟨S1600000, .i1⟩
  | 33 => ⟨S1600000x128, .f32⟩
  | 34 => ⟨S1600000x128, .i1⟩
  | 35 => ⟨S_, .f32⟩
  | 36 => ⟨S1600000x128, .f32⟩
  | 37 => ⟨S1600000x128, .f32⟩
  | 38 => ⟨S_, .f32⟩
  | 39 => ⟨S100000x128, .f32⟩
  | 40 => ⟨S1600000x1, .i32⟩
  | 41 => ⟨S100000x128, .f32⟩
  | 42 => ⟨S_, .f32⟩
  | 43 => ⟨S1600000, .f32⟩
  | 44 => ⟨S_, .f32⟩
  | 45 => ⟨S100000, .f32⟩
  | 46 => ⟨S1600000x1, .i32⟩
  | 47 => ⟨S100000, .f32⟩
  | 48 => ⟨S_, .f32⟩
  | 49 => ⟨S100000, .f32⟩
  | 50 => ⟨S100000, .f32⟩
  | 51 => ⟨S100000x1, .f32⟩
  | 52 => ⟨S100000x128, .f32⟩
  | 53 => ⟨S100000x128, .f32⟩
  | 54 => ⟨S100000x128, .f32⟩
  | 55 => ⟨S100000x128, .f32⟩
  | 56 => ⟨S100000x128, .f32⟩
  | 57 => ⟨S1x128, .f32⟩
  | 58 => ⟨S100000x128, .f32⟩
  | 59 => ⟨S100000x128, .f32⟩
  | 60 => ⟨S_, .f32⟩
  | 61 => ⟨S100000x128, .f32⟩
  | 62 => ⟨S100000x128, .f32⟩
  | 63 => ⟨S_, .i32⟩
  | 64 => ⟨S1600000, .i32⟩
  | 65 => ⟨S1600000, .i1⟩
  | 66 => ⟨S_, .i32⟩
  | 67 => ⟨S1600000, .i32⟩
  | 68 => ⟨S1600000, .i32⟩
  | 69 => ⟨S1600000, .i32⟩
  | 70 => ⟨S1600000x1, .i32⟩
  | 71 => ⟨S1, .i32⟩
  | 72 => ⟨S_, .i32⟩
  | 73 => ⟨S1600000x1, .i32⟩
  | 74 => ⟨S1600000x1, .i1⟩
  | 75 => ⟨S1x1, .i32⟩
  | 76 => ⟨S1600000x1, .i32⟩
  | 77 => ⟨S1600000x1, .i1⟩
  | 78 => ⟨S1600000x1, .i1⟩
  | 79 => ⟨S_, .i1⟩
  | 80 => ⟨S1600000, .i1⟩
  | 81 => ⟨S1600000x128, .f32⟩
  | 82 => ⟨S1600000x128, .i1⟩
  | 83 => ⟨S_, .f32⟩
  | 84 => ⟨S1600000x128, .f32⟩
  | 85 => ⟨S1600000x128, .f32⟩
  | 86 => ⟨S_, .f32⟩
  | 87 => ⟨S100000x128, .f32⟩
  | 88 => ⟨S1600000x1, .i32⟩
  | 89 => ⟨S100000x128, .f32⟩
  | 90 => ⟨S_, .f32⟩
  | 91 => ⟨S1600000, .f32⟩
  | 92 => ⟨S_, .f32⟩
  | 93 => ⟨S100000, .f32⟩
  | 94 => ⟨S1600000x1, .i32⟩
  | 95 => ⟨S100000, .f32⟩
  | 96 => ⟨S_, .f32⟩
  | 97 => ⟨S100000, .f32⟩
  | 98 => ⟨S100000, .f32⟩
  | 99 => ⟨S100000x1, .f32⟩
  | 100 => ⟨S100000x128, .f32⟩
  | 101 => ⟨S100000x128, .f32⟩
  | 102 => ⟨S100000x128, .f32⟩
  | 103 => ⟨S100000x128, .f32⟩
  | 104 => ⟨S100000x128, .f32⟩
  | 105 => ⟨S1x128, .f32⟩
  | 106 => ⟨S100000x128, .f32⟩
  | 107 => ⟨S100000x128, .f32⟩
  | 108 => ⟨S_, .f32⟩
  | 109 => ⟨S100000x128, .f32⟩
  | 110 => ⟨S100000x128, .f32⟩
  | 111 => ⟨S_, .i32⟩
  | 112 => ⟨S1600000, .i32⟩
  | 113 => ⟨S1600000, .i1⟩
  | 114 => ⟨S_, .i32⟩
  | 115 => ⟨S1600000, .i32⟩
  | 116 => ⟨S1600000, .i32⟩
  | 117 => ⟨S1600000, .i32⟩
  | 118 => ⟨S1600000x1, .i32⟩
  | 119 => ⟨S1, .i32⟩
  | 120 => ⟨S_, .i32⟩
  | 121 => ⟨S1600000x1, .i32⟩
  | 122 => ⟨S1600000x1, .i1⟩
  | 123 => ⟨S1x1, .i32⟩
  | 124 => ⟨S1600000x1, .i32⟩
  | 125 => ⟨S1600000x1, .i1⟩
  | 126 => ⟨S1600000x1, .i1⟩
  | 127 => ⟨S_, .i1⟩
  | _ => ⟨S100000x128, .f32⟩

abbrev hbmTy0_1 (i : Nat) : BufTy := match i % 128 with
  | 0 => ⟨S1600000, .i1⟩
  | 1 => ⟨S1600000x128, .f32⟩
  | 2 => ⟨S1600000x128, .i1⟩
  | 3 => ⟨S_, .f32⟩
  | 4 => ⟨S1600000x128, .f32⟩
  | 5 => ⟨S1600000x128, .f32⟩
  | 6 => ⟨S_, .f32⟩
  | 7 => ⟨S100000x128, .f32⟩
  | 8 => ⟨S1600000x1, .i32⟩
  | 9 => ⟨S100000x128, .f32⟩
  | 10 => ⟨S_, .f32⟩
  | 11 => ⟨S1600000, .f32⟩
  | 12 => ⟨S_, .f32⟩
  | 13 => ⟨S100000, .f32⟩
  | 14 => ⟨S1600000x1, .i32⟩
  | 15 => ⟨S100000, .f32⟩
  | 16 => ⟨S_, .f32⟩
  | 17 => ⟨S100000, .f32⟩
  | 18 => ⟨S100000, .f32⟩
  | 19 => ⟨S100000x1, .f32⟩
  | 20 => ⟨S100000x128, .f32⟩
  | 21 => ⟨S100000x128, .f32⟩
  | 22 => ⟨S100000x128, .f32⟩
  | 23 => ⟨S100000x128, .f32⟩
  | 24 => ⟨S100000x128, .f32⟩
  | 25 => ⟨S1x128, .f32⟩
  | 26 => ⟨S100000x128, .f32⟩
  | 27 => ⟨S100000x128, .f32⟩
  | 28 => ⟨S_, .f32⟩
  | 29 => ⟨S100000x128, .f32⟩
  | 30 => ⟨S100000x128, .f32⟩
  | 31 => ⟨S_, .i32⟩
  | 32 => ⟨S1600000, .i32⟩
  | 33 => ⟨S1600000, .i1⟩
  | 34 => ⟨S_, .i32⟩
  | 35 => ⟨S1600000, .i32⟩
  | 36 => ⟨S1600000, .i32⟩
  | 37 => ⟨S1600000, .i32⟩
  | 38 => ⟨S1600000x1, .i32⟩
  | 39 => ⟨S1, .i32⟩
  | 40 => ⟨S_, .i32⟩
  | 41 => ⟨S1600000x1, .i32⟩
  | 42 => ⟨S1600000x1, .i1⟩
  | 43 => ⟨S1x1, .i32⟩
  | 44 => ⟨S1600000x1, .i32⟩
  | 45 => ⟨S1600000x1, .i1⟩
  | 46 => ⟨S1600000x1, .i1⟩
  | 47 => ⟨S_, .i1⟩
  | 48 => ⟨S1600000, .i1⟩
  | 49 => ⟨S1600000x128, .f32⟩
  | 50 => ⟨S1600000x128, .i1⟩
  | 51 => ⟨S_, .f32⟩
  | 52 => ⟨S1600000x128, .f32⟩
  | 53 => ⟨S1600000x128, .f32⟩
  | 54 => ⟨S_, .f32⟩
  | 55 => ⟨S100000x128, .f32⟩
  | 56 => ⟨S1600000x1, .i32⟩
  | 57 => ⟨S100000x128, .f32⟩
  | 58 => ⟨S_, .f32⟩
  | 59 => ⟨S1600000, .f32⟩
  | 60 => ⟨S_, .f32⟩
  | 61 => ⟨S100000, .f32⟩
  | 62 => ⟨S1600000x1, .i32⟩
  | 63 => ⟨S100000, .f32⟩
  | 64 => ⟨S_, .f32⟩
  | 65 => ⟨S100000, .f32⟩
  | 66 => ⟨S100000, .f32⟩
  | 67 => ⟨S100000x1, .f32⟩
  | 68 => ⟨S100000x128, .f32⟩
  | 69 => ⟨S100000x128, .f32⟩
  | 70 => ⟨S100000x128, .f32⟩
  | 71 => ⟨S100000x128, .f32⟩
  | 72 => ⟨S100000x128, .f32⟩
  | 73 => ⟨S1x128, .f32⟩
  | 74 => ⟨S100000x128, .f32⟩
  | 75 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_c_1 : Ref sig .tc := ⟨.hbm, 23, rfl⟩
abbrev main_call0_c_2 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_3 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_call0_cst : Ref sig .tc := ⟨.hbm, 35, rfl⟩
abbrev main_call0_v15 : Ref sig .tc := ⟨.hbm, 36, rfl⟩
abbrev main_v0 : Ref sig .tc := ⟨.hbm, 37, rfl⟩
abbrev main_cst : Ref sig .tc := ⟨.hbm, 38, rfl⟩
abbrev main_v1 : Ref sig .tc := ⟨.hbm, 39, rfl⟩
abbrev main_v2 : Ref sig .tc := ⟨.hbm, 40, rfl⟩
abbrev main_v3 : Ref sig .tc := ⟨.hbm, 41, rfl⟩
abbrev main_cst_0 : Ref sig .tc := ⟨.hbm, 42, rfl⟩
abbrev main_v4 : Ref sig .tc := ⟨.hbm, 43, rfl⟩
abbrev main_cst_1 : Ref sig .tc := ⟨.hbm, 44, rfl⟩
abbrev main_v5 : Ref sig .tc := ⟨.hbm, 45, rfl⟩
abbrev main_v6 : Ref sig .tc := ⟨.hbm, 46, rfl⟩
abbrev main_v7 : Ref sig .tc := ⟨.hbm, 47, rfl⟩
abbrev main_cst_2 : Ref sig .tc := ⟨.hbm, 48, rfl⟩
abbrev main_v8 : Ref sig .tc := ⟨.hbm, 49, rfl⟩
abbrev main_v9 : Ref sig .tc := ⟨.hbm, 50, rfl⟩
abbrev main_v10 : Ref sig .tc := ⟨.hbm, 51, rfl⟩
abbrev main_v11 : Ref sig .tc := ⟨.hbm, 52, rfl⟩
abbrev main_v12 : Ref sig .tc := ⟨.hbm, 53, rfl⟩
abbrev main_v13 : Ref sig .tc := ⟨.hbm, 54, rfl⟩
abbrev main_v14 : Ref sig .tc := ⟨.hbm, 55, rfl⟩
abbrev main_v15 : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩
abbrev main_call1_cst : Ref sig .tc := ⟨.hbm, 60, rfl⟩
abbrev main_call1_v0 : Ref sig .tc := ⟨.hbm, 61, rfl⟩
abbrev main_v19 : Ref sig .tc := ⟨.hbm, 62, rfl⟩
abbrev main_call2_c : Ref sig .tc := ⟨.hbm, 63, rfl⟩
abbrev main_call2_v0 : Ref sig .tc := ⟨.hbm, 64, rfl⟩
abbrev main_call2_v1 : Ref sig .tc := ⟨.hbm, 65, rfl⟩
abbrev main_call2_c_0 : Ref sig .tc := ⟨.hbm, 66, rfl⟩
abbrev main_call2_v2 : Ref sig .tc := ⟨.hbm, 67, rfl⟩
abbrev main_call2_v3 : Ref sig .tc := ⟨.hbm, 68, rfl⟩
abbrev main_call2_v4 : Ref sig .tc := ⟨.hbm, 69, rfl⟩
abbrev main_call2_v5 : Ref sig .tc := ⟨.hbm, 70, rfl⟩
abbrev main_call2_c_1 : Ref sig .tc := ⟨.hbm, 71, rfl⟩
abbrev main_call2_c_2 : Ref sig .tc := ⟨.hbm, 72, rfl⟩
abbrev main_call2_v6 : Ref sig .tc := ⟨.hbm, 73, rfl⟩
abbrev main_call2_v7 : Ref sig .tc := ⟨.hbm, 74, rfl⟩
abbrev main_call2_v8 : Ref sig .tc := ⟨.hbm, 75, rfl⟩
abbrev main_call2_v9 : Ref sig .tc := ⟨.hbm, 76, rfl⟩
abbrev main_call2_v10 : Ref sig .tc := ⟨.hbm, 77, rfl⟩
abbrev main_call2_v11 : Ref sig .tc := ⟨.hbm, 78, rfl⟩
abbrev main_call2_c_3 : Ref sig .tc := ⟨.hbm, 79, rfl⟩
abbrev main_call2_v12 : Ref sig .tc := ⟨.hbm, 80, rfl⟩
abbrev main_call2_v13 : Ref sig .tc := ⟨.hbm, 81, rfl⟩
abbrev main_call2_v14 : Ref sig .tc := ⟨.hbm, 82, rfl⟩
abbrev main_call2_cst : Ref sig .tc := ⟨.hbm, 83, rfl⟩
abbrev main_call2_v15 : Ref sig .tc := ⟨.hbm, 84, rfl⟩
abbrev main_v20 : Ref sig .tc := ⟨.hbm, 85, rfl⟩
abbrev main_cst_3 : Ref sig .tc := ⟨.hbm, 86, rfl⟩
abbrev main_v21 : Ref sig .tc := ⟨.hbm, 87, rfl⟩
abbrev main_v22 : Ref sig .tc := ⟨.hbm, 88, rfl⟩
abbrev main_v23 : Ref sig .tc := ⟨.hbm, 89, rfl⟩
abbrev main_cst_4 : Ref sig .tc := ⟨.hbm, 90, rfl⟩
abbrev main_v24 : Ref sig .tc := ⟨.hbm, 91, rfl⟩
abbrev main_cst_5 : Ref sig .tc := ⟨.hbm, 92, rfl⟩
abbrev main_v25 : Ref sig .tc := ⟨.hbm, 93, rfl⟩
abbrev main_v26 : Ref sig .tc := ⟨.hbm, 94, rfl⟩
abbrev main_v27 : Ref sig .tc := ⟨.hbm, 95, rfl⟩
abbrev main_cst_6 : Ref sig .tc := ⟨.hbm, 96, rfl⟩
abbrev main_v28 : Ref sig .tc := ⟨.hbm, 97, rfl⟩
abbrev main_v29 : Ref sig .tc := ⟨.hbm, 98, rfl⟩
abbrev main_v30 : Ref sig .tc := ⟨.hbm, 99, rfl⟩
abbrev main_v31 : Ref sig .tc := ⟨.hbm, 100, rfl⟩
abbrev main_v32 : Ref sig .tc := ⟨.hbm, 101, rfl⟩
abbrev main_v33 : Ref sig .tc := ⟨.hbm, 102, rfl⟩
abbrev main_v34 : Ref sig .tc := ⟨.hbm, 103, rfl⟩
abbrev main_v35 : Ref sig .tc := ⟨.hbm, 104, rfl⟩
abbrev main_v36 : Ref sig .tc := ⟨.hbm, 105, rfl⟩
abbrev main_v37 : Ref sig .tc := ⟨.hbm, 106, rfl⟩
abbrev main_v38 : Ref sig .tc := ⟨.hbm, 107, rfl⟩
abbrev main_call3_cst : Ref sig .tc := ⟨.hbm, 108, rfl⟩
abbrev main_call3_v0 : Ref sig .tc := ⟨.hbm, 109, rfl⟩
abbrev main_v39 : Ref sig .tc := ⟨.hbm, 110, rfl⟩
abbrev main_call4_c : Ref sig .tc := ⟨.hbm, 111, rfl⟩
abbrev main_call4_v0 : Ref sig .tc := ⟨.hbm, 112, rfl⟩
abbrev main_call4_v1 : Ref sig .tc := ⟨.hbm, 113, rfl⟩
abbrev main_call4_c_0 : Ref sig .tc := ⟨.hbm, 114, rfl⟩
abbrev main_call4_v2 : Ref sig .tc := ⟨.hbm, 115, rfl⟩
abbrev main_call4_v3 : Ref sig .tc := ⟨.hbm, 116, rfl⟩
abbrev main_call4_v4 : Ref sig .tc := ⟨.hbm, 117, rfl⟩
abbrev main_call4_v5 : Ref sig .tc := ⟨.hbm, 118, rfl⟩
abbrev main_call4_c_1 : Ref sig .tc := ⟨.hbm, 119, rfl⟩
abbrev main_call4_c_2 : Ref sig .tc := ⟨.hbm, 120, rfl⟩
abbrev main_call4_v6 : Ref sig .tc := ⟨.hbm, 121, rfl⟩
abbrev main_call4_v7 : Ref sig .tc := ⟨.hbm, 122, rfl⟩
abbrev main_call4_v8 : Ref sig .tc := ⟨.hbm, 123, rfl⟩
abbrev main_call4_v9 : Ref sig .tc := ⟨.hbm, 124, rfl⟩
abbrev main_call4_v10 : Ref sig .tc := ⟨.hbm, 125, rfl⟩
abbrev main_call4_v11 : Ref sig .tc := ⟨.hbm, 126, rfl⟩
abbrev main_call4_c_3 : Ref sig .tc := ⟨.hbm, 127, rfl⟩
abbrev main_call4_v12 : Ref sig .tc := ⟨.hbm, 128, rfl⟩
abbrev main_call4_v13 : Ref sig .tc := ⟨.hbm, 129, rfl⟩
abbrev main_call4_v14 : Ref sig .tc := ⟨.hbm, 130, rfl⟩
abbrev main_call4_cst : Ref sig .tc := ⟨.hbm, 131, rfl⟩
abbrev main_call4_v15 : Ref sig .tc := ⟨.hbm, 132, rfl⟩
abbrev main_v40 : Ref sig .tc := ⟨.hbm, 133, rfl⟩
abbrev main_cst_7 : Ref sig .tc := ⟨.hbm, 134, rfl⟩
abbrev main_v41 : Ref sig .tc := ⟨.hbm, 135, rfl⟩
abbrev main_v42 : Ref sig .tc := ⟨.hbm, 136, rfl⟩
abbrev main_v43 : Ref sig .tc := ⟨.hbm, 137, rfl⟩
abbrev main_cst_8 : Ref sig .tc := ⟨.hbm, 138, rfl⟩
abbrev main_v44 : Ref sig .tc := ⟨.hbm, 139, rfl⟩
abbrev main_cst_9 : Ref sig .tc := ⟨.hbm, 140, rfl⟩
abbrev main_v45 : Ref sig .tc := ⟨.hbm, 141, rfl⟩
abbrev main_v46 : Ref sig .tc := ⟨.hbm, 142, rfl⟩
abbrev main_v47 : Ref sig .tc := ⟨.hbm, 143, rfl⟩
abbrev main_cst_10 : Ref sig .tc := ⟨.hbm, 144, rfl⟩
abbrev main_v48 : Ref sig .tc := ⟨.hbm, 145, rfl⟩
abbrev main_v49 : Ref sig .tc := ⟨.hbm, 146, rfl⟩
abbrev main_v50 : Ref sig .tc := ⟨.hbm, 147, rfl⟩
abbrev main_v51 : Ref sig .tc := ⟨.hbm, 148, rfl⟩
abbrev main_v52 : Ref sig .tc := ⟨.hbm, 149, rfl⟩
abbrev main_v53 : Ref sig .tc := ⟨.hbm, 150, rfl⟩
abbrev main_v54 : Ref sig .tc := ⟨.hbm, 151, rfl⟩
abbrev main_v55 : Ref sig .tc := ⟨.hbm, 152, rfl⟩
abbrev main_v56 : Ref sig .tc := ⟨.hbm, 153, rfl⟩
abbrev main_v57 : Ref sig .tc := ⟨.hbm, 154, rfl⟩
abbrev main_v58 : Ref sig .tc := ⟨.hbm, 155, rfl⟩
abbrev main_call5_cst : Ref sig .tc := ⟨.hbm, 156, rfl⟩
abbrev main_call5_v0 : Ref sig .tc := ⟨.hbm, 157, rfl⟩
abbrev main_v59 : Ref sig .tc := ⟨.hbm, 158, rfl⟩
abbrev main_call6_c : Ref sig .tc := ⟨.hbm, 159, rfl⟩
abbrev main_call6_v0 : Ref sig .tc := ⟨.hbm, 160, rfl⟩
abbrev main_call6_v1 : Ref sig .tc := ⟨.hbm, 161, rfl⟩
abbrev main_call6_c_0 : Ref sig .tc := ⟨.hbm, 162, rfl⟩
abbrev main_call6_v2 : Ref sig .tc := ⟨.hbm, 163, rfl⟩
abbrev main_call6_v3 : Ref sig .tc := ⟨.hbm, 164, rfl⟩
abbrev main_call6_v4 : Ref sig .tc := ⟨.hbm, 165, rfl⟩
abbrev main_call6_v5 : Ref sig .tc := ⟨.hbm, 166, rfl⟩
abbrev main_call6_c_1 : Ref sig .tc := ⟨.hbm, 167, rfl⟩
abbrev main_call6_c_2 : Ref sig .tc := ⟨.hbm, 168, rfl⟩
abbrev main_call6_v6 : Ref sig .tc := ⟨.hbm, 169, rfl⟩
abbrev main_call6_v7 : Ref sig .tc := ⟨.hbm, 170, rfl⟩
abbrev main_call6_v8 : Ref sig .tc := ⟨.hbm, 171, rfl⟩
abbrev main_call6_v9 : Ref sig .tc := ⟨.hbm, 172, rfl⟩
abbrev main_call6_v10 : Ref sig .tc := ⟨.hbm, 173, rfl⟩
abbrev main_call6_v11 : Ref sig .tc := ⟨.hbm, 174, rfl⟩
abbrev main_call6_c_3 : Ref sig .tc := ⟨.hbm, 175, rfl⟩
abbrev main_call6_v12 : Ref sig .tc := ⟨.hbm, 176, rfl⟩
abbrev main_call6_v13 : Ref sig .tc := ⟨.hbm, 177, rfl⟩
abbrev main_call6_v14 : Ref sig .tc := ⟨.hbm, 178, rfl⟩
abbrev main_call6_cst : Ref sig .tc := ⟨.hbm, 179, rfl⟩
abbrev main_call6_v15 : Ref sig .tc := ⟨.hbm, 180, rfl⟩
abbrev main_v60 : Ref sig .tc := ⟨.hbm, 181, rfl⟩
abbrev main_cst_11 : Ref sig .tc := ⟨.hbm, 182, rfl⟩
abbrev main_v61 : Ref sig .tc := ⟨.hbm, 183, rfl⟩
abbrev main_v62 : Ref sig .tc := ⟨.hbm, 184, rfl⟩
abbrev main_v63 : Ref sig .tc := ⟨.hbm, 185, rfl⟩
abbrev main_cst_12 : Ref sig .tc := ⟨.hbm, 186, rfl⟩
abbrev main_v64 : Ref sig .tc := ⟨.hbm, 187, rfl⟩
abbrev main_cst_13 : Ref sig .tc := ⟨.hbm, 188, rfl⟩
abbrev main_v65 : Ref sig .tc := ⟨.hbm, 189, rfl⟩
abbrev main_v66 : Ref sig .tc := ⟨.hbm, 190, rfl⟩
abbrev main_v67 : Ref sig .tc := ⟨.hbm, 191, rfl⟩
abbrev main_cst_14 : Ref sig .tc := ⟨.hbm, 192, rfl⟩
abbrev main_v68 : Ref sig .tc := ⟨.hbm, 193, rfl⟩
abbrev main_v69 : Ref sig .tc := ⟨.hbm, 194, rfl⟩
abbrev main_v70 : Ref sig .tc := ⟨.hbm, 195, rfl⟩
abbrev main_v71 : Ref sig .tc := ⟨.hbm, 196, rfl⟩
abbrev main_v72 : Ref sig .tc := ⟨.hbm, 197, rfl⟩
abbrev main_v73 : Ref sig .tc := ⟨.hbm, 198, rfl⟩
abbrev main_v74 : Ref sig .tc := ⟨.hbm, 199, rfl⟩
abbrev main_v75 : Ref sig .tc := ⟨.hbm, 200, rfl⟩
abbrev main_v76 : Ref sig .tc := ⟨.hbm, 201, rfl⟩
abbrev main_v77 : Ref sig .tc := ⟨.hbm, 202, rfl⟩
abbrev main_v78 : Ref sig .tc := ⟨.hbm, 203, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelTerms.lean ====
import proofs.«126515_j28973849378860_1_alg».proof.KernelIdeal

noncomputable section

namespace Cert.KernelIdeal.Terms
open Cert.KernelIdeal Idealize.ShloMosaic
variable {F : FTy → Type} [FloatOps F] [Facts]
open Facts₀ Facts
/-- The rows of `h` picked by `src` (an index below zero wraps round by the row count; an index outside the array reads a filler). -/
def take (h : (⟨S100000x128, .f32⟩ : BufTy).Contents (Elt F)) (src : (⟨S1600000, .i32⟩ : BufTy).Contents (Elt F)) :
    (⟨S1600000x128, .f32⟩ : BufTy).Contents (Elt F) :=
  select
    (broadcastInDim S1600000x128 ![0] bcast_S1600000_S1600000x128_0
      (Host.reduce IntOp.andi
        (andi
          (cmpi .sge (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src))
            (broadcastInDim S1600000x1 ![] bcast_S_S1600000x1 (constantI S_ 32 0#32)))
          (cmpi .sle (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src))
            (broadcastInDim S1600000x1 ![0, 1] bcast_S1x1_S1600000x1_0_1 (broadcastInDim S1x1 ![1] bcast_S1_S1x1_1 (constantI S1 32 99999#32)))))
        (constantI S_ 1 1#1) reducesTo_S1600000x1_S1600000_d1 h_S_))
    (Host.gather gather_S100000x128_S1600000x1_S1600000x128_1_0_n_n_0_1_1128 h
      (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src)))
    (broadcastInDim S1600000x128 ![] bcast_S_S1600000x128 (constant S_ .f32 0x7FC00000#32))

/-- The mean over each node's incoming edges: the picked rows summed into their destination rows, divided by the
    number of incoming edges (at least one). -/
def mean (h : (⟨S100000x128, .f32⟩ : BufTy).Contents (Elt F)) (src dst : (⟨S1600000, .i32⟩ : BufTy).Contents (Elt F)) :
    (⟨S100000x128, .f32⟩ : BufTy).Contents (Elt F) :=
  Host.divf
    (Host.scatterAdd scatter_S100000x128_S1600000x1_S1600000x128_1_0_0_1
      (broadcastInDim S100000x128 ![] bcast_S_S100000x128 (constant S_ .f32 0x00000000#32))
      (broadcastInDim S1600000x1 ![0] bcast_S1600000_S1600000x1_0 dst) (take h src))
    (broadcastInDim S100000x128 ![0, 1] bcast_S100000x1_S100000x128_0_1
      (broadcastInDim S100000x1 ![0] bcast_S100000_S100000x1_0
        (maximumf
          (Host.scatterAdd scatter_S100000_S1600000x1_S1600000_n_0_0_1
            (broadcastInDim S100000 ![] bcast_S_S100000 (constant S_ .f32 0x00000000#32))
            (broadcastInDim S1600000x1 ![0] bcast_S1600000_S1600000x1_0 dst)
            (broadcastInDim S1600000 ![] bcast_S_S1600000 (constant S_ .f32 0x3F800000#32)))
          (broadcastInDim S100000 ![] bcast_S_S100000 (constant S_ .f32 0x3F800000#32)))))
end Cert.KernelIdeal.Terms

end
-- ==== Proof.KernelRun.lean ====
import proofs.«126515_j28973849378860_1_alg».proof.Proof.KernelTerms
import proofs.«126515_j28973849378860_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A buffer that no operation of a stretch of host operations writes holds after the stretch what it held before. -/
local macro "unwritten" ops:ident : tactic =>
  `(tactic| (refine StableHlo.after_of_forall_not_mem _ _ (List.forall_iff_forall_mem.mp ?_)
             simp only [$ops:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes, StableHlo.binaryIndexed_writes,
               Finset.mem_singleton]
             repeat' apply And.intro
             all_goals exact StableHlo.devRef_ne_of_ne (by decide)))

/-- Contents carried to a typed reference's buffer type and back are unchanged. -/
theorem ofBuf_toBuf {Val : EltTy → Type} {T : BufTy} (x : StableHlo.TRef sig T) (v : T.Contents Val) :
    x.ofBuf (x.toBuf v) = v := by
  obtain ⟨r, h, h2, h3⟩ := x
  subst h
  rfl

/-! # The host operations before each region, from any buffer contents `X`

Before region `K` the host computes, from the layer's input `h`, the rows of `h` picked by the edges' sources, their
mean over each node's incoming edges, and the layer's bias as one row; every other buffer the region reads is
left as it was. -/

/-! ## Before region 0 -/

-- both sides are one composition of the gather, the reduction over an axis, the scattered sum and the division:
-- they are equal whatever those four operations compute
attribute [local irreducible] Host.reduce Host.gather Host.scatterAdd Host.divf in
/-- The mean of the picked rows of `h` over each node's incoming edges, as the two stretches before region 0 leave it. -/
theorem mean0_of (X : Valuation τ sig (Elt F)) :
    StableHlo.after hostOps0_1 (StableHlo.after hostOps0 X) (Proc.devRef .tc main_v12)
      = Terms.mean (X (Proc.devRef .tc main_arg0)) (X (Proc.devRef .tc main_arg1)) (X (Proc.devRef .tc main_arg2)) := by
  after_results_simp
  simp only [ofBuf_toBuf]
  rfl

/-- The layer's bias as one row, as the two stretches before region 0 leave it. -/
theorem bias0_of (X : Valuation τ sig (Elt F)) :
    StableHlo.after hostOps0_1 (StableHlo.after hostOps0 X) (Proc.devRef .tc main_v13)
      = shapeCast S1x128 (X (Proc.devRef .tc main_arg5)) shapeCasts_S128_S1x128 := by
  after_results_simp
  rfl

theorem keep0_main_arg0 (X : Valuation τ sig (Elt F)) :
    StableHlo.after hostOps0_1 (StableHlo.after hostOps0 X) (Proc.devRef .tc main_arg0) = X (Proc.devRef .tc main_arg0) :=
  (show StableHlo.after hostOps0_1 (StableHlo.after hostOps0 X) (Proc.devRef .tc main_arg0) = StableHlo.after hostOps0 X (Proc.devRef .tc main_arg0) by unwritten hostOps0_1).trans
    (show StableHlo.after hostOps0 X (Proc.devRef .tc main_arg0) = X (Proc.devRef .tc main_arg0) by unwritten hostOps0)

theorem keep0_main_arg3 (X : Valuation τ sig (Elt F)) :
    StableHlo.after hostOps0_1 (StableHlo.after hostOps0 X) (Proc.devRef .tc main_arg3) = X (Proc.devRef .tc main_arg3) :=
  (show StableHlo.after hostOps0_1 (StableHlo.after hostOps0 X) (Proc.devRef .tc main_arg3) = StableHlo.after hostOps0 X (Proc.devRef .tc main_arg3) by unwritten hostOps0_1).trans
    (show StableHlo.after hostOps0 X (Proc.devRef .tc main_arg3) = X (Proc.devRef .tc main_arg3) by unwritten hostOps0)

theorem keep0_main_arg4 (X : Valuation τ sig (Elt F)) :
    StableHlo.after hostOps0_1 (StableHlo.after hostOps0 X) (Proc.devRef .tc main_arg4) = X (Proc.devRef .tc main_arg4) :=
  (show StableHlo.after hostOps0_1 (StableHlo.after hostOps0 X) (Proc.devRef .tc main_arg4) = StableHlo.after hostOps0 X (Proc.devRef .tc main_arg4) by unwritten hostOps0_1).trans
    (show StableHlo.after hostOps0 X (Proc.devRef .tc main_arg4) = X (Proc.devRef .tc main_arg4) by unwritten hostOps0)

theorem keep0_main_arg1 (X : Valuation τ sig (Elt F)) :
    StableHlo.after hostOps0_1 (StableHlo.after hostOps0 X) (Proc.devRef .tc main_arg1) = X (Proc.devRef .tc main_arg1) :=
  (show StableHlo.after hostOps0_1 (StableHlo.after hostOps0 X) (Proc.devRef .tc main_arg1) = StableHlo.after hostOps0 X (Proc.devRef .tc main_arg1) by unwritten hostOps0_1).trans
    (show StableHlo.after hostOps0 X (Proc.devRef .tc main_arg1) = X (Proc.devRef .tc main_arg1) by unwritten hostOps0)

theorem keep0_main_arg2 (X : Valuation τ sig (Elt F)) :
    StableHlo.after hostOps0_1 (StableHlo.after hostOps0 X) (Proc.devRef .tc main_arg2) = X (Proc.devRef .tc main_arg2) :=
  (show StableHlo.after hostOps0_1 (StableHlo.after hostOps0 X) (Proc.devRef .tc main_arg2) = StableHlo.after hostOps0 X (Proc.devRef .tc main_arg2) by unwritten hostOps0_1).trans
    (show StableHlo.after hostOps0 X (Proc.devRef .tc main_arg2) = X (Proc.devRef .tc main_arg2) by unwritten hostOps0)

theorem keep0_main_arg6 (X : Valuation τ sig (Elt F)) :
    StableHlo.after hostOps0_1 (StableHlo.after hostOps0 X) (Proc.devRef .tc main_arg6) = X (Proc.devRef .tc main_arg6) :=
  (show StableHlo.after hostOps0_1 (StableHlo.after hostOps0 X) (Proc.devRef .tc main_arg6) = StableHlo.after hostOps0 X (Proc.devRef .tc main_arg6) by unwritten hostOps0_1).trans
    (show StableHlo.after hostOps0 X (Proc.devRef .tc main_arg6) = X (Proc.devRef .tc main_arg6) by unwritten hostOps0)

theorem keep0_main_arg7 (X : Valuation τ sig (Elt F)) :
    StableHlo.after hostOps0_1 (StableHlo.after hostOps0 X) (Proc.devRef .tc main_arg7) = X (Proc.devRef .tc main_arg7) :=
  (show StableHlo.after hostOps0_1 (StableHlo.after hostOps0 X) (Proc.devRef .tc main_arg7) = StableHlo.after hostOps0 X (Proc.devRef .tc main_arg7) by unwritten hostOps0_1).trans
    (show StableHlo.after hostOps0 X (Proc.devRef .tc main_arg7) = X (Proc.devRef .tc main_arg7) by unwritten hostOps0)

theorem keep0_main_arg8 (X : Valuation τ sig (Elt F)) :
    StableHlo.after hostOps0_1 (StableHlo.after hostOps0 X) (Proc.devRef .tc main_arg8) = X (Proc.devRef .tc main_arg8) :=
  (show StableHlo.after hostOps0_1 (StableHlo.after hostOps0 X) (Proc.devRef .tc main_arg8) = StableHlo.after hostOps0 X (Proc.devRef .tc main_arg8) by unwritten hostOps0_1).trans
    (show StableHlo.after hostOps0 X (Proc.devRef .tc main_arg8) = X (Proc.devRef .tc main_arg8) by unwritten hostOps0)

theorem keep0_main_arg9 (X : Valuation τ sig (Elt F)) :
    StableHlo.after hostOps0_1 (StableHlo.after hostOps0 X) (Proc.devRef .tc main_arg9) = X (Proc.devRef .tc main_arg9) :=
  (show StableHlo.after hostOps0_1 (StableHlo.after hostOps0 X) (Proc.devRef .tc main_arg9) = StableHlo.after hostOps0 X (Proc.devRef .tc main_arg9) by unwritten hostOps0_1).trans
    (show StableHlo.after hostOps0 X (Proc.devRef .tc main_arg9) = X (Proc.devRef .tc main_arg9) by unwritten hostOps0)

theorem keep0_main_arg10 (X : Valuation τ sig (Elt F)) :
    StableHlo.after hostOps0_1 (StableHlo.after hostOps0 X) (Proc.devRef .tc main_arg10) = X (Proc.devRef .tc main_arg10) :=
  (show StableHlo.after hostOps0_1 (StableHlo.after hostOps0 X) (Proc.devRef .tc main_arg10) = StableHlo.after hostOps0 X (Proc.devRef .tc main_arg10) by unwritten hostOps0_1).trans
    (show StableHlo.after hostOps0 X (Proc.devRef .tc main_arg10) = X (Proc.devRef .tc main_arg10) by unwritten hostOps0)

theorem keep0_main_arg11 (X : Valuation τ sig (Elt F)) :
    StableHlo.after hostOps0_1 (StableHlo.after hostOps0 X) (Proc.devRef .tc main_arg11) = X (Proc.devRef .tc main_arg11) :=
  (show StableHlo.after hostOps0_1 (StableHlo.after hostOps0 X) (Proc.devRef .tc main_arg11) = StableHlo.after hostOps0 X (Proc.devRef .tc main_arg11) by unwritten hostOps0_1).trans
    (show StableHlo.after hostOps0 X (Proc.devRef .tc main_arg11) = X (Proc.devRef .tc main_arg11) by unwritten hostOps0)

theorem keep0_main_arg12 (X : Valuation τ sig (Elt F)) :
    StableHlo.after hostOps0_1 (StableHlo.after hostOps0 X) (Proc.devRef .tc main_arg12) = X (Proc.devRef .tc main_arg12) :=
  (show StableHlo.after hostOps0_1 (StableHlo.after hostOps0 X) (Proc.devRef .tc main_arg12) = StableHlo.after hostOps0 X (Proc.devRef .tc main_arg12) by unwritten hostOps0_1).trans
    (show StableHlo.after hostOps0 X (Proc.devRef .tc main_arg12) = X (Proc.devRef .tc main_arg12) by unwritten hostOps0)

theorem keep0_main_arg13 (X : Valuation τ sig (Elt F)) :
    StableHlo.after hostOps0_1 (StableHlo.after hostOps0 X) (Proc.devRef .tc main_arg13) = X (Proc.devRef .tc main_arg13) :=
  (show StableHlo.after hostOps0_1 (StableHlo.after hostOps0 X) (Proc.devRef .tc main_arg13) = StableHlo.after hostOps0 X (Proc.devRef .tc main_arg13) by unwritten hostOps0_1).trans
    (show StableHlo.after hostOps0 X (Proc.devRef .tc main_arg13) = X (Proc.devRef .tc main_arg13) by unwritten hostOps0)

theorem keep0_main_arg14 (X : Valuation τ sig (Elt F)) :
    StableHlo.after hostOps0_1 (StableHlo.after hostOps0 X) (Proc.devRef .tc main_arg14) = X (Proc.devRef .tc main_arg14) :=
  (show StableHlo.after hostOps0_1 (StableHlo.after hostOps0 X) (Proc.devRef .tc main_arg14) = StableHlo.after hostOps0 X (Proc.devRef .tc main_arg14) by unwritten hostOps0_1).trans
    (show StableHlo.after hostOps0 X (Proc.devRef .tc main_arg14) = X (Proc.devRef .tc main_arg14) by unwritten hostOps0)

/-! ## Before region 1 -/

-- both sides are one composition of the gather, the reduction over an axis, the scattered sum and the division:
-- they are equal whatever those four operations compute
attribute [local irreducible] Host.reduce Host.gather Host.scatterAdd Host.divf in
/-- The mean of the picked rows of `h` over each node's incoming edges, as the two stretches before region 1 leave it. -/
theorem mean1_of (X : Valuation τ sig (Elt F)) :
    StableHlo.after hostOps1_1 (StableHlo.after hostOps1 X) (Proc.devRef .tc main_v27)
      = Terms.mean (X (Proc.devRef .tc main_v14)) (X (Proc.devRef .tc main_arg1)) (X (Proc.devRef .tc main_arg2)) := by
  after_results_simp
  simp only [ofBuf_toBuf]
  rfl

/-- The layer's bias as one row, as the two stretches before region 1 leave it. -/
theorem bias1_of (X : Valuation τ sig (Elt F)) :
    StableHlo.after hostOps1_1 (StableHlo.after hostOps1 X) (Proc.devRef .tc main_v28)
      = shapeCast S1x128 (X (Proc.devRef .tc main_arg8)) shapeCasts_S128_S1x128 := by
  after_results_simp
  rfl

theorem keep1_main_v14 (X : Valuation τ sig (Elt F)) :
    StableHlo.after hostOps1_1 (StableHlo.after hostOps1 X) (Proc.devRef .tc main_v14) = X (Proc.devRef .tc main_v14) :=
  (show StableHlo.after hostOps1_1 (StableHlo.after hostOps1 X) (Proc.devRef .tc main_v14) = StableHlo.after hostOps1 X (Proc.devRef .tc main_v14) by unwritten hostOps1_1).trans
    (show StableHlo.after hostOps1 X (Proc.devRef .tc main_v14) = X (Proc.devRef .tc main_v14) by unwritten hostOps1)

theorem keep1_main_arg6 (X : Valuation τ sig (Elt F)) :
    StableHlo.after hostOps1_1 (StableHlo.after hostOps1 X) (Proc.devRef .tc main_arg6) = X (Proc.devRef .tc main_arg6) :=
  (show StableHlo.after hostOps1_1 (StableHlo.after hostOps1 X) (Proc.devRef .tc main_arg6) = StableHlo.after hostOps1 X (Proc.devRef .tc main_arg6) by unwritten hostOps1_1).trans
    (show StableHlo.after hostOps1 X (Proc.devRef .tc main_arg6) = X (Proc.devRef .tc main_arg6) by unwritten hostOps1)

theorem keep1_main_arg7 (X : Valuation τ sig (Elt F)) :
    StableHlo.after hostOps1_1 (StableHlo.after hostOps1 X) (Proc.devRef .tc main_arg7) = X (Proc.devRef .tc main_arg7) :=
  (show StableHlo.after hostOps1_1 (StableHlo.after hostOps1 X) (Proc.devRef .tc main_arg7) = StableHlo.after hostOps1 X (Proc.devRef .tc main_arg7) by unwritten hostOps1_1).trans
    (show StableHlo.after hostOps1 X (Proc.devRef .tc main_arg7) = X (Proc.devRef .tc main_arg7) by unwritten hostOps1)

theorem keep1_main_arg1 (X : Valuation τ sig (Elt F)) :
    StableHlo.after hostOps1_1 (StableHlo.after hostOps1 X) (Proc.devRef .tc main_arg1) = X (Proc.devRef .tc main_arg1) :=
  (show StableHlo.after hostOps1_1 (StableHlo.after hostOps1 X) (Proc.devRef .tc main_arg1) = StableHlo.after hostOps1 X (Proc.devRef .tc main_arg1) by unwritten hostOps1_1).trans
    (show StableHlo.after hostOps1 X (Proc.devRef .tc main_arg1) = X (Proc.devRef .tc main_arg1) by unwritten hostOps1)

theorem keep1_main_arg2 (X : Valuation τ sig (Elt F)) :
    StableHlo.after hostOps1_1 (StableHlo.after hostOps1 X) (Proc.devRef .tc main_arg2) = X (Proc.devRef .tc main_arg2) :=
  (show StableHlo.after hostOps1_1 (StableHlo.after hostOps1 X) (Proc.devRef .tc main_arg2) = StableHlo.after hostOps1 X (Proc.devRef .tc main_arg2) by unwritten hostOps1_1).trans
    (show StableHlo.after hostOps1 X (Proc.devRef .tc main_arg2) = X (Proc.devRef .tc main_arg2) by unwritten hostOps1)

theorem keep1_main_arg9 (X : Valuation τ sig (Elt F)) :
    StableHlo.after hostOps1_1 (StableHlo.after hostOps1 X) (Proc.devRef .tc main_arg9) = X (Proc.devRef .tc main_arg9) :=
  (show StableHlo.after hostOps1_1 (StableHlo.after hostOps1 X) (Proc.devRef .tc main_arg9) = StableHlo.after hostOps1 X (Proc.devRef .tc main_arg9) by unwritten hostOps1_1).trans
    (show StableHlo.after hostOps1 X (Proc.devRef .tc main_arg9) = X (Proc.devRef .tc main_arg9) by unwritten hostOps1)

theorem keep1_main_arg10 (X : Valuation τ sig (Elt F)) :
    StableHlo.after hostOps1_1 (StableHlo.after hostOps1 X) (Proc.devRef .tc main_arg10) = X (Proc.devRef .tc main_arg10) :=
  (show StableHlo.after hostOps1_1 (StableHlo.after hostOps1 X) (Proc.devRef .tc main_arg10) = StableHlo.after hostOps1 X (Proc.devRef .tc main_arg10) by unwritten hostOps1_1).trans
    (show StableHlo.after hostOps1 X (Proc.devRef .tc main_arg10) = X (Proc.devRef .tc main_arg10) by unwritten hostOps1)

theorem keep1_main_arg11 (X : Valuation τ sig (Elt F)) :
    StableHlo.after hostOps1_1 (StableHlo.after hostOps1 X) (Proc.devRef .tc main_arg11) = X (Proc.devRef .tc main_arg11) :=
  (show StableHlo.after hostOps1_1 (StableHlo.after hostOps1 X) (Proc.devRef .tc main_arg11) = StableHlo.after hostOps1 X (Proc.devRef .tc main_arg11) by unwritten hostOps1_1).trans
    (show StableHlo.after hostOps1 X (Proc.devRef .tc main_arg11) = X (Proc.devRef .tc main_arg11) by unwritten hostOps1)

theorem keep1_main_arg12 (X : Valuation τ sig (Elt F)) :
    StableHlo.after hostOps1_1 (StableHlo.after hostOps1 X) (Proc.devRef .tc main_arg12) = X (Proc.devRef .tc main_arg12) :=
  (show StableHlo.after hostOps1_1 (StableHlo.after hostOps1 X) (Proc.devRef .tc main_arg12) = StableHlo.after hostOps1 X (Proc.devRef .tc main_arg12) by unwritten hostOps1_1).trans
    (show StableHlo.after hostOps1 X (Proc.devRef .tc main_arg12) = X (Proc.devRef .tc main_arg12) by unwritten hostOps1)

theorem keep1_main_arg13 (X : Valuation τ sig (Elt F)) :
    StableHlo.after hostOps1_1 (StableHlo.after hostOps1 X) (Proc.devRef .tc main_arg13) = X (Proc.devRef .tc main_arg13) :=
  (show StableHlo.after hostOps1_1 (StableHlo.after hostOps1 X) (Proc.devRef .tc main_arg13) = StableHlo.after hostOps1 X (Proc.devRef .tc main_arg13) by unwritten hostOps1_1).trans
    (show StableHlo.after hostOps1 X (Proc.devRef .tc main_arg13) = X (Proc.devRef .tc main_arg13) by unwritten hostOps1)

theorem keep1_main_arg14 (X : Valuation τ sig (Elt F)) :
    StableHlo.after hostOps1_1 (StableHlo.after hostOps1 X) (Proc.devRef .tc main_arg14) = X (Proc.devRef .tc main_arg14) :=
  (show StableHlo.after hostOps1_1 (StableHlo.after hostOps1 X) (Proc.devRef .tc main_arg14) = StableHlo.after hostOps1 X (Proc.devRef .tc main_arg14) by unwritten hostOps1_1).trans
    (show StableHlo.after hostOps1 X (Proc.devRef .tc main_arg14) = X (Proc.devRef .tc main_arg14) by unwritten hostOps1)

/-! ## Before region 2 -/

-- both sides are one composition of the gather, the reduction over an axis, the scattered sum and the division:
-- they are equal whatever those four operations compute
attribute [local irreducible] Host.reduce Host.gather Host.scatterAdd Host.divf in
/-- The mean of the picked rows of `h` over each node's incoming edges, as the two stretches before region 2 leave it. -/
theorem mean2_of (X : Valuation τ sig (Elt F)) :
    StableHlo.after hostOps2_1 (StableHlo.after hostOps2 X) (Proc.devRef .tc main_v42)
      = Terms.mean (X (Proc.devRef .tc main_v29)) (X (Proc.devRef .tc main_arg1)) (X (Proc.devRef .tc main_arg2)) := by
  after_results_simp
  simp only [ofBuf_toBuf]
  rfl

/-- The layer's bias as one row, as the two stretches before region 2 leave it. -/
theorem bias2_of (X : Valuation τ sig (Elt F)) :
    StableHlo.after hostOps2_1 (StableHlo.after hostOps2 X) (Proc.devRef .tc main_v43)
      = shapeCast S1x128 (X (Proc.devRef .tc main_arg11)) shapeCasts_S128_S1x128 := by
  after_results_simp
  rfl

theorem keep2_main_v29 (X : Valuation τ sig (Elt F)) :
    StableHlo.after hostOps2_1 (StableHlo.after hostOps2 X) (Proc.devRef .tc main_v29) = X (Proc.devRef .tc main_v29) :=
  (show StableHlo.after hostOps2_1 (StableHlo.after hostOps2 X) (Proc.devRef .tc main_v29) = StableHlo.after hostOps2 X (Proc.devRef .tc main_v29) by unwritten hostOps2_1).trans
    (show StableHlo.after hostOps2 X (Proc.devRef .tc main_v29) = X (Proc.devRef .tc main_v29) by unwritten hostOps2)

theorem keep2_main_arg9 (X : Valuation τ sig (Elt F)) :
    StableHlo.after hostOps2_1 (StableHlo.after hostOps2 X) (Proc.devRef .tc main_arg9) = X (Proc.devRef .tc main_arg9) :=
  (show StableHlo.after hostOps2_1 (StableHlo.after hostOps2 X) (Proc.devRef .tc main_arg9) = StableHlo.after hostOps2 X (Proc.devRef .tc main_arg9) by unwritten hostOps2_1).trans
    (show StableHlo.after hostOps2 X (Proc.devRef .tc main_arg9) = X (Proc.devRef .tc main_arg9) by unwritten hostOps2)

theorem keep2_main_arg10 (X : Valuation τ sig (Elt F)) :
    StableHlo.after hostOps2_1 (StableHlo.after hostOps2 X) (Proc.devRef .tc main_arg10) = X (Proc.devRef .tc main_arg10) :=
  (show StableHlo.after hostOps2_1 (StableHlo.after hostOps2 X) (Proc.devRef .tc main_arg10) = StableHlo.after hostOps2 X (Proc.devRef .tc main_arg10) by unwritten hostOps2_1).trans
    (show StableHlo.after hostOps2 X (Proc.devRef .tc main_arg10) = X (Proc.devRef .tc main_arg10) by unwritten hostOps2)

theorem keep2_main_arg1 (X : Valuation τ sig (Elt F)) :
    StableHlo.after hostOps2_1 (StableHlo.after hostOps2 X) (Proc.devRef .tc main_arg1) = X (Proc.devRef .tc main_arg1) :=
  (show StableHlo.after hostOps2_1 (StableHlo.after hostOps2 X) (Proc.devRef .tc main_arg1) = StableHlo.after hostOps2 X (Proc.devRef .tc main_arg1) by unwritten hostOps2_1).trans
    (show StableHlo.after hostOps2 X (Proc.devRef .tc main_arg1) = X (Proc.devRef .tc main_arg1) by unwritten hostOps2)

theorem keep2_main_arg2 (X : Valuation τ sig (Elt F)) :
    StableHlo.after hostOps2_1 (StableHlo.after hostOps2 X) (Proc.devRef .tc main_arg2) = X (Proc.devRef .tc main_arg2) :=
  (show StableHlo.after hostOps2_1 (StableHlo.after hostOps2 X) (Proc.devRef .tc main_arg2) = StableHlo.after hostOps2 X (Proc.devRef .tc main_arg2) by unwritten hostOps2_1).trans
    (show StableHlo.after hostOps2 X (Proc.devRef .tc main_arg2) = X (Proc.devRef .tc main_arg2) by unwritten hostOps2)

theorem keep2_main_arg12 (X : Valuation τ sig (Elt F)) :
    StableHlo.after hostOps2_1 (StableHlo.after hostOps2 X) (Proc.devRef .tc main_arg12) = X (Proc.devRef .tc main_arg12) :=
  (show StableHlo.after hostOps2_1 (StableHlo.after hostOps2 X) (Proc.devRef .tc main_arg12) = StableHlo.after hostOps2 X (Proc.devRef .tc main_arg12) by unwritten hostOps2_1).trans
    (show StableHlo.after hostOps2 X (Proc.devRef .tc main_arg12) = X (Proc.devRef .tc main_arg12) by unwritten hostOps2)

theorem keep2_main_arg13 (X : Valuation τ sig (Elt F)) :
    StableHlo.after hostOps2_1 (StableHlo.after hostOps2 X) (Proc.devRef .tc main_arg13) = X (Proc.devRef .tc main_arg13) :=
  (show StableHlo.after hostOps2_1 (StableHlo.after hostOps2 X) (Proc.devRef .tc main_arg13) = StableHlo.after hostOps2 X (Proc.devRef .tc main_arg13) by unwritten hostOps2_1).trans
    (show StableHlo.after hostOps2 X (Proc.devRef .tc main_arg13) = X (Proc.devRef .tc main_arg13) by unwritten hostOps2)

theorem keep2_main_arg14 (X : Valuation τ sig (Elt F)) :
    StableHlo.after hostOps2_1 (StableHlo.after hostOps2 X) (Proc.devRef .tc main_arg14) = X (Proc.devRef .tc main_arg14) :=
  (show StableHlo.after hostOps2_1 (StableHlo.after hostOps2 X) (Proc.devRef .tc main_arg14) = StableHlo.after hostOps2 X (Proc.devRef .tc main_arg14) by unwritten hostOps2_1).trans
    (show StableHlo.after hostOps2 X (Proc.devRef .tc main_arg14) = X (Proc.devRef .tc main_arg14) by unwritten hostOps2)

/-! ## Before region 3 -/

-- both sides are one composition of the gather, the reduction over an axis, the scattered sum and the division:
-- they are equal whatever those four operations compute
attribute [local irreducible] Host.reduce Host.gather Host.scatterAdd Host.divf in
/-- The mean of the picked rows of `h` over each node's incoming edges, as the two stretches before region 3 leave it. -/
theorem mean3_of (X : Valuation τ sig (Elt F)) :
    StableHlo.after hostOps3_1 (StableHlo.after hostOps3 X) (Proc.devRef .tc main_v57)
      = Terms.mean (X (Proc.devRef .tc main_v44)) (X (Proc.devRef .tc main_arg1)) (X (Proc.devRef .tc main_arg2)) := by
  after_results_simp
  simp only [ofBuf_toBuf]
  rfl

/-- The layer's bias as one row, as the two stretches before region 3 leave it. -/
theorem bias3_of (X : Valuation τ sig (Elt F)) :
    StableHlo.after hostOps3_1 (StableHlo.after hostOps3 X) (Proc.devRef .tc main_v58)
      = shapeCast S1x128 (X (Proc.devRef .tc main_arg14)) shapeCasts_S128_S1x128 := by
  after_results_simp
  rfl

theorem keep3_main_v44 (X : Valuation τ sig (Elt F)) :
    StableHlo.after hostOps3_1 (StableHlo.after hostOps3 X) (Proc.devRef .tc main_v44) = X (Proc.devRef .tc main_v44) :=
  (show StableHlo.after hostOps3_1 (StableHlo.after hostOps3 X) (Proc.devRef .tc main_v44) = StableHlo.after hostOps3 X (Proc.devRef .tc main_v44) by unwritten hostOps3_1).trans
    (show StableHlo.after hostOps3 X (Proc.devRef .tc main_v44) = X (Proc.devRef .tc main_v44) by unwritten hostOps3)

theorem keep3_main_arg12 (X : Valuation τ sig (Elt F)) :
    StableHlo.after hostOps3_1 (StableHlo.after hostOps3 X) (Proc.devRef .tc main_arg12) = X (Proc.devRef .tc main_arg12) :=
  (show StableHlo.after hostOps3_1 (StableHlo.after hostOps3 X) (Proc.devRef .tc main_arg12) = StableHlo.after hostOps3 X (Proc.devRef .tc main_arg12) by unwritten hostOps3_1).trans
    (show StableHlo.after hostOps3 X (Proc.devRef .tc main_arg12) = X (Proc.devRef .tc main_arg12) by unwritten hostOps3)

theorem keep3_main_arg13 (X : Valuation τ sig (Elt F)) :
    StableHlo.after hostOps3_1 (StableHlo.after hostOps3 X) (Proc.devRef .tc main_arg13) = X (Proc.devRef .tc main_arg13) :=
  (show StableHlo.after hostOps3_1 (StableHlo.after hostOps3 X) (Proc.devRef .tc main_arg13) = StableHlo.after hostOps3 X (Proc.devRef .tc main_arg13) by unwritten hostOps3_1).trans
    (show StableHlo.after hostOps3 X (Proc.devRef .tc main_arg13) = X (Proc.devRef .tc main_arg13) by unwritten hostOps3)

/-! # The run's buffer contents at each region's entry -/

variable (m : (ℓ : Loc nD τ sig) → Buf (Elt F) ℓ) (ρ : Dev nD → PrngReg)

/-! ## The arguments at the segment boundaries: no host operation and no region writes one -/

theorem at_W2_main_arg0 (c : Dev nD) : W2 m ρ c (Proc.devRef .tc main_arg0) = m ((c : Thread nD τ).loc main_arg0) :=
  keep0_main_arg0 (W0 m ρ c)

theorem at_W2_main_arg3 (c : Dev nD) : W2 m ρ c (Proc.devRef .tc main_arg3) = m ((c : Thread nD τ).loc main_arg3) :=
  keep0_main_arg3 (W0 m ρ c)

theorem at_W2_main_arg4 (c : Dev nD) : W2 m ρ c (Proc.devRef .tc main_arg4) = m ((c : Thread nD τ).loc main_arg4) :=
  keep0_main_arg4 (W0 m ρ c)

theorem at_W2_main_arg1 (c : Dev nD) : W2 m ρ c (Proc.devRef .tc main_arg1) = m ((c : Thread nD τ).loc main_arg1) :=
  keep0_main_arg1 (W0 m ρ c)
theorem at_W3_main_arg1 (c : Dev nD) : W3 m ρ c (Proc.devRef .tc main_arg1) = m ((c : Thread nD τ).loc main_arg1) :=
  (W3_of_ne m ρ c main_arg1 (by decide)).trans (at_W2_main_arg1 m ρ c)
theorem at_W5_main_arg1 (c : Dev nD) : W5 m ρ c (Proc.devRef .tc main_arg1) = m ((c : Thread nD τ).loc main_arg1) :=
  (keep1_main_arg1 (W3 m ρ c)).trans (at_W3_main_arg1 m ρ c)
theorem at_W6_main_arg1 (c : Dev nD) : W6 m ρ c (Proc.devRef .tc main_arg1) = m ((c : Thread nD τ).loc main_arg1) :=
  (W6_of_ne m ρ c main_arg1 (by decide)).trans (at_W5_main_arg1 m ρ c)
theorem at_W8_main_arg1 (c : Dev nD) : W8 m ρ c (Proc.devRef .tc main_arg1) = m ((c : Thread nD τ).loc main_arg1) :=
  (keep2_main_arg1 (W6 m ρ c)).trans (at_W6_main_arg1 m ρ c)
theorem at_W9_main_arg1 (c : Dev nD) : W9 m ρ c (Proc.devRef .tc main_arg1) = m ((c : Thread nD τ).loc main_arg1) :=
  (W9_of_ne m ρ c main_arg1 (by decide)).trans (at_W8_main_arg1 m ρ c)

theorem at_W2_main_arg2 (c : Dev nD) : W2 m ρ c (Proc.devRef .tc main_arg2) = m ((c : Thread nD τ).loc main_arg2) :=
  keep0_main_arg2 (W0 m ρ c)
theorem at_W3_main_arg2 (c : Dev nD) : W3 m ρ c (Proc.devRef .tc main_arg2) = m ((c : Thread nD τ).loc main_arg2) :=
  (W3_of_ne m ρ c main_arg2 (by decide)).trans (at_W2_main_arg2 m ρ c)
theorem at_W5_main_arg2 (c : Dev nD) : W5 m ρ c (Proc.devRef .tc main_arg2) = m ((c : Thread nD τ).loc main_arg2) :=
  (keep1_main_arg2 (W3 m ρ c)).trans (at_W3_main_arg2 m ρ c)
theorem at_W6_main_arg2 (c : Dev nD) : W6 m ρ c (Proc.devRef .tc main_arg2) = m ((c : Thread nD τ).loc main_arg2) :=
  (W6_of_ne m ρ c main_arg2 (by decide)).trans (at_W5_main_arg2 m ρ c)
theorem at_W8_main_arg2 (c : Dev nD) : W8 m ρ c (Proc.devRef .tc main_arg2) = m ((c : Thread nD τ).loc main_arg2) :=
  (keep2_main_arg2 (W6 m ρ c)).trans (at_W6_main_arg2 m ρ c)
theorem at_W9_main_arg2 (c : Dev nD) : W9 m ρ c (Proc.devRef .tc main_arg2) = m ((c : Thread nD τ).loc main_arg2) :=
  (W9_of_ne m ρ c main_arg2 (by decide)).trans (at_W8_main_arg2 m ρ c)

theorem at_W2_main_arg6 (c : Dev nD) : W2 m ρ c (Proc.devRef .tc main_arg6) = m ((c : Thread nD τ).loc main_arg6) :=
  keep0_main_arg6 (W0 m ρ c)
theorem at_W3_main_arg6 (c : Dev nD) : W3 m ρ c (Proc.devRef .tc main_arg6) = m ((c : Thread nD τ).loc main_arg6) :=
  (W3_of_ne m ρ c main_arg6 (by decide)).trans (at_W2_main_arg6 m ρ c)
theorem at_W5_main_arg6 (c : Dev nD) : W5 m ρ c (Proc.devRef .tc main_arg6) = m ((c : Thread nD τ).loc main_arg6) :=
  (keep1_main_arg6 (W3 m ρ c)).trans (at_W3_main_arg6 m ρ c)

theorem at_W2_main_arg7 (c : Dev nD) : W2 m ρ c (Proc.devRef .tc main_arg7) = m ((c : Thread nD τ).loc main_arg7) :=
  keep0_main_arg7 (W0 m ρ c)
theorem at_W3_main_arg7 (c : Dev nD) : W3 m ρ c (Proc.devRef .tc main_arg7) = m ((c : Thread nD τ).loc main_arg7) :=
  (W3_of_ne m ρ c main_arg7 (by decide)).trans (at_W2_main_arg7 m ρ c)
theorem at_W5_main_arg7 (c : Dev nD) : W5 m ρ c (Proc.devRef .tc main_arg7) = m ((c : Thread nD τ).loc main_arg7) :=
  (keep1_main_arg7 (W3 m ρ c)).trans (at_W3_main_arg7 m ρ c)

theorem at_W2_main_arg8 (c : Dev nD) : W2 m ρ c (Proc.devRef .tc main_arg8) = m ((c : Thread nD τ).loc main_arg8) :=
  keep0_main_arg8 (W0 m ρ c)
theorem at_W3_main_arg8 (c : Dev nD) : W3 m ρ c (Proc.devRef .tc main_arg8) = m ((c : Thread nD τ).loc main_arg8) :=
  (W3_of_ne m ρ c main_arg8 (by decide)).trans (at_W2_main_arg8 m ρ c)

theorem at_W2_main_arg9 (c : Dev nD) : W2 m ρ c (Proc.devRef .tc main_arg9) = m ((c : Thread nD τ).loc main_arg9) :=
  keep0_main_arg9 (W0 m ρ c)
theorem at_W3_main_arg9 (c : Dev nD) : W3 m ρ c (Proc.devRef .tc main_arg9) = m ((c : Thread nD τ).loc main_arg9) :=
  (W3_of_ne m ρ c main_arg9 (by decide)).trans (at_W2_main_arg9 m ρ c)
theorem at_W5_main_arg9 (c : Dev nD) : W5 m ρ c (Proc.devRef .tc main_arg9) = m ((c : Thread nD τ).loc main_arg9) :=
  (keep1_main_arg9 (W3 m ρ c)).trans (at_W3_main_arg9 m ρ c)
theorem at_W6_main_arg9 (c : Dev nD) : W6 m ρ c (Proc.devRef .tc main_arg9) = m ((c : Thread nD τ).loc main_arg9) :=
  (W6_of_ne m ρ c main_arg9 (by decide)).trans (at_W5_main_arg9 m ρ c)
theorem at_W8_main_arg9 (c : Dev nD) : W8 m ρ c (Proc.devRef .tc main_arg9) = m ((c : Thread nD τ).loc main_arg9) :=
  (keep2_main_arg9 (W6 m ρ c)).trans (at_W6_main_arg9 m ρ c)

theorem at_W2_main_arg10 (c : Dev nD) : W2 m ρ c (Proc.devRef .tc main_arg10) = m ((c : Thread nD τ).loc main_arg10) :=
  keep0_main_arg10 (W0 m ρ c)
theorem at_W3_main_arg10 (c : Dev nD) : W3 m ρ c (Proc.devRef .tc main_arg10) = m ((c : Thread nD τ).loc main_arg10) :=
  (W3_of_ne m ρ c main_arg10 (by decide)).trans (at_W2_main_arg10 m ρ c)
theorem at_W5_main_arg10 (c : Dev nD) : W5 m ρ c (Proc.devRef .tc main_arg10) = m ((c : Thread nD τ).loc main_arg10) :=
  (keep1_main_arg10 (W3 m ρ c)).trans (at_W3_main_arg10 m ρ c)
theorem at_W6_main_arg10 (c : Dev nD) : W6 m ρ c (Proc.devRef .tc main_arg10) = m ((c : Thread nD τ).loc main_arg10) :=
  (W6_of_ne m ρ c main_arg10 (by decide)).trans (at_W5_main_arg10 m ρ c)
theorem at_W8_main_arg10 (c : Dev nD) : W8 m ρ c (Proc.devRef .tc main_arg10) = m ((c : Thread nD τ).loc main_arg10) :=
  (keep2_main_arg10 (W6 m ρ c)).trans (at_W6_main_arg10 m ρ c)

theorem at_W2_main_arg11 (c : Dev nD) : W2 m ρ c (Proc.devRef .tc main_arg11) = m ((c : Thread nD τ).loc main_arg11) :=
  keep0_main_arg11 (W0 m ρ c)
theorem at_W3_main_arg11 (c : Dev nD) : W3 m ρ c (Proc.devRef .tc main_arg11) = m ((c : Thread nD τ).loc main_arg11) :=
  (W3_of_ne m ρ c main_arg11 (by decide)).trans (at_W2_main_arg11 m ρ c)
theorem at_W5_main_arg11 (c : Dev nD) : W5 m ρ c (Proc.devRef .tc main_arg11) = m ((c : Thread nD τ).loc main_arg11) :=
  (keep1_main_arg11 (W3 m ρ c)).trans (at_W3_main_arg11 m ρ c)
theorem at_W6_main_arg11 (c : Dev nD) : W6 m ρ c (Proc.devRef .tc main_arg11) = m ((c : Thread nD τ).loc main_arg11) :=
  (W6_of_ne m ρ c main_arg11 (by decide)).trans (at_W5_main_arg11 m ρ c)

theorem at_W2_main_arg12 (c : Dev nD) : W2 m ρ c (Proc.devRef .tc main_arg12) = m ((c : Thread nD τ).loc main_arg12) :=
  keep0_main_arg12 (W0 m ρ c)
theorem at_W3_main_arg12 (c : Dev nD) : W3 m ρ c (Proc.devRef .tc main_arg12) = m ((c : Thread nD τ).loc main_arg12) :=
  (W3_of_ne m ρ c main_arg12 (by decide)).trans (at_W2_main_arg12 m ρ c)
theorem at_W5_main_arg12 (c : Dev nD) : W5 m ρ c (Proc.devRef .tc main_arg12) = m ((c : Thread nD τ).loc main_arg12) :=
  (keep1_main_arg12 (W3 m ρ c)).trans (at_W3_main_arg12 m ρ c)
theorem at_W6_main_arg12 (c : Dev nD) : W6 m ρ c (Proc.devRef .tc main_arg12) = m ((c : Thread nD τ).loc main_arg12) :=
  (W6_of_ne m ρ c main_arg12 (by decide)).trans (at_W5_main_arg12 m ρ c)
theorem at_W8_main_arg12 (c : Dev nD) : W8 m ρ c (Proc.devRef .tc main_arg12) = m ((c : Thread nD τ).loc main_arg12) :=
  (keep2_main_arg12 (W6 m ρ c)).trans (at_W6_main_arg12 m ρ c)
theorem at_W9_main_arg12 (c : Dev nD) : W9 m ρ c (Proc.devRef .tc main_arg12) = m ((c : Thread nD τ).loc main_arg12) :=
  (W9_of_ne m ρ c main_arg12 (by decide)).trans (at_W8_main_arg12 m ρ c)
theorem at_W11_main_arg12 (c : Dev nD) : W11 m ρ c (Proc.devRef .tc main_arg12) = m ((c : Thread nD τ).loc main_arg12) :=
  (keep3_main_arg12 (W9 m ρ c)).trans (at_W9_main_arg12 m ρ c)

theorem at_W2_main_arg13 (c : Dev nD) : W2 m ρ c (Proc.devRef .tc main_arg13) = m ((c : Thread nD τ).loc main_arg13) :=
  keep0_main_arg13 (W0 m ρ c)
theorem at_W3_main_arg13 (c : Dev nD) : W3 m ρ c (Proc.devRef .tc main_arg13) = m ((c : Thread nD τ).loc main_arg13) :=
  (W3_of_ne m ρ c main_arg13 (by decide)).trans (at_W2_main_arg13 m ρ c)
theorem at_W5_main_arg13 (c : Dev nD) : W5 m ρ c (Proc.devRef .tc main_arg13) = m ((c : Thread nD τ).loc main_arg13) :=
  (keep1_main_arg13 (W3 m ρ c)).trans (at_W3_main_arg13 m ρ c)
theorem at_W6_main_arg13 (c : Dev nD) : W6 m ρ c (Proc.devRef .tc main_arg13) = m ((c : Thread nD τ).loc main_arg13) :=
  (W6_of_ne m ρ c main_arg13 (by decide)).trans (at_W5_main_arg13 m ρ c)
theorem at_W8_main_arg13 (c : Dev nD) : W8 m ρ c (Proc.devRef .tc main_arg13) = m ((c : Thread nD τ).loc main_arg13) :=
  (keep2_main_arg13 (W6 m ρ c)).trans (at_W6_main_arg13 m ρ c)
theorem at_W9_main_arg13 (c : Dev nD) : W9 m ρ c (Proc.devRef .tc main_arg13) = m ((c : Thread nD τ).loc main_arg13) :=
  (W9_of_ne m ρ c main_arg13 (by decide)).trans (at_W8_main_arg13 m ρ c)
theorem at_W11_main_arg13 (c : Dev nD) : W11 m ρ c (Proc.devRef .tc main_arg13) = m ((c : Thread nD τ).loc main_arg13) :=
  (keep3_main_arg13 (W9 m ρ c)).trans (at_W9_main_arg13 m ρ c)

theorem at_W2_main_arg14 (c : Dev nD) : W2 m ρ c (Proc.devRef .tc main_arg14) = m ((c : Thread nD τ).loc main_arg14) :=
  keep0_main_arg14 (W0 m ρ c)
theorem at_W3_main_arg14 (c : Dev nD) : W3 m ρ c (Proc.devRef .tc main_arg14) = m ((c : Thread nD τ).loc main_arg14) :=
  (W3_of_ne m ρ c main_arg14 (by decide)).trans (at_W2_main_arg14 m ρ c)
theorem at_W5_main_arg14 (c : Dev nD) : W5 m ρ c (Proc.devRef .tc main_arg14) = m ((c : Thread nD τ).loc main_arg14) :=
  (keep1_main_arg14 (W3 m ρ c)).trans (at_W3_main_arg14 m ρ c)
theorem at_W6_main_arg14 (c : Dev nD) : W6 m ρ c (Proc.devRef .tc main_arg14) = m ((c : Thread nD τ).loc main_arg14) :=
  (W6_of_ne m ρ c main_arg14 (by decide)).trans (at_W5_main_arg14 m ρ c)
theorem at_W8_main_arg14 (c : Dev nD) : W8 m ρ c (Proc.devRef .tc main_arg14) = m ((c : Thread nD τ).loc main_arg14) :=
  (keep2_main_arg14 (W6 m ρ c)).trans (at_W6_main_arg14 m ρ c)
theorem at_W9_main_arg14 (c : Dev nD) : W9 m ρ c (Proc.devRef .tc main_arg14) = m ((c : Thread nD τ).loc main_arg14) :=
  (W9_of_ne m ρ c main_arg14 (by decide)).trans (at_W8_main_arg14 m ρ c)

/-! ## What each region finds in its five input arrays -/

/-- Region 0's layer input is the first argument as launched. -/
theorem entry0_h (c : Dev nD) : V2 m ρ c main_arg0 = m ((c : Thread nD τ).loc main_arg0) :=
  at_W2_main_arg0 m ρ c
/-- Region 0's second array is the mean of the first argument's picked rows over each node's incoming edges. -/
theorem entry0_mean (c : Dev nD) : V2 m ρ c main_v12 = Terms.mean (m ((c : Thread nD τ).loc main_arg0)) (m ((c : Thread nD τ).loc main_arg1)) (m ((c : Thread nD τ).loc main_arg2)) :=
  mean0_of (W0 m ρ c)
/-- Region 0's two weight matrices are the arguments as launched. -/
theorem entry0_ws (c : Dev nD) : V2 m ρ c main_arg3 = m ((c : Thread nD τ).loc main_arg3) :=
  at_W2_main_arg3 m ρ c
theorem entry0_wn (c : Dev nD) : V2 m ρ c main_arg4 = m ((c : Thread nD τ).loc main_arg4) :=
  at_W2_main_arg4 m ρ c
/-- Region 0's bias is the bias argument as one row. -/
theorem entry0_b (c : Dev nD) : V2 m ρ c main_v13 = shapeCast S1x128 (m ((c : Thread nD τ).loc main_arg5)) shapeCasts_S128_S1x128 :=
  bias0_of (W0 m ρ c)

/-- Region 1's layer input is region 0's output array after its run. -/
theorem entry1_h (c : Dev nD) : V5 m ρ c main_v14 = (dat0 (V2 m ρ) c).arrAt 5 cfg0.N :=
  (keep1_main_v14 (W3 m ρ c)).trans (W3_arr m ρ c 5)
/-- Region 1's second array is the mean of that input's picked rows over each node's incoming edges. -/
theorem entry1_mean (c : Dev nD) : V5 m ρ c main_v27 = Terms.mean ((dat0 (V2 m ρ) c).arrAt 5 cfg0.N) (m ((c : Thread nD τ).loc main_arg1)) (m ((c : Thread nD τ).loc main_arg2)) := by
  have e := mean1_of (W3 m ρ c)
  rw [show W3 m ρ c (Proc.devRef .tc main_v14) = (dat0 (V2 m ρ) c).arrAt 5 cfg0.N from W3_arr m ρ c 5,
    at_W3_main_arg1 m ρ c, at_W3_main_arg2 m ρ c] at e
  exact e
/-- Region 1's two weight matrices are the arguments as launched. -/
theorem entry1_ws (c : Dev nD) : V5 m ρ c main_arg6 = m ((c : Thread nD τ).loc main_arg6) :=
  at_W5_main_arg6 m ρ c
theorem entry1_wn (c : Dev nD) : V5 m ρ c main_arg7 = m ((c : Thread nD τ).loc main_arg7) :=
  at_W5_main_arg7 m ρ c
/-- Region 1's bias is the bias argument as one row. -/
theorem entry1_b (c : Dev nD) : V5 m ρ c main_v28 = shapeCast S1x128 (m ((c : Thread nD τ).loc main_arg8)) shapeCasts_S128_S1x128 := by
  have e := bias1_of (W3 m ρ c)
  rw [at_W3_main_arg8 m ρ c] at e
  exact e

/-- Region 2's layer input is region 1's output array after its run. -/
theorem entry2_h (c : Dev nD) : V8 m ρ c main_v29 = (dat1 (V5 m ρ) c).arrAt 5 cfg1.N :=
  (keep2_main_v29 (W6 m ρ c)).trans (W6_arr m ρ c 5)
/-- Region 2's second array is the mean of that input's picked rows over each node's incoming edges. -/
theorem entry2_mean (c : Dev nD) : V8 m ρ c main_v42 = Terms.mean ((dat1 (V5 m ρ) c).arrAt 5 cfg1.N) (m ((c : Thread nD τ).loc main_arg1)) (m ((c : Thread nD τ).loc main_arg2)) := by
  have e := mean2_of (W6 m ρ c)
  rw [show W6 m ρ c (Proc.devRef .tc main_v29) = (dat1 (V5 m ρ) c).arrAt 5 cfg1.N from W6_arr m ρ c 5,
    at_W6_main_arg1 m ρ c, at_W6_main_arg2 m ρ c] at e
  exact e
/-- Region 2's two weight matrices are the arguments as launched. -/
theorem entry2_ws (c : Dev nD) : V8 m ρ c main_arg9 = m ((c : Thread nD τ).loc main_arg9) :=
  at_W8_main_arg9 m ρ c
theorem entry2_wn (c : Dev nD) : V8 m ρ c main_arg10 = m ((c : Thread nD τ).loc main_arg10) :=
  at_W8_main_arg10 m ρ c
/-- Region 2's bias is the bias argument as one row. -/
theorem entry2_b (c : Dev nD) : V8 m ρ c main_v43 = shapeCast S1x128 (m ((c : Thread nD τ).loc main_arg11)) shapeCasts_S128_S1x128 := by
  have e := bias2_of (W6 m ρ c)
  rw [at_W6_main_arg11 m ρ c] at e
  exact e

/-- Region 3's layer input is region 2's output array after its run. -/
theorem entry3_h (c : Dev nD) : V11 m ρ c main_v44 = (dat2 (V8 m ρ) c).arrAt 5 cfg2.N :=
  (keep3_main_v44 (W9 m ρ c)).trans (W9_arr m ρ c 5)
/-- Region 3's second array is the mean of that input's picked rows over each node's incoming edges. -/
theorem entry3_mean (c : Dev nD) : V11 m ρ c main_v57 = Terms.mean ((dat2 (V8 m ρ) c).arrAt 5 cfg2.N) (m ((c : Thread nD τ).loc main_arg1)) (m ((c : Thread nD τ).loc main_arg2)) := by
  have e := mean3_of (W9 m ρ c)
  rw [show W9 m ρ c (Proc.devRef .tc main_v44) = (dat2 (V8 m ρ) c).arrAt 5 cfg2.N from W9_arr m ρ c 5,
    at_W9_main_arg1 m ρ c, at_W9_main_arg2 m ρ c] at e
  exact e
/-- Region 3's two weight matrices are the arguments as launched. -/
theorem entry3_ws (c : Dev nD) : V11 m ρ c main_arg12 = m ((c : Thread nD τ).loc main_arg12) :=
  at_W11_main_arg12 m ρ c
theorem entry3_wn (c : Dev nD) : V11 m ρ c main_arg13 = m ((c : Thread nD τ).loc main_arg13) :=
  at_W11_main_arg13 m ρ c
/-- Region 3's bias is the bias argument as one row. -/
theorem entry3_b (c : Dev nD) : V11 m ρ c main_v58 = shapeCast S1x128 (m ((c : Thread nD τ).loc main_arg14)) shapeCasts_S128_S1x128 := by
  have e := bias3_of (W9 m ρ c)
  rw [at_W9_main_arg14 m ρ c] at e
  exact e

/-! # The run, with its result -/

set_option backward.isDefEq.respectTransparency.types false in
/-- At the compiled mesh, from any memory with zero counters, every weakly fair execution of @main on the TensorCores
    terminates, nothing faulting, and every final state has the result buffer at region 3's output array after its
    run and the argument arrays as launched. -/
theorem run : θ_run defs (onTc (τ := τ) (main (F := F))) ⟨m, fun _ => 0, ρ⟩ (fun r => ∀ c : Dev nD,
      r.2.mem ((c.tc : Thread nD τ).loc main_v59) = (dat3 (V11 m ρ) c).arrAt 5 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨(h c _ (mem_uc main_v59 (by decide))).trans (W12_arr m ρ c 5),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c),
       (h c _ (mem_uc main_arg13 (by decide))).trans (W12_main_arg13 m ρ c),
       (h c _ (mem_uc main_arg14 (by decide))).trans (W12_main_arg14 m ρ c)⟩)

end Cert.KernelIdeal.KRun

end
-- ==== Proof.LibMatmulPlain.lean ====
/-
  A plain matrix product read at an entry. For dimension numbers that contract the second axis of an [M, K] array with
  the first axis of a [K, N] array, with no batch axes, the product into a zero accumulator is, at entry (r, q), the sum
  over k of left(r, k) * right(k, q) on the extended reals.
-/
import Idealize.ShloMosaic.PureOps.Ideal
import Idealize.ShloMosaic.PureOps.Ideal.Laws
import Idealize.ShloMosaic.Lib.ValueIdx

noncomputable section

open scoped BigOperators

namespace Cert.LibMatmulPlain

open Idealize.ShloMosaic Idealize.ShloMosaic.ValueIdx

variable {M K N : Nat} (d : DotDims ⟨2, ![M, K]⟩ ⟨2, ![K, N]⟩ ⟨2, ![M, N]⟩)
  (hlc : d.lhsContracting = [1]) (hrc : d.rhsContracting = [0]) (hln : d.lhsNonContracting = [0])
  (hrn : d.rhsNonContracting = [1]) (hlb : d.lhsBatch = []) (hrb : d.rhsBatch = [])

include hlc in
theorem rank_contr_one : d.contr.rank = 1 := by rw [d.rank_contr, hlc]; rfl

include hlc in
theorem size_contr_zero : d.contr.size ⟨0, by rw [rank_contr_one d hlc]; exact Nat.one_pos⟩ = K := by
  have := d.size_contr 0 (by rw [hlc]; exact Nat.one_pos)
  rw [this]
  simp [hlc]

include hln hlb in
/-- The left operand is read in the row of the result entry … -/
theorem lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
/-- … and the right operand in its column. -/
theorem rhs_col (j : (⟨2, ![M, N]⟩ : Shape).Idx) (k : d.contr.Idx) : ((d.rhsIdx j k 1 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The product into the zero accumulator at entry (r, q): the sum over the contracted axis. -/
theorem matmul_zero_apply {φ₁ φ₂ : FTy} (prec : Option ContractPrecision) (lhs : FVec Ideal ⟨2, ![M, K]⟩ φ₁)
    (rhs : FVec Ideal ⟨2, ![K, N]⟩ φ₂) (r : Fin M) (q : Fin N) :
    FloatOps.matmul d prec lhs rhs (constant ⟨2, ![M, N]⟩ .f32 0x00000000#32) (ix2 r q)
      = ∑ k : Fin K, lhs (ix2 r k) * rhs (ix2 k q) := by
  rw [Ideal.matmul_constant_zero_apply,
    ← Equiv.sum_comp (contrEquiv1 d K (rank_contr_one d hlc) (size_contr_zero d hlc)).symm]
  refine Finset.sum_congr rfl fun k _ => ?_
  have hk := contrEquiv1_symm_val d K (rank_contr_one d hlc) (size_contr_zero d hlc) k
  congr 1
  · refine congrArg lhs (funext fun a => Fin.ext ?_)
    match a with
    | ⟨0, _⟩ => exact lhs_row d hln hlb _ _
    | ⟨1, _⟩ => exact (d.lhsIdx_val_of_single hlc _ _).trans hk
  · refine congrArg rhs (funext fun a => Fin.ext ?_)
    match a with
    | ⟨0, _⟩ => exact (d.rhsIdx_val_of_single hrc _ _).trans hk
    | ⟨1, _⟩ => exact rhs_col d hln hrn hlb hrb _ _

end Cert.LibMatmulPlain

end
-- ==== Proof.LibDotsNT.lean ====
/-
  Matrix products read at an entry, on the extended reals.

  * Right operand contracted on its LAST axis: for dimension numbers that contract the second axis of an [M, K] array
    with the second axis of an [N, K] array, with no batch axes, the product at entry (r, q) is the sum over k of
    left(r, k) * right(q, k) -- for the matrix unit's product into a zero accumulator (`nt_matmul_zero_apply`) and
    for the host's dot_general (`nt_dotGeneral_apply`).
  * The host's dot_general with the plain dimension numbers, [M, K] by [K, N]: at entry (r, q) the sum over k of
    left(r, k) * right(k, q) (`plain_dotGeneral_apply`).
-/
import Idealize.ShloMosaic.PureOps.Ideal
import Idealize.ShloMosaic.PureOps.Ideal.Laws
import Idealize.ShloMosaic.Lib.ValueIdx

noncomputable section

open scoped BigOperators

namespace Cert.LibDotsNT

open Idealize.ShloMosaic Idealize.ShloMosaic.ValueIdx

section NT

variable {M K N : Nat} (d : DotDims ⟨2, ![M, K]⟩ ⟨2, ![N, K]⟩ ⟨2, ![M, N]⟩)
  (hlc : d.lhsContracting = [1]) (hrc : d.rhsContracting = [1]) (hln : d.lhsNonContracting = [0])
  (hrn : d.rhsNonContracting = [0]) (hlb : d.lhsBatch = []) (hrb : d.rhsBatch = [])

include hlc in
theorem nt_rank_contr_one : d.contr.rank = 1 := by rw [d.rank_contr, hlc]; rfl

include hlc in
theorem nt_size_contr_zero : d.contr.size ⟨0, by rw [nt_rank_contr_one d hlc]; exact Nat.one_pos⟩ = K := by
  have := d.size_contr 0 (by rw [hlc]; exact Nat.one_pos)
  rw [this]
  simp [hlc]

include hln hlb in
/-- The left operand is read in the row of the result entry ... -/
theorem nt_lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
/-- ... and the right operand in the row numbered by the result entry's column. -/
theorem nt_rhs_row (j : (⟨2, ![M, N]⟩ : Shape).Idx) (k : d.contr.Idx) : ((d.rhsIdx j k 0 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The contraction's sum re-indexed by the one contracted coordinate. -/
theorem nt_sum_apply {φ₁ φ₂ : FTy} (lhs : FVec Ideal ⟨2, ![M, K]⟩ φ₁) (rhs : FVec Ideal ⟨2, ![N, K]⟩ φ₂) (r : Fin M) (q : Fin N) :
    ∑ k : d.contr.Idx, lhs (d.lhsIdx (ix2 r q) k) * rhs (d.rhsIdx (ix2 r q) k)
      = ∑ k : Fin K, lhs (ix2 r k) * rhs (ix2 q k) := by
  rw [← Equiv.sum_comp (contrEquiv1 d K (nt_rank_contr_one d hlc) (nt_size_contr_zero d hlc)).symm]
  refine Finset.sum_congr rfl fun k _ => ?_
  have hk := contrEquiv1_symm_val d K (nt_rank_contr_one d hlc) (nt_size_contr_zero d hlc) k
  congr 1
  · refine congrArg lhs (funext fun a => Fin.ext ?_)
    match a with
    | ⟨0, _⟩ => exact nt_lhs_row d hln hlb _ _
    | ⟨1, _⟩ => exact (d.lhsIdx_val_of_single hlc _ _).trans hk
  · refine congrArg rhs (funext fun a => Fin.ext ?_)
    match a with
    | ⟨0, _⟩ => exact nt_rhs_row d hln hrn hlb hrb _ _
    | ⟨1, _⟩ => exact (d.rhsIdx_val_of_single hrc _ _).trans hk

include hlc hrc hln hrn hlb hrb in
/-- The matrix unit's product into the zero accumulator at entry (r, q). -/
theorem nt_matmul_zero_apply {φ₁ φ₂ : FTy} (prec : Option ContractPrecision) (lhs : FVec Ideal ⟨2, ![M, K]⟩ φ₁)
    (rhs : FVec Ideal ⟨2, ![N, K]⟩ φ₂) (r : Fin M) (q : Fin N) :
    FloatOps.matmul d prec lhs rhs (constant ⟨2, ![M, N]⟩ .f32 0x00000000#32) (ix2 r q)
      = ∑ k : Fin K, lhs (ix2 r k) * rhs (ix2 q k) := by
  rw [Ideal.matmul_constant_zero_apply]
  exact nt_sum_apply d hlc hrc hln hrn hlb hrb lhs rhs r q

include hlc hrc hln hrn hlb hrb in
/-- The host's dot_general at entry (r, q). -/
theorem nt_dotGeneral_apply {φ₁ φ₂ : FTy} (prec : Option ContractPrecision) (sched : HostSchedule)
    (lhs : FVec Ideal ⟨2, ![M, K]⟩ φ₁) (rhs : FVec Ideal ⟨2, ![N, K]⟩ φ₂) (r : Fin M) (q : Fin N) :
    FloatOps.dotGeneral d prec sched lhs rhs (ix2 r q) = ∑ k : Fin K, lhs (ix2 r k) * rhs (ix2 q k) := by
  rw [Ideal.dotGeneral_apply]
  exact nt_sum_apply d hlc hrc hln hrn hlb hrb lhs rhs r q

end NT

section Plain

variable {M K N : Nat} (d : DotDims ⟨2, ![M, K]⟩ ⟨2, ![K, N]⟩ ⟨2, ![M, N]⟩)
  (hlc : d.lhsContracting = [1]) (hrc : d.rhsContracting = [0]) (hln : d.lhsNonContracting = [0])
  (hrn : d.rhsNonContracting = [1]) (hlb : d.lhsBatch = []) (hrb : d.rhsBatch = [])

include hlc in
theorem plain_rank_contr_one : d.contr.rank = 1 := by rw [d.rank_contr, hlc]; rfl

include hlc in
theorem plain_size_contr_zero : d.contr.size ⟨0, by rw [plain_rank_contr_one d hlc]; exact Nat.one_pos⟩ = K := by
  have := d.size_contr 0 (by rw [hlc]; exact Nat.one_pos)
  rw [this]
  simp [hlc]

include hln hlb in
theorem plain_lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
theorem plain_rhs_col (j : (⟨2, ![M, N]⟩ : Shape).Idx) (k : d.contr.Idx) : ((d.rhsIdx j k 1 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The host's dot_general with the plain dimension numbers at entry (r, q). -/
theorem plain_dotGeneral_apply {φ₁ φ₂ : FTy} (prec : Option ContractPrecision) (sched : HostSchedule)
    (lhs : FVec Ideal ⟨2, ![M, K]⟩ φ₁) (rhs : FVec Ideal ⟨2, ![K, N]⟩ φ₂) (r : Fin M) (q : Fin N) :
    FloatOps.dotGeneral d prec sched lhs rhs (ix2 r q) = ∑ k : Fin K, lhs (ix2 r k) * rhs (ix2 k q) := by
  rw [Ideal.dotGeneral_apply,
    ← Equiv.sum_comp (contrEquiv1 d K (plain_rank_contr_one d hlc) (plain_size_contr_zero d hlc)).symm]
  refine Finset.sum_congr rfl fun k _ => ?_
  have hk := contrEquiv1_symm_val d K (plain_rank_contr_one d hlc) (plain_size_contr_zero d hlc) k
  congr 1
  · refine congrArg lhs (funext fun a => Fin.ext ?_)
    match a with
    | ⟨0, _⟩ => exact plain_lhs_row d hln hlb _ _
    | ⟨1, _⟩ => exact (d.lhsIdx_val_of_single hlc _ _).trans hk
  · refine congrArg rhs (funext fun a => Fin.ext ?_)
    match a with
    | ⟨0, _⟩ => exact (d.rhsIdx_val_of_single hrc _ _).trans hk
    | ⟨1, _⟩ => exact plain_rhs_col d hln hrn hlb hrb _ _

end Plain

end Cert.LibDotsNT

end
-- ==== Proof.LibKeepdims.lean ====
/-
  Reading a row sum kept as a column. A sum along the rows of an `[a, b]` array is an `[a]` vector; kept as a
  column it is cast to `[a, 1]` and then spread over `[a, c]`. Read at `(p, q)` each step looks at row `p` only:
  the cast ignores the unit coordinate, the spreading ignores the column, and the sum ranges over the `b` entries
  of row `p`. The three steps are stated one by one, over indices written by their coordinates, and then composed.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` vector cast to the column `[a, 1]` reads, at `(i, u)`, the vector at `i`, whatever the unit
    coordinate `u`: both positions are the `i`-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Putting the summed coordinate `k` back into the reduced index `p` gives the entry `(p, k)`. -/
theorem lift_cols {m n : ℕ} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- A float sum along the second axis from the zero pattern, read at row `p`, is the sum of that row's entries
    on the extended reals. -/
theorem rowSum_apply {m n : ℕ} (src : FVec Ideal ⟨2, ![m, n]⟩ .f32) (h : (⟨2, ![m, n]⟩ : Shape).Reduces [1] (⟨1, ![m]⟩ : Shape))
    (hφ : FKind.Formats .f32) (hacc : (0x00000000#32 : BitVec 32) = 0x00000000#32) (p : Fin m) :
    multiReduction .add [1] (⟨1, ![m]⟩ : Shape) src 0x00000000#32 h hφ hacc (ix1 p) = ∑ k : Fin n, src (ix2 p k) := by
  refine (Ideal.multiReduction_add_single src 0x00000000#32 h hφ hacc (ix1 p)).trans ?_
  exact Finset.sum_congr rfl fun k _ => congrArg src (lift_cols h p k)

/-- The three steps composed: the row sums of an `[a, b]` array, kept as a column and spread over `[a, c]`, read at
    `(p, q)` the sum of row `p`. -/
theorem rowSum_column_apply {a b c : ℕ} (src : FVec Ideal ⟨2, ![a, b]⟩ .f32)
    (h : (⟨2, ![a, b]⟩ : Shape).Reduces [1] (⟨1, ![a]⟩ : Shape)) (hφ : FKind.Formats .f32)
    (hacc : (0x00000000#32 : BitVec 32) = 0x00000000#32)
    (hcast : (⟨1, ![a]⟩ : Shape).ShapeCasts ⟨2, ![a, 1]⟩) (hbc : (⟨2, ![a, 1]⟩ : Shape).Broadcasts ⟨2, ![a, c]⟩)
    (p : Fin a) (q : Fin c) :
    broadcastTo ⟨2, ![a, c]⟩ (shapeCast ⟨2, ![a, 1]⟩ (multiReduction .add [1] (⟨1, ![a]⟩ : Shape) src 0x00000000#32 h hφ hacc) hcast) hbc (ix2 p q)
      = ∑ k : Fin b, src (ix2 p k) :=
  (broadcastTo_a1_ab_apply _ hbc p q).trans ((shapeCast_a_a1_apply _ hcast p 0).trans (rowSum_apply src h hφ hacc p))

/-- One row `[1, b]`, cast to its own shape and spread over `[a, b]`, reads at `(p, q)` the row's entry `q`. -/
theorem row_spread_apply {a b : ℕ} (v : (⟨2, ![1, b]⟩ : Shape).Idx → α) (hcast : (⟨2, ![1, b]⟩ : Shape).ShapeCasts ⟨2, ![1, b]⟩)
    (hbc : (⟨2, ![1, b]⟩ : Shape).Broadcasts ⟨2, ![a, b]⟩) (p : Fin a) (q : Fin b) :
    broadcastTo ⟨2, ![a, b]⟩ (shapeCast ⟨2, ![1, b]⟩ v hcast) hbc (ix2 p q) = v (ix2 (0 : Fin 1) q) :=
  (broadcastTo_1b_ab_apply _ hbc p q).trans (congrFun (shapeCast_self v hcast) _)

end Cert.LibKeepdims

end
-- ==== Proof.LibDenseLayer.lean ====
/-
  One dense layer of the network, read at an entry of its result, on the extended reals.

  For a feature array h : [a, k], a weight matrix W : [k, n], a column of row scales S : [a, 1] and a row of
  biases B : [1, n] the layer computes the product P = h W and the affine form P * S + B, the scale taken per row and
  the bias per column.  The tile of a grid point spells this with the matrix unit's product of the operands rounded
  to bfloat16 (a change of format, which does nothing to an extended real), a column spread over the columns and a
  row spread over the rows; the host spells it with a dot_general and two broadcast_in_dim.  Both spellings are the
  same function of the four arrays, index by index: `prod` and `affine` below.

  Also here: a vector laid out as a column [a] -> [a, 1], or as a row [n] -> [1, n], is the same array whether it is
  written as a reshape or as a broadcast_in_dim; and adding three arrays does not depend on the grouping.
-/
import Idealize.ShloMosaic.Lib.Pipeline.Value
import Idealize.ShloMosaic.Lib.ValueIdx
import Idealize.ShloMosaic.Lib.ValueLayout
import Idealize.ShloMosaic.PureOps.Ideal.Laws
import proofs.«126515_j28973849378860_1_alg».proof.Proof.LibMatmulPlain
import proofs.«126515_j28973849378860_1_alg».proof.Proof.LibDotsNT
import proofs.«126515_j28973849378860_1_alg».proof.Proof.LibKeepdims

noncomputable section

open scoped BigOperators

namespace Cert.Dense

open Idealize.ShloMosaic Idealize.ShloMosaic.ValueIdx

variable {a k n : ℕ}

/-- The product of an [a, k] array and a [k, n] array at entry (r, q): the sum over c of h(r, c) * W(c, q). -/
def prod (h : (⟨2, ![a, k]⟩ : Shape).Idx → EReal) (W : (⟨2, ![k, n]⟩ : Shape).Idx → EReal) :
    (⟨2, ![a, n]⟩ : Shape).Idx → EReal :=
  fun i => ∑ c : Fin k, h (ix2 (i 0) c) * W (ix2 c (i 1))

/-- The product with row r scaled by S(r, 0) and B(0, q) added in column q. -/
def affine (h : (⟨2, ![a, k]⟩ : Shape).Idx → EReal) (W : (⟨2, ![k, n]⟩ : Shape).Idx → EReal)
    (S : (⟨2, ![a, 1]⟩ : Shape).Idx → EReal) (B : (⟨2, ![1, n]⟩ : Shape).Idx → EReal) :
    (⟨2, ![a, n]⟩ : Shape).Idx → EReal :=
  fun i => prod h W i * S (ix2 (i 0) (0 : Fin 1)) + B (ix2 (0 : Fin 1) (i 1))

/-- The product with B(0, q) added in column q (no row scale). -/
def biased (h : (⟨2, ![a, k]⟩ : Shape).Idx → EReal) (W : (⟨2, ![k, n]⟩ : Shape).Idx → EReal)
    (B : (⟨2, ![1, n]⟩ : Shape).Idx → EReal) : (⟨2, ![a, n]⟩ : Shape).Idx → EReal :=
  fun i => prod h W i + B (ix2 (0 : Fin 1) (i 1))

theorem prod_ix2 (h : (⟨2, ![a, k]⟩ : Shape).Idx → EReal) (W : (⟨2, ![k, n]⟩ : Shape).Idx → EReal) (r : Fin a) (q : Fin n) :
    prod h W (ix2 r q) = ∑ c : Fin k, h (ix2 r c) * W (ix2 c q) := rfl

section Products

variable (d : DotDims ⟨2, ![a, k]⟩ ⟨2, ![k, n]⟩ ⟨2, ![a, n]⟩)
  (hlc : d.lhsContracting = [1]) (hrc : d.rhsContracting = [0]) (hln : d.lhsNonContracting = [0])
  (hrn : d.rhsNonContracting = [1]) (hlb : d.lhsBatch = []) (hrb : d.rhsBatch = [])

include hlc hrc hln hrn hlb hrb in
/-- The matrix unit's product of the two operands rounded to bfloat16, into a zero accumulator, is the product. -/
theorem matmul_eq_prod (x0 : FVec Ideal ⟨2, ![a, k]⟩ .f32) (x1 : FVec Ideal ⟨2, ![k, n]⟩ .f32)
    (hb : FTy.bf16.bits < FTy.f32.bits) :
    matmul d none (truncf .bf16 x0 hb) (truncf .bf16 x1 hb) (constant (F := Ideal) ⟨2, ![a, n]⟩ .f32 0x00000000#32)
      = prod x0 x1 := by
  funext j
  obtain ⟨r, q, rfl⟩ : ∃ (r : Fin a) (q : Fin n), j = ix2 r q := ⟨j 0, j 1, eq_ix2 j⟩
  exact Cert.LibMatmulPlain.matmul_zero_apply d hlc hrc hln hrn hlb hrb none _ _ r q

include hlc hrc hln hrn hlb hrb in
/-- The host's dot_general is the product. -/
theorem dotGeneral_eq_prod (h : FVec Ideal ⟨2, ![a, k]⟩ .f32) (W : FVec Ideal ⟨2, ![k, n]⟩ .f32) :
    Host.dotGeneral (F := Ideal) d none h W = prod h W := by
  funext j
  obtain ⟨r, q, rfl⟩ : ∃ (r : Fin a) (q : Fin n), j = ix2 r q := ⟨j 0, j 1, eq_ix2 j⟩
  exact Cert.LibDotsNT.plain_dotGeneral_apply d hlc hrc hln hrn hlb hrb none .single h W r q

end Products

/-- The tile's spelling of the scale and the bias: the column cast to its own shape and spread over the columns, the
    row cast to its own shape and spread over the rows. -/
theorem tile_affine (P : FVec Ideal ⟨2, ![a, n]⟩ .f32) (x2 : FVec Ideal ⟨2, ![a, 1]⟩ .f32) (x3 : FVec Ideal ⟨2, ![1, n]⟩ .f32)
    (hc2 : (⟨2, ![a, 1]⟩ : Shape).ShapeCasts ⟨2, ![a, 1]⟩) (hb2 : (⟨2, ![a, 1]⟩ : Shape).Broadcasts ⟨2, ![a, n]⟩)
    (hc3 : (⟨2, ![1, n]⟩ : Shape).ShapeCasts ⟨2, ![1, n]⟩) (hb3 : (⟨2, ![1, n]⟩ : Shape).Broadcasts ⟨2, ![a, n]⟩)
    (r : Fin a) (q : Fin n) :
    addf (mulf P (broadcastTo ⟨2, ![a, n]⟩ (shapeCast ⟨2, ![a, 1]⟩ x2 hc2) hb2))
        (broadcastTo ⟨2, ![a, n]⟩ (shapeCast ⟨2, ![1, n]⟩ x3 hc3) hb3) (ix2 r q)
      = P (ix2 r q) * x2 (ix2 r (0 : Fin 1)) + x3 (ix2 (0 : Fin 1) q) := by
  rw [addf_apply, mulf_apply, Cert.LibKeepdims.row_spread_apply, Cert.LibKeepdims.broadcastTo_a1_ab_apply, shapeCast_self]

/-- The tile's spelling of the bias alone. -/
theorem tile_biased (P : FVec Ideal ⟨2, ![a, n]⟩ .f32) (x3 : FVec Ideal ⟨2, ![1, n]⟩ .f32)
    (hc3 : (⟨2, ![1, n]⟩ : Shape).ShapeCasts ⟨2, ![1, n]⟩) (hb3 : (⟨2, ![1, n]⟩ : Shape).Broadcasts ⟨2, ![a, n]⟩)
    (r : Fin a) (q : Fin n) :
    addf P (broadcastTo ⟨2, ![a, n]⟩ (shapeCast ⟨2, ![1, n]⟩ x3 hc3) hb3) (ix2 r q)
      = P (ix2 r q) + x3 (ix2 (0 : Fin 1) q) := by
  rw [addf_apply, Cert.LibKeepdims.row_spread_apply]

/-- A column [a, 1] laid over [a, n] by broadcast_in_dim along both axes reads, at (r, q), the column's entry of row r. -/
theorem bcast_col_apply {α : Type} (S : (⟨2, ![a, 1]⟩ : Shape).Idx → α)
    (hS : (⟨2, ![a, 1]⟩ : Shape).BroadcastsInDim ⟨2, ![a, n]⟩ ![0, 1]) (r : Fin a) (q : Fin n) :
    broadcastInDim ⟨2, ![a, n]⟩ ![0, 1] hS S (ix2 r q) = S (ix2 r (0 : Fin 1)) := by
  refine broadcastInDim_apply ![0, 1] hS S (ix2 r q) (ix2 r (0 : Fin 1)) fun ax => ?_
  match ax with
  | ⟨0, _⟩ =>
    show r.val = if a = 1 then 0 else r.val
    split
    · have := r.isLt; omega
    · rfl
  | ⟨1, _⟩ => rfl

/-- A row [1, n] laid over [a, n] by broadcast_in_dim along both axes reads, at (r, q), the row's entry of column q. -/
theorem bcast_row_apply {α : Type} (B : (⟨2, ![1, n]⟩ : Shape).Idx → α)
    (hB : (⟨2, ![1, n]⟩ : Shape).BroadcastsInDim ⟨2, ![a, n]⟩ ![0, 1]) (r : Fin a) (q : Fin n) :
    broadcastInDim ⟨2, ![a, n]⟩ ![0, 1] hB B (ix2 r q) = B (ix2 (0 : Fin 1) q) := by
  refine broadcastInDim_apply ![0, 1] hB B (ix2 r q) (ix2 (0 : Fin 1) q) fun ax => ?_
  match ax with
  | ⟨0, _⟩ => rfl
  | ⟨1, _⟩ =>
    show q.val = if n = 1 then 0 else q.val
    split
    · have := q.isLt; omega
    · rfl

/-- The host's spelling of the affine form is `affine`. -/
theorem host_affine (P : FVec Ideal ⟨2, ![a, n]⟩ .f32) (S : FVec Ideal ⟨2, ![a, 1]⟩ .f32) (B : FVec Ideal ⟨2, ![1, n]⟩ .f32)
    (hS : (⟨2, ![a, 1]⟩ : Shape).BroadcastsInDim ⟨2, ![a, n]⟩ ![0, 1])
    (hB : (⟨2, ![1, n]⟩ : Shape).BroadcastsInDim ⟨2, ![a, n]⟩ ![0, 1]) (r : Fin a) (q : Fin n) :
    addf (mulf P (broadcastInDim ⟨2, ![a, n]⟩ ![0, 1] hS S)) (broadcastInDim ⟨2, ![a, n]⟩ ![0, 1] hB B) (ix2 r q)
      = P (ix2 r q) * S (ix2 r (0 : Fin 1)) + B (ix2 (0 : Fin 1) q) := by
  rw [addf_apply, mulf_apply, bcast_col_apply, bcast_row_apply]

/-- The host's spelling of the bias alone. -/
theorem host_biased (P : FVec Ideal ⟨2, ![a, n]⟩ .f32) (B : FVec Ideal ⟨2, ![1, n]⟩ .f32)
    (hB : (⟨2, ![1, n]⟩ : Shape).BroadcastsInDim ⟨2, ![a, n]⟩ ![0, 1]) (r : Fin a) (q : Fin n) :
    addf P (broadcastInDim ⟨2, ![a, n]⟩ ![0, 1] hB B) (ix2 r q) = P (ix2 r q) + B (ix2 (0 : Fin 1) q) := by
  rw [addf_apply, bcast_row_apply]

section HostForms

variable (d : DotDims ⟨2, ![a, k]⟩ ⟨2, ![k, n]⟩ ⟨2, ![a, n]⟩)
  (hlc : d.lhsContracting = [1]) (hrc : d.rhsContracting = [0]) (hln : d.lhsNonContracting = [0])
  (hrn : d.rhsNonContracting = [1]) (hlb : d.lhsBatch = []) (hrb : d.rhsBatch = [])

include hlc hrc hln hrn hlb hrb in
/-- The affine form as the host spells it: the dot_general times the scale column laid over the columns, plus the bias
    row laid over the rows. -/
theorem affine_eq_host (h : FVec Ideal ⟨2, ![a, k]⟩ .f32) (W : FVec Ideal ⟨2, ![k, n]⟩ .f32)
    (S : FVec Ideal ⟨2, ![a, 1]⟩ .f32) (B : FVec Ideal ⟨2, ![1, n]⟩ .f32)
    (hS : (⟨2, ![a, 1]⟩ : Shape).BroadcastsInDim ⟨2, ![a, n]⟩ ![0, 1])
    (hB : (⟨2, ![1, n]⟩ : Shape).BroadcastsInDim ⟨2, ![a, n]⟩ ![0, 1]) :
    affine h W S B
      = addf (mulf (Host.dotGeneral (F := Ideal) d none h W) (broadcastInDim ⟨2, ![a, n]⟩ ![0, 1] hS S))
          (broadcastInDim ⟨2, ![a, n]⟩ ![0, 1] hB B) := by
  funext j
  obtain ⟨r, q, rfl⟩ : ∃ (r : Fin a) (q : Fin n), j = ix2 r q := ⟨j 0, j 1, eq_ix2 j⟩
  rw [host_affine, dotGeneral_eq_prod d hlc hrc hln hrn hlb hrb]
  rfl

include hlc hrc hln hrn hlb hrb in
/-- The biased form as the host spells it. -/
theorem biased_eq_host (h : FVec Ideal ⟨2, ![a, k]⟩ .f32) (W : FVec Ideal ⟨2, ![k, n]⟩ .f32)
    (B : FVec Ideal ⟨2, ![1, n]⟩ .f32) (hB : (⟨2, ![1, n]⟩ : Shape).BroadcastsInDim ⟨2, ![a, n]⟩ ![0, 1]) :
    biased h W B
      = addf (Host.dotGeneral (F := Ideal) d none h W) (broadcastInDim ⟨2, ![a, n]⟩ ![0, 1] hB B) := by
  funext j
  obtain ⟨r, q, rfl⟩ : ∃ (r : Fin a) (q : Fin n), j = ix2 r q := ⟨j 0, j 1, eq_ix2 j⟩
  rw [host_biased, dotGeneral_eq_prod d hlc hrc hln hrn hlb hrb]
  rfl

end HostForms

/-- A vector laid out as a column: the reshape [a] -> [a, 1] and the broadcast_in_dim along axis 0 are one array. -/
theorem column_cast_eq_bcast {α : Type} (x : (⟨1, ![a]⟩ : Shape).Idx → α)
    (hc : (⟨1, ![a]⟩ : Shape).ShapeCasts ⟨2, ![a, 1]⟩) (hb : (⟨1, ![a]⟩ : Shape).BroadcastsInDim ⟨2, ![a, 1]⟩ ![0]) :
    shapeCast ⟨2, ![a, 1]⟩ x hc = broadcastInDim ⟨2, ![a, 1]⟩ ![0] hb x := by
  funext j
  obtain ⟨r, u, rfl⟩ : ∃ (r : Fin a) (u : Fin 1), j = ix2 r u := ⟨j 0, j 1, eq_ix2 j⟩
  rw [Cert.LibKeepdims.shapeCast_a_a1_apply]
  refine (broadcastInDim_apply ![0] hb x (ix2 r u) (ix1 r) fun ax => ?_).symm
  match ax with
  | ⟨0, _⟩ =>
    show r.val = if a = 1 then 0 else r.val
    split
    · have := r.isLt; omega
    · rfl

/-- A vector laid out as a row: the reshape [n] -> [1, n] and the broadcast_in_dim along axis 1 are one array. -/
theorem row_cast_eq_bcast {α : Type} (x : (⟨1, ![n]⟩ : Shape).Idx → α)
    (hc : (⟨1, ![n]⟩ : Shape).ShapeCasts ⟨2, ![1, n]⟩) (hb : (⟨1, ![n]⟩ : Shape).BroadcastsInDim ⟨2, ![1, n]⟩ ![1]) :
    shapeCast ⟨2, ![1, n]⟩ x hc = broadcastInDim ⟨2, ![1, n]⟩ ![1] hb x := by
  funext j
  obtain ⟨u, q, rfl⟩ : ∃ (u : Fin 1) (q : Fin n), j = ix2 u q := ⟨j 0, j 1, eq_ix2 j⟩
  rw [shapeCast_a_1a_apply]
  refine (broadcastInDim_apply ![1] hb x (ix2 u q) (ix1 q) fun ax => ?_).symm
  match ax with
  | ⟨0, _⟩ =>
    show q.val = if n = 1 then 0 else q.val
    split
    · have := q.isLt; omega
    · rfl

/-- Adding three arrays: the grouping does not matter (addition of extended reals is associative). -/
theorem addf_assoc {s : Shape} {φ : FTy} (x y z : FVec Ideal s φ) : addf x (addf y z) = addf (addf x y) z := by
  funext i
  rw [addf_apply, addf_apply, addf_apply, addf_apply, add_assoc]

end Cert.Dense

end
-- ==== Proof.LibDenseBranch.lean ====
/-
  One dense branch of the network, read at an entry, over literal-free extents.

  For an [a, k] array h, a [k, n] weight W and a [1, n] bias row B:
    act h W B (r, q)              = max (sum over c of h(r, c) * W(c, q) + B(0, q)) 0      (the rectified layer)
    gate h W1 B1 W2 B2 (r, q)     = act h W1 B1 (r, q) * act h W2 B2 (r, q)               (the product branch)
  and the raw product h W (Cert.Dense.prod) feeds the edge aggregation.

  Each is spelt twice in the programs: on a tile of rows by the matrix unit (operands rounded to bfloat16, which
  on the extended reals changes nothing; the bias row and the zero spread over the tile), and on the whole array
  by the host's dot_general with the bias laid over the rows and a scalar zero laid over everything.  Both
  spellings are the functions above; and an entry of the whole array's function is the same function of the
  block of rows that holds it, since an entry of a product only reads its own row of h.
-/
import Idealize.ShloMosaic.Lib.Pipeline.Value
import Idealize.ShloMosaic.Lib.ValueIdx
import Idealize.ShloMosaic.Lib.ValueLayout
import Idealize.ShloMosaic.PureOps.Ideal.Laws
import proofs.«126515_j28973849378860_1_alg».proof.Proof.LibDenseLayer

noncomputable section

open scoped BigOperators

namespace Cert.Branch

open Idealize.ShloMosaic Idealize.ShloMosaic.ValueIdx

variable {a k n N : ℕ}

/-- The rectified dense layer at an entry: the larger of (h W + B)(r, q) and zero. -/
def act (h : (⟨2, ![a, k]⟩ : Shape).Idx → EReal) (W : (⟨2, ![k, n]⟩ : Shape).Idx → EReal)
    (B : (⟨2, ![1, n]⟩ : Shape).Idx → EReal) : (⟨2, ![a, n]⟩ : Shape).Idx → EReal :=
  fun i => max (Cert.Dense.biased h W B i) (Ideal.ofBits .f32 0x00000000#32)

/-- The product branch at an entry: two rectified layers of the same h, multiplied. -/
def gate (h : (⟨2, ![a, k]⟩ : Shape).Idx → EReal) (W1 : (⟨2, ![k, n]⟩ : Shape).Idx → EReal)
    (B1 : (⟨2, ![1, n]⟩ : Shape).Idx → EReal) (W2 : (⟨2, ![k, n]⟩ : Shape).Idx → EReal)
    (B2 : (⟨2, ![1, n]⟩ : Shape).Idx → EReal) : (⟨2, ![a, n]⟩ : Shape).Idx → EReal :=
  fun i => act h W1 B1 i * act h W2 B2 i

/-! ## An entry only reads its own row -/

/-- If row (j 0) of the block xb is row (i 0) of the array X, the weights agree and the columns agree, the
    product's entry j over the block is the product's entry i over the array. -/
theorem prod_at (X : (⟨2, ![N, k]⟩ : Shape).Idx → EReal) (W : (⟨2, ![k, n]⟩ : Shape).Idx → EReal)
    (xb : (⟨2, ![a, k]⟩ : Shape).Idx → EReal) (wb : (⟨2, ![k, n]⟩ : Shape).Idx → EReal)
    (j : (⟨2, ![a, n]⟩ : Shape).Idx) (i : (⟨2, ![N, n]⟩ : Shape).Idx)
    (hx : ∀ c : Fin k, xb (ix2 (j 0) c) = X (ix2 (i 0) c)) (hw : ∀ y, wb y = W y) (hq : j 1 = i 1) :
    Cert.Dense.prod xb wb j = Cert.Dense.prod X W i := by
  show ∑ c : Fin k, xb (ix2 (j 0) c) * wb (ix2 c (j 1)) = ∑ c : Fin k, X (ix2 (i 0) c) * W (ix2 c (i 1))
  refine Finset.sum_congr rfl fun c _ => ?_
  rw [hx c, hw, hq]

/-- The same for the rectified layer. -/
theorem act_at (X : (⟨2, ![N, k]⟩ : Shape).Idx → EReal) (W : (⟨2, ![k, n]⟩ : Shape).Idx → EReal)
    (B : (⟨2, ![1, n]⟩ : Shape).Idx → EReal)
    (xb : (⟨2, ![a, k]⟩ : Shape).Idx → EReal) (wb : (⟨2, ![k, n]⟩ : Shape).Idx → EReal)
    (bb : (⟨2, ![1, n]⟩ : Shape).Idx → EReal)
    (j : (⟨2, ![a, n]⟩ : Shape).Idx) (i : (⟨2, ![N, n]⟩ : Shape).Idx)
    (hx : ∀ c : Fin k, xb (ix2 (j 0) c) = X (ix2 (i 0) c)) (hw : ∀ y, wb y = W y) (hb : ∀ y, bb y = B y)
    (hq : j 1 = i 1) :
    act xb wb bb j = act X W B i := by
  show max (Cert.Dense.prod xb wb j + bb (ix2 (0 : Fin 1) (j 1))) _
      = max (Cert.Dense.prod X W i + B (ix2 (0 : Fin 1) (i 1))) _
  rw [prod_at X W xb wb j i hx hw hq, hb, hq]

/-- The same for the product branch. -/
theorem gate_at (X : (⟨2, ![N, k]⟩ : Shape).Idx → EReal) (W1 : (⟨2, ![k, n]⟩ : Shape).Idx → EReal)
    (B1 : (⟨2, ![1, n]⟩ : Shape).Idx → EReal) (W2 : (⟨2, ![k, n]⟩ : Shape).Idx → EReal)
    (B2 : (⟨2, ![1, n]⟩ : Shape).Idx → EReal)
    (xb : (⟨2, ![a, k]⟩ : Shape).Idx → EReal) (w1 : (⟨2, ![k, n]⟩ : Shape).Idx → EReal)
    (b1 : (⟨2, ![1, n]⟩ : Shape).Idx → EReal) (w2 : (⟨2, ![k, n]⟩ : Shape).Idx → EReal)
    (b2 : (⟨2, ![1, n]⟩ : Shape).Idx → EReal)
    (j : (⟨2, ![a, n]⟩ : Shape).Idx) (i : (⟨2, ![N, n]⟩ : Shape).Idx)
    (hx : ∀ c : Fin k, xb (ix2 (j 0) c) = X (ix2 (i 0) c)) (hw1 : ∀ y, w1 y = W1 y) (hb1 : ∀ y, b1 y = B1 y)
    (hw2 : ∀ y, w2 y = W2 y) (hb2 : ∀ y, b2 y = B2 y) (hq : j 1 = i 1) :
    gate xb w1 b1 w2 b2 j = gate X W1 B1 W2 B2 i := by
  show act xb w1 b1 j * act xb w2 b2 j = act X W1 B1 i * act X W2 B2 i
  rw [act_at X W1 B1 xb w1 b1 j i hx hw1 hb1 hq, act_at X W2 B2 xb w2 b2 j i hx hw2 hb2 hq]

/-! ## The tile's spelling and the host's spelling -/

section Spellings

variable (d : DotDims ⟨2, ![a, k]⟩ ⟨2, ![k, n]⟩ ⟨2, ![a, n]⟩)
  (hlc : d.lhsContracting = [1]) (hrc : d.rhsContracting = [0]) (hln : d.lhsNonContracting = [0])
  (hrn : d.rhsNonContracting = [1]) (hlb : d.lhsBatch = []) (hrb : d.rhsBatch = [])

include hlc hrc hln hrn hlb hrb in
/-- On a tile: the matrix unit's product into zero, plus the bias row spread over the rows, against a zero
    spread over the tile, is the rectified layer. -/
theorem tile_act (x : FVec Ideal ⟨2, ![a, k]⟩ .f32) (W : FVec Ideal ⟨2, ![k, n]⟩ .f32)
    (b : FVec Ideal ⟨2, ![1, n]⟩ .f32) (hb : FTy.bf16.bits < FTy.f32.bits)
    (hc3 : (⟨2, ![1, n]⟩ : Shape).ShapeCasts ⟨2, ![1, n]⟩) (hb3 : (⟨2, ![1, n]⟩ : Shape).Broadcasts ⟨2, ![a, n]⟩) :
    maximumf (addf (matmul d none (truncf .bf16 x hb) (truncf .bf16 W hb)
          (constant (F := Ideal) ⟨2, ![a, n]⟩ .f32 0x00000000#32))
        (broadcastTo ⟨2, ![a, n]⟩ (shapeCast ⟨2, ![1, n]⟩ b hc3) hb3))
      (broadcast ⟨2, ![a, n]⟩ (Scalar.ofBits (F := Ideal) .f32 0x00000000#32))
      = act x W b := by
  funext i
  obtain ⟨r, q, rfl⟩ : ∃ (r : Fin a) (q : Fin n), i = ix2 r q := ⟨i 0, i 1, eq_ix2 i⟩
  refine congrArg (fun z : EReal => max z (Ideal.ofBits .f32 0x00000000#32)) ?_
  rw [Cert.Dense.matmul_eq_prod d hlc hrc hln hrn hlb hrb x W hb]
  exact Cert.Dense.tile_biased _ b hc3 hb3 r q

include hlc hrc hln hrn hlb hrb in
/-- On the whole array: the host's dot_general plus the bias row laid over the rows, against a scalar zero laid
    over everything, is the rectified layer. -/
theorem host_act (X : FVec Ideal ⟨2, ![a, k]⟩ .f32) (W : FVec Ideal ⟨2, ![k, n]⟩ .f32)
    (B : FVec Ideal ⟨2, ![1, n]⟩ .f32) (hB : (⟨2, ![1, n]⟩ : Shape).BroadcastsInDim ⟨2, ![a, n]⟩ ![0, 1])
    (h0 : (⟨0, ![]⟩ : Shape).BroadcastsInDim ⟨2, ![a, n]⟩ ![]) :
    maximumf (addf (Host.dotGeneral (F := Ideal) d none X W) (broadcastInDim ⟨2, ![a, n]⟩ ![0, 1] hB B))
      (broadcastInDim ⟨2, ![a, n]⟩ ![] h0 (constant (F := Ideal) ⟨0, ![]⟩ .f32 0x00000000#32))
      = act X W B := by
  funext i
  obtain ⟨r, q, rfl⟩ : ∃ (r : Fin a) (q : Fin n), i = ix2 r q := ⟨i 0, i 1, eq_ix2 i⟩
  refine congrArg (fun z : EReal => max z (Ideal.ofBits .f32 0x00000000#32)) ?_
  rw [Cert.Dense.dotGeneral_eq_prod d hlc hrc hln hrn hlb hrb X W]
  exact Cert.Dense.host_biased _ B hB r q

end Spellings

end Cert.Branch

end
-- ==== Proof.LibSageLayer.lean ====
/-
  One layer of a mean-aggregating graph network, read at an entry of its result, on the extended reals.

  For a feature array h : [a, k], the array of neighbourhood means mn : [a, k], a self weight Ws : [k, n], a
  neighbour weight Wn : [k, n] and a row of biases B : [1, n]:
    lin h mn Ws Wn B (r, q) = (sum over c of h(r, c) * Ws(c, q)  +  sum over c of mn(r, c) * Wn(c, q)) + B(0, q)
    act h mn Ws Wn B (r, q) = max (lin h mn Ws Wn B (r, q)) 0
  with the two products added first and the bias after, which is the grouping both spellings use.

  The layer is spelt twice: on a tile of rows by the matrix unit (each operand rounded to bfloat16, which on the
  extended reals changes nothing; two products into zero accumulators; the bias row and the zero spread over the
  tile), and on the whole array by the host's dot_general with the bias laid over the rows and a scalar zero laid
  over everything.  Both spellings are the functions above.  And an entry of the whole array's layer is the same
  function of the block of rows that holds it, since an entry of a product only reads its own row of h and of mn.
-/
import Idealize.ShloMosaic.Lib.Pipeline.Value
import Idealize.ShloMosaic.Lib.ValueIdx
import Idealize.ShloMosaic.Lib.ValueLayout
import Idealize.ShloMosaic.PureOps.Ideal.Laws
import proofs.«126515_j28973849378860_1_alg».proof.Proof.LibDenseLayer
import proofs.«126515_j28973849378860_1_alg».proof.Proof.LibDenseBranch

noncomputable section

open scoped BigOperators

namespace Cert.LibSageLayer

open Idealize.ShloMosaic Idealize.ShloMosaic.ValueIdx

variable {a k n N : ℕ}

/-- The layer before the rectifier, at an entry: the two products added, then the bias of the entry's column. -/
def lin (h mn : (⟨2, ![a, k]⟩ : Shape).Idx → EReal) (Ws Wn : (⟨2, ![k, n]⟩ : Shape).Idx → EReal)
    (B : (⟨2, ![1, n]⟩ : Shape).Idx → EReal) : (⟨2, ![a, n]⟩ : Shape).Idx → EReal :=
  fun i => (Cert.Dense.prod h Ws i + Cert.Dense.prod mn Wn i) + B (ix2 (0 : Fin 1) (i 1))

/-- The rectified layer at an entry: the larger of `lin` and zero. -/
def act (h mn : (⟨2, ![a, k]⟩ : Shape).Idx → EReal) (Ws Wn : (⟨2, ![k, n]⟩ : Shape).Idx → EReal)
    (B : (⟨2, ![1, n]⟩ : Shape).Idx → EReal) : (⟨2, ![a, n]⟩ : Shape).Idx → EReal :=
  fun i => max (lin h mn Ws Wn B i) (Ideal.ofBits .f32 0x00000000#32)

/-! ## An entry only reads its own row of the features and of the means -/

/-- If row (j 0) of the blocks xb, mb is row (i 0) of the arrays X, M, the weights and the bias agree and the
    columns agree, the layer's entry j over the blocks is the layer's entry i over the arrays. -/
theorem lin_at (X M : (⟨2, ![N, k]⟩ : Shape).Idx → EReal) (Ws Wn : (⟨2, ![k, n]⟩ : Shape).Idx → EReal)
    (B : (⟨2, ![1, n]⟩ : Shape).Idx → EReal)
    (xb mb : (⟨2, ![a, k]⟩ : Shape).Idx → EReal) (ws wn : (⟨2, ![k, n]⟩ : Shape).Idx → EReal)
    (bb : (⟨2, ![1, n]⟩ : Shape).Idx → EReal)
    (j : (⟨2, ![a, n]⟩ : Shape).Idx) (i : (⟨2, ![N, n]⟩ : Shape).Idx)
    (hx : ∀ c : Fin k, xb (ix2 (j 0) c) = X (ix2 (i 0) c)) (hm : ∀ c : Fin k, mb (ix2 (j 0) c) = M (ix2 (i 0) c))
    (hws : ∀ y, ws y = Ws y) (hwn : ∀ y, wn y = Wn y) (hb : ∀ y, bb y = B y) (hq : j 1 = i 1) :
    lin xb mb ws wn bb j = lin X M Ws Wn B i := by
  show (Cert.Dense.prod xb ws j + Cert.Dense.prod mb wn j) + bb (ix2 (0 : Fin 1) (j 1))
      = (Cert.Dense.prod X Ws i + Cert.Dense.prod M Wn i) + B (ix2 (0 : Fin 1) (i 1))
  rw [Cert.Branch.prod_at X Ws xb ws j i hx hws hq, Cert.Branch.prod_at M Wn mb wn j i hm hwn hq, hb, hq]

/-- The same for the rectified layer. -/
theorem act_at (X M : (⟨2, ![N, k]⟩ : Shape).Idx → EReal) (Ws Wn : (⟨2, ![k, n]⟩ : Shape).Idx → EReal)
    (B : (⟨2, ![1, n]⟩ : Shape).Idx → EReal)
    (xb mb : (⟨2, ![a, k]⟩ : Shape).Idx → EReal) (ws wn : (⟨2, ![k, n]⟩ : Shape).Idx → EReal)
    (bb : (⟨2, ![1, n]⟩ : Shape).Idx → EReal)
    (j : (⟨2, ![a, n]⟩ : Shape).Idx) (i : (⟨2, ![N, n]⟩ : Shape).Idx)
    (hx : ∀ c : Fin k, xb (ix2 (j 0) c) = X (ix2 (i 0) c)) (hm : ∀ c : Fin k, mb (ix2 (j 0) c) = M (ix2 (i 0) c))
    (hws : ∀ y, ws y = Ws y) (hwn : ∀ y, wn y = Wn y) (hb : ∀ y, bb y = B y) (hq : j 1 = i 1) :
    act xb mb ws wn bb j = act X M Ws Wn B i := by
  show max (lin xb mb ws wn bb j) _ = max (lin X M Ws Wn B i) _
  rw [lin_at X M Ws Wn B xb mb ws wn bb j i hx hm hws hwn hb hq]

/-! ## The tile's spelling and the host's spelling -/

section Spellings

variable (d : DotDims ⟨2, ![a, k]⟩ ⟨2, ![k, n]⟩ ⟨2, ![a, n]⟩)
  (hlc : d.lhsContracting = [1]) (hrc : d.rhsContracting = [0]) (hln : d.lhsNonContracting = [0])
  (hrn : d.rhsNonContracting = [1]) (hlb : d.lhsBatch = []) (hrb : d.rhsBatch = [])

include hlc hrc hln hrn hlb hrb in
/-- On a tile: the matrix unit's two products into zero, added, plus the bias row spread over the rows. -/
theorem tile_lin (x0 x1 : FVec Ideal ⟨2, ![a, k]⟩ .f32) (x2 x3 : FVec Ideal ⟨2, ![k, n]⟩ .f32)
    (x4 : FVec Ideal ⟨2, ![1, n]⟩ .f32) (hb : FTy.bf16.bits < FTy.f32.bits)
    (hc3 : (⟨2, ![1, n]⟩ : Shape).ShapeCasts ⟨2, ![1, n]⟩) (hb3 : (⟨2, ![1, n]⟩ : Shape).Broadcasts ⟨2, ![a, n]⟩) :
    addf (addf (matmul d none (truncf .bf16 x0 hb) (truncf .bf16 x2 hb)
            (constant (F := Ideal) ⟨2, ![a, n]⟩ .f32 0x00000000#32))
          (matmul d none (truncf .bf16 x1 hb) (truncf .bf16 x3 hb)
            (constant (F := Ideal) ⟨2, ![a, n]⟩ .f32 0x00000000#32)))
        (broadcastTo ⟨2, ![a, n]⟩ (shapeCast ⟨2, ![1, n]⟩ x4 hc3) hb3)
      = lin x0 x1 x2 x3 x4 := by
  funext i
  obtain ⟨r, q, rfl⟩ : ∃ (r : Fin a) (q : Fin n), i = ix2 r q := ⟨i 0, i 1, eq_ix2 i⟩
  rw [Cert.Dense.matmul_eq_prod d hlc hrc hln hrn hlb hrb x0 x2 hb,
    Cert.Dense.matmul_eq_prod d hlc hrc hln hrn hlb hrb x1 x3 hb,
    Cert.Dense.tile_biased _ x4 hc3 hb3 r q, addf_apply]
  rfl

include hlc hrc hln hrn hlb hrb in
/-- On a tile, rectified: the larger of that and a zero spread over the tile. -/
theorem tile_act (x0 x1 : FVec Ideal ⟨2, ![a, k]⟩ .f32) (x2 x3 : FVec Ideal ⟨2, ![k, n]⟩ .f32)
    (x4 : FVec Ideal ⟨2, ![1, n]⟩ .f32) (hb : FTy.bf16.bits < FTy.f32.bits)
    (hc3 : (⟨2, ![1, n]⟩ : Shape).ShapeCasts ⟨2, ![1, n]⟩) (hb3 : (⟨2, ![1, n]⟩ : Shape).Broadcasts ⟨2, ![a, n]⟩) :
    maximumf (addf (addf (matmul d none (truncf .bf16 x0 hb) (truncf .bf16 x2 hb)
              (constant (F := Ideal) ⟨2, ![a, n]⟩ .f32 0x00000000#32))
            (matmul d none (truncf .bf16 x1 hb) (truncf .bf16 x3 hb)
              (constant (F := Ideal) ⟨2, ![a, n]⟩ .f32 0x00000000#32)))
          (broadcastTo ⟨2, ![a, n]⟩ (shapeCast ⟨2, ![1, n]⟩ x4 hc3) hb3))
        (broadcast ⟨2, ![a, n]⟩ (Scalar.ofBits (F := Ideal) .f32 0x00000000#32))
      = act x0 x1 x2 x3 x4 := by
  funext i
  exact congrArg (fun z : EReal => max z (Ideal.ofBits .f32 0x00000000#32))
    (congrFun (tile_lin d hlc hrc hln hrn hlb hrb x0 x1 x2 x3 x4 hb hc3 hb3) i)

include hlc hrc hln hrn hlb hrb in
/-- On the whole array: the host's two dot_generals, added, plus the bias row laid over the rows. -/
theorem host_lin (X M : FVec Ideal ⟨2, ![a, k]⟩ .f32) (Ws Wn : FVec Ideal ⟨2, ![k, n]⟩ .f32)
    (B : FVec Ideal ⟨2, ![1, n]⟩ .f32) (hB : (⟨2, ![1, n]⟩ : Shape).BroadcastsInDim ⟨2, ![a, n]⟩ ![0, 1]) :
    addf (addf (Host.dotGeneral (F := Ideal) d none X Ws) (Host.dotGeneral (F := Ideal) d none M Wn))
        (broadcastInDim ⟨2, ![a, n]⟩ ![0, 1] hB B)
      = lin X M Ws Wn B := by
  funext i
  obtain ⟨r, q, rfl⟩ : ∃ (r : Fin a) (q : Fin n), i = ix2 r q := ⟨i 0, i 1, eq_ix2 i⟩
  rw [Cert.Dense.dotGeneral_eq_prod d hlc hrc hln hrn hlb hrb X Ws,
    Cert.Dense.dotGeneral_eq_prod d hlc hrc hln hrn hlb hrb M Wn,
    Cert.Dense.host_biased _ B hB r q, addf_apply]
  rfl

include hlc hrc hln hrn hlb hrb in
/-- On the whole array, rectified: the larger of that and a scalar zero laid over everything. -/
theorem host_act (X M : FVec Ideal ⟨2, ![a, k]⟩ .f32) (Ws Wn : FVec Ideal ⟨2, ![k, n]⟩ .f32)
    (B : FVec Ideal ⟨2, ![1, n]⟩ .f32) (hB : (⟨2, ![1, n]⟩ : Shape).BroadcastsInDim ⟨2, ![a, n]⟩ ![0, 1])
    (h0 : (⟨0, ![]⟩ : Shape).BroadcastsInDim ⟨2, ![a, n]⟩ ![]) :
    maximumf (addf (addf (Host.dotGeneral (F := Ideal) d none X Ws) (Host.dotGeneral (F := Ideal) d none M Wn))
          (broadcastInDim ⟨2, ![a, n]⟩ ![0, 1] hB B))
        (broadcastInDim ⟨2, ![a, n]⟩ ![] h0 (constant (F := Ideal) ⟨0, ![]⟩ .f32 0x00000000#32))
      = act X M Ws Wn B := by
  funext i
  exact congrArg (fun z : EReal => max z (Ideal.ofBits .f32 0x00000000#32))
    (congrFun (host_lin d hlc hrc hln hrn hlb hrb X M Ws Wn B hB) i)

end Spellings

end Cert.LibSageLayer

end
-- ==== Proof.Region0.lean ====
/-
  Region 0 of the kernel program: the rectified layer on tiles of 4000 rows.

  The grid has 25 points; point t stages rows 4000 t ... 4000 t + 3999 of the feature array and of the array of
  neighbourhood means, the two 128 x 128 weights and the bias row whole, and writes back rows 4000 t ... of the result.
  On a tile the body computes max ((h . Ws + mn . Wn) + B, 0) with both operands of each product rounded to bfloat16, which on the
  extended reals changes nothing.  An entry of the layer only reads its own row of h and of mn, so what point t writes
  back is block t of the layer of the WHOLE arrays as the region finds them; the 25 blocks tile the result, so after
  the region the result array is that layer.  Everything is stated for arbitrary entry contents V.
-/
import proofs.«126515_j28973849378860_1_alg».proof.Proof.Gen.KernelIdeal.Frame
import proofs.«126515_j28973849378860_1_alg».proof.Proof.LibSageLayer
import Idealize.ShloMosaic.Lib.Pipeline.Value
import Idealize.ShloMosaic.Lib.ValueIdx

set_option maxRecDepth 16384

noncomputable section

namespace Cert.KernelIdeal.Region0

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The tile's arithmetic is the rectified layer of the five loaded blocks. -/
theorem pay_eq (x0 x1 : Vec Ideal S4000x128 .f32) (x2 x3 : Vec Ideal S128x128 .f32) (x4 : Vec Ideal S1x128 .f32) :
    k0_pay1 (F := Ideal) x0 x1 x2 x3 x4 = Cert.LibSageLayer.act x0 x1 x2 x3 x4 := by
  have e1 : shapeCast S4000x128 x1 shapeCasts_S4000x128_S4000x128 = x1 := shapeCast_self x1 _
  unfold k0_pay1
  rw [e1]
  exact Cert.LibSageLayer.tile_act dot_S4000x128_S128x128_S4000x128_1_0_0_1_n_n rfl rfl rfl rfl rfl rfl x0 x1 x2 x3 x4
    bitsLt_bf16_f32 shapeCasts_S1x128_S1x128 broadcasts_S1x128_S4000x128

/-- The region's result array as ONE function of the arrays the region finds: the rectified layer of the features, the
    means, the two weights and the bias row. -/
abbrev G (c : Dev nD) : S100000x128.Idx → EReal :=
  Cert.LibSageLayer.act (V c main_arg0) (V c main_v12) (V c main_arg3) (V c main_arg4) (V c main_v13)

/-- The index maps over the grid: the row windows and the result window are at block t of the rows; the weights and
    the bias stay at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The features' block at point t holds rows 4000 t ... of the feature array. -/
theorem blk_h (c : Dev nD) (t : Fin cfg0.N) (y : S4000x128.Idx) (i : S100000x128.Idx)
    (h0 : (i 0).val = t.val * 4000 + (y 0).val) (h1 : (i 1).val = (y 1).val) :
    (iblk0 V c 0 t : Vec Ideal S4000x128 .f32) y = (V c main_arg0 : S100000x128.Idx → EReal) i := by
  obtain ⟨e0, e1, -⟩ := idx_facts t
  unfold iblk0
  rw [View.read_apply]
  refine congrArg (V c main_arg0 : S100000x128.Idx → EReal) (funext fun a => Fin.ext ?_)
  match a with
  | ⟨0, _⟩ => show win0_0.index t (0 : Fin 2) * 4000 + 1 * (y 0).val = (i 0).val; omega
  | ⟨1, _⟩ => show win0_0.index t (1 : Fin 2) * 128 + 1 * (y 1).val = (i 1).val; omega

/-- The means' block at point t holds rows 4000 t ... of the array of means. -/
theorem blk_m (c : Dev nD) (t : Fin cfg0.N) (y : S4000x128.Idx) (i : S100000x128.Idx)
    (h0 : (i 0).val = t.val * 4000 + (y 0).val) (h1 : (i 1).val = (y 1).val) :
    (iblk0 V c 1 t : Vec Ideal S4000x128 .f32) y = (V c main_v12 : S100000x128.Idx → EReal) i := by
  obtain ⟨-, -, e0, e1, -⟩ := idx_facts t
  unfold iblk0
  rw [View.read_apply]
  refine congrArg (V c main_v12 : S100000x128.Idx → EReal) (funext fun a => Fin.ext ?_)
  match a with
  | ⟨0, _⟩ => show win0_1.index t (0 : Fin 2) * 4000 + 1 * (y 0).val = (i 0).val; omega
  | ⟨1, _⟩ => show win0_1.index t (1 : Fin 2) * 128 + 1 * (y 1).val = (i 1).val; omega

/-- The self weight's block is the whole weight, at every point. -/
theorem blk_ws (c : Dev nD) (t : Fin cfg0.N) (y : S128x128.Idx) :
    (iblk0 V c 2 t : Vec Ideal S128x128 .f32) y = (V c main_arg3 : S128x128.Idx → EReal) y := by
  obtain ⟨-, -, -, -, e0, e1, -⟩ := idx_facts t
  unfold iblk0
  rw [View.read_apply]
  refine congrArg (V c main_arg3 : S128x128.Idx → EReal) (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- The neighbour weight's block is the whole weight, at every point. -/
theorem blk_wn (c : Dev nD) (t : Fin cfg0.N) (y : S128x128.Idx) :
    (iblk0 V c 3 t : Vec Ideal S128x128 .f32) y = (V c main_arg4 : S128x128.Idx → EReal) y := by
  obtain ⟨-, -, -, -, -, -, e0, e1, -⟩ := idx_facts t
  unfold iblk0
  rw [View.read_apply]
  refine congrArg (V c main_arg4 : S128x128.Idx → EReal) (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- The bias row's block is the whole row, at every point. -/
theorem blk_b (c : Dev nD) (t : Fin cfg0.N) (y : S1x128.Idx) :
    (iblk0 V c 4 t : Vec Ideal S1x128 .f32) y = (V c main_v13 : S1x128.Idx → EReal) y := by
  obtain ⟨-, -, -, -, -, -, -, -, e0, e1, -⟩ := idx_facts t
  unfold iblk0
  rw [View.read_apply]
  refine congrArg (V c main_v13 : S1x128.Idx → EReal) (funext fun a => Fin.ext ?_)
  match a with
  | ⟨0, _⟩ => show win0_4.index t (0 : Fin 2) * 1 + 1 * (y 0).val = (y 0).val; omega
  | ⟨1, _⟩ => show win0_4.index t (1 : Fin 2) * 128 + 1 * (y 1).val = (y 1).val; omega

/-- Where the result's block at point t sits in the result array: rows 4000 t ..., all 128 columns. -/
theorem emb_out (t : Fin cfg0.N) (j : S4000x128.Idx) :
    ((((cfg0.win 5).blk t).view.emb j : S100000x128.Idx) 0).val = t.val * 4000 + (j 0).val
    ∧ ((((cfg0.win 5).blk t).view.emb j : S100000x128.Idx) 1).val = (j 1).val := by
  obtain ⟨-, -, -, -, -, -, -, -, -, -, e0, e1⟩ := idx_facts t
  constructor
  · show win0_5.index t (0 : Fin 2) * 4000 + 1 * (j 0).val = t.val * 4000 + (j 0).val; omega
  · show win0_5.index t (1 : Fin 2) * 128 + 1 * (j 1).val = (j 1).val; omega

/-- WHAT POINT t WRITES BACK is block t of the layer of the whole arrays. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz]
  simp only [View.ld_unit_zero (S := S4000x128) hz, View.ld_unit_zero (S := S128x128) hz, View.ld_unit_zero (S := S1x128) hz]
  rw [pay_eq]
  funext j
  show Cert.LibSageLayer.act (iblk0 V c 0 t : Vec Ideal S4000x128 .f32) (iblk0 V c 1 t : Vec Ideal S4000x128 .f32)
      (iblk0 V c 2 t : Vec Ideal S128x128 .f32) (iblk0 V c 3 t : Vec Ideal S128x128 .f32) (iblk0 V c 4 t : Vec Ideal S1x128 .f32) j
    = G V c (((cfg0.win 5).blk t).view.emb j)
  obtain ⟨hr, hq⟩ := emb_out t j
  refine Cert.LibSageLayer.act_at (V c main_arg0) (V c main_v12) (V c main_arg3) (V c main_arg4) (V c main_v13)
    (iblk0 V c 0 t : Vec Ideal S4000x128 .f32) (iblk0 V c 1 t : Vec Ideal S4000x128 .f32)
    (iblk0 V c 2 t : Vec Ideal S128x128 .f32) (iblk0 V c 3 t : Vec Ideal S128x128 .f32) (iblk0 V c 4 t : Vec Ideal S1x128 .f32)
    j (((cfg0.win 5).blk t).view.emb j) ?_ ?_ ?_ ?_ ?_ ?_
  · intro k; exact blk_h V c t (ix2 (j 0) k) (ix2 ((((cfg0.win 5).blk t).view.emb j : S100000x128.Idx) 0) k) hr rfl
  · intro k; exact blk_m V c t (ix2 (j 0) k) (ix2 ((((cfg0.win 5).blk t).view.emb j : S100000x128.Idx) 0) k) hr rfl
  · intro y; exact blk_ws V c t y
  · intro y; exact blk_wn V c t y
  · intro y; exact blk_b V c t y
  · exact Fin.ext hq.symm

/-- An index of the result array is in point t's block iff each coordinate is in the block's range on its axis. -/
theorem mem_blk (t : Fin cfg0.N) (i : S100000x128.Idx) :
    i ∈ ((cfg0.win 5).blk t).view.set ↔ ∀ a : Fin 2, win0_5.index t a * S4000x128.size a ≤ (i a).val
      ∧ (i a).val < win0_5.index t a * S4000x128.size a + S4000x128.size a := by
  show i ∈ ((View.whole main_v14).slice (win0_5.rect t)).set ↔ _
  rw [View.set_slice_whole, Rect.mem_set_unit]
  exact Iff.rfl

/-- Every index of the result array is in some point's block: row r is in the block of point r / 4000. -/
theorem cover (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : grid0.N = 25 := N_0
  have hlt : (i 0).val / 4000 < cfg0.N := by show _ < grid0.N; rw [hN]; omega
  obtain ⟨-, -, -, -, -, -, -, -, -, -, e0, e1⟩ := idx_facts ⟨(i 0).val / 4000, hlt⟩
  refine ⟨⟨(i 0).val / 4000, hlt⟩, flush0_5 _, ?_⟩
  rw [mem_blk]
  intro a
  match a with
  | ⟨0, _⟩ =>
    show win0_5.index ⟨(i 0).val / 4000, hlt⟩ (0 : Fin 2) * 4000 ≤ (i 0).val
      ∧ (i 0).val < win0_5.index ⟨(i 0).val / 4000, hlt⟩ (0 : Fin 2) * 4000 + 4000
    rw [e0]; show (i 0).val / 4000 * 4000 ≤ (i 0).val ∧ (i 0).val < (i 0).val / 4000 * 4000 + 4000; omega
  | ⟨1, _⟩ =>
    show win0_5.index ⟨(i 0).val / 4000, hlt⟩ (1 : Fin 2) * 128 ≤ (i 1).val
      ∧ (i 1).val < win0_5.index ⟨(i 0).val / 4000, hlt⟩ (1 : Fin 2) * 128 + 128
    rw [e1]; omega

/-- THE RESULT ARRAY after the region is the layer of the arrays the region finds. -/
theorem arr (c : Dev nD) : (dat0 V c).arrAt 5 cfg0.N = G V c :=
  (dat0 V c).arrAt_eq_of_cover 5 (G V c) (fun t _ => flushed_eq V c t) cover

end Cert.KernelIdeal.Region0

end
-- ==== Proof.Region1.lean ====
/-
  Region 1 of the kernel program: the rectified layer on tiles of 4000 rows.

  The grid has 25 points; point t stages rows 4000 t ... 4000 t + 3999 of the feature array and of the array of
  neighbourhood means, the two 128 x 128 weights and the bias row whole, and writes back rows 4000 t ... of the result.
  On a tile the body computes max ((h . Ws + mn . Wn) + B, 0) with both operands of each product rounded to bfloat16, which on the
  extended reals changes nothing.  An entry of the layer only reads its own row of h and of mn, so what point t writes
  back is block t of the layer of the WHOLE arrays as the region finds them; the 25 blocks tile the result, so after
  the region the result array is that layer.  Everything is stated for arbitrary entry contents V.
-/
import proofs.«126515_j28973849378860_1_alg».proof.Proof.Gen.KernelIdeal.Frame
import proofs.«126515_j28973849378860_1_alg».proof.Proof.LibSageLayer
import Idealize.ShloMosaic.Lib.Pipeline.Value
import Idealize.ShloMosaic.Lib.ValueIdx

set_option maxRecDepth 16384

noncomputable section

namespace Cert.KernelIdeal.Region1

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The tile's arithmetic is the rectified layer of the five loaded blocks. -/
theorem pay_eq (x0 x1 : Vec Ideal S4000x128 .f32) (x2 x3 : Vec Ideal S128x128 .f32) (x4 : Vec Ideal S1x128 .f32) :
    k1_pay1 (F := Ideal) x0 x1 x2 x3 x4 = Cert.LibSageLayer.act x0 x1 x2 x3 x4 := by
  have e0 : shapeCast S4000x128 x0 shapeCasts_S4000x128_S4000x128 = x0 := shapeCast_self x0 _
  have e1 : shapeCast S4000x128 x1 shapeCasts_S4000x128_S4000x128 = x1 := shapeCast_self x1 _
  unfold k1_pay1
  rw [e0, e1]
  exact Cert.LibSageLayer.tile_act dot_S4000x128_S128x128_S4000x128_1_0_0_1_n_n rfl rfl rfl rfl rfl rfl x0 x1 x2 x3 x4
    bitsLt_bf16_f32 shapeCasts_S1x128_S1x128 broadcasts_S1x128_S4000x128

/-- The region's result array as ONE function of the arrays the region finds: the rectified layer of the features, the
    means, the two weights and the bias row. -/
abbrev G (c : Dev nD) : S100000x128.Idx → EReal :=
  Cert.LibSageLayer.act (V c main_v14) (V c main_v27) (V c main_arg6) (V c main_arg7) (V c main_v28)

/-- The index maps over the grid: the row windows and the result window are at block t of the rows; the weights and
    the bias stay at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The features' block at point t holds rows 4000 t ... of the feature array. -/
theorem blk_h (c : Dev nD) (t : Fin cfg1.N) (y : S4000x128.Idx) (i : S100000x128.Idx)
    (h0 : (i 0).val = t.val * 4000 + (y 0).val) (h1 : (i 1).val = (y 1).val) :
    (iblk1 V c 0 t : Vec Ideal S4000x128 .f32) y = (V c main_v14 : S100000x128.Idx → EReal) i := by
  obtain ⟨e0, e1, -⟩ := idx_facts t
  unfold iblk1
  rw [View.read_apply]
  refine congrArg (V c main_v14 : S100000x128.Idx → EReal) (funext fun a => Fin.ext ?_)
  match a with
  | ⟨0, _⟩ => show win1_0.index t (0 : Fin 2) * 4000 + 1 * (y 0).val = (i 0).val; omega
  | ⟨1, _⟩ => show win1_0.index t (1 : Fin 2) * 128 + 1 * (y 1).val = (i 1).val; omega

/-- The means' block at point t holds rows 4000 t ... of the array of means. -/
theorem blk_m (c : Dev nD) (t : Fin cfg1.N) (y : S4000x128.Idx) (i : S100000x128.Idx)
    (h0 : (i 0).val = t.val * 4000 + (y 0).val) (h1 : (i 1).val = (y 1).val) :
    (iblk1 V c 1 t : Vec Ideal S4000x128 .f32) y = (V c main_v27 : S100000x128.Idx → EReal) i := by
  obtain ⟨-, -, e0, e1, -⟩ := idx_facts t
  unfold iblk1
  rw [View.read_apply]
  refine congrArg (V c main_v27 : S100000x128.Idx → EReal) (funext fun a => Fin.ext ?_)
  match a with
  | ⟨0, _⟩ => show win1_1.index t (0 : Fin 2) * 4000 + 1 * (y 0).val = (i 0).val; omega
  | ⟨1, _⟩ => show win1_1.index t (1 : Fin 2) * 128 + 1 * (y 1).val = (i 1).val; omega

/-- The self weight's block is the whole weight, at every point. -/
theorem blk_ws (c : Dev nD) (t : Fin cfg1.N) (y : S128x128.Idx) :
    (iblk1 V c 2 t : Vec Ideal S128x128 .f32) y = (V c main_arg6 : S128x128.Idx → EReal) y := by
  obtain ⟨-, -, -, -, e0, e1, -⟩ := idx_facts t
  unfold iblk1
  rw [View.read_apply]
  refine congrArg (V c main_arg6 : S128x128.Idx → EReal) (funext fun a => Fin.ext ?_)
  match a with
  | ⟨0, _⟩ => show win1_2.index t (0 : Fin 2) * 128 + 1 * (y 0).val = (y 0).val; omega
  | ⟨1, _⟩ => show win1_2.index t (1 : Fin 2) * 128 + 1 * (y 1).val = (y 1).val; omega

/-- The neighbour weight's block is the whole weight, at every point. -/
theorem blk_wn (c : Dev nD) (t : Fin cfg1.N) (y : S128x128.Idx) :
    (iblk1 V c 3 t : Vec Ideal S128x128 .f32) y = (V c main_arg7 : S128x128.Idx → EReal) y := by
  obtain ⟨-, -, -, -, -, -, e0, e1, -⟩ := idx_facts t
  unfold iblk1
  rw [View.read_apply]
  refine congrArg (V c main_arg7 : S128x128.Idx → EReal) (funext fun a => Fin.ext ?_)
  match a with
  | ⟨0, _⟩ => show win1_3.index t (0 : Fin 2) * 128 + 1 * (y 0).val = (y 0).val; omega
  | ⟨1, _⟩ => show win1_3.index t (1 : Fin 2) * 128 + 1 * (y 1).val = (y 1).val; omega

/-- The bias row's block is the whole row, at every point. -/
theorem blk_b (c : Dev nD) (t : Fin cfg1.N) (y : S1x128.Idx) :
    (iblk1 V c 4 t : Vec Ideal S1x128 .f32) y = (V c main_v28 : S1x128.Idx → EReal) y := by
  obtain ⟨-, -, -, -, -, -, -, -, e0, e1, -⟩ := idx_facts t
  unfold iblk1
  rw [View.read_apply]
  refine congrArg (V c main_v28 : S1x128.Idx → EReal) (funext fun a => Fin.ext ?_)
  match a with
  | ⟨0, _⟩ => show win1_4.index t (0 : Fin 2) * 1 + 1 * (y 0).val = (y 0).val; omega
  | ⟨1, _⟩ => show win1_4.index t (1 : Fin 2) * 128 + 1 * (y 1).val = (y 1).val; omega

/-- Where the result's block at point t sits in the result array: rows 4000 t ..., all 128 columns. -/
theorem emb_out (t : Fin cfg1.N) (j : S4000x128.Idx) :
    ((((cfg1.win 5).blk t).view.emb j : S100000x128.Idx) 0).val = t.val * 4000 + (j 0).val
    ∧ ((((cfg1.win 5).blk t).view.emb j : S100000x128.Idx) 1).val = (j 1).val := by
  obtain ⟨-, -, -, -, -, -, -, -, -, -, e0, e1⟩ := idx_facts t
  constructor
  · show win1_5.index t (0 : Fin 2) * 4000 + 1 * (j 0).val = t.val * 4000 + (j 0).val; omega
  · show win1_5.index t (1 : Fin 2) * 128 + 1 * (j 1).val = (j 1).val; omega

/-- WHAT POINT t WRITES BACK is block t of the layer of the whole arrays. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S4000x128) hz, View.ld_unit_zero (S := S128x128) hz, View.ld_unit_zero (S := S1x128) hz]
  rw [pay_eq]
  funext j
  show Cert.LibSageLayer.act (iblk1 V c 0 t : Vec Ideal S4000x128 .f32) (iblk1 V c 1 t : Vec Ideal S4000x128 .f32)
      (iblk1 V c 2 t : Vec Ideal S128x128 .f32) (iblk1 V c 3 t : Vec Ideal S128x128 .f32) (iblk1 V c 4 t : Vec Ideal S1x128 .f32) j
    = G V c (((cfg1.win 5).blk t).view.emb j)
  obtain ⟨hr, hq⟩ := emb_out t j
  refine Cert.LibSageLayer.act_at (V c main_v14) (V c main_v27) (V c main_arg6) (V c main_arg7) (V c main_v28)
    (iblk1 V c 0 t : Vec Ideal S4000x128 .f32) (iblk1 V c 1 t : Vec Ideal S4000x128 .f32)
    (iblk1 V c 2 t : Vec Ideal S128x128 .f32) (iblk1 V c 3 t : Vec Ideal S128x128 .f32) (iblk1 V c 4 t : Vec Ideal S1x128 .f32)
    j (((cfg1.win 5).blk t).view.emb j) ?_ ?_ ?_ ?_ ?_ ?_
  · intro k; exact blk_h V c t (ix2 (j 0) k) (ix2 ((((cfg1.win 5).blk t).view.emb j : S100000x128.Idx) 0) k) hr rfl
  · intro k; exact blk_m V c t (ix2 (j 0) k) (ix2 ((((cfg1.win 5).blk t).view.emb j : S100000x128.Idx) 0) k) hr rfl
  · intro y; exact blk_ws V c t y
  · intro y; exact blk_wn V c t y
  · intro y; exact blk_b V c t y
  · exact Fin.ext hq.symm

/-- An index of the result array is in point t's block iff each coordinate is in the block's range on its axis. -/
theorem mem_blk (t : Fin cfg1.N) (i : S100000x128.Idx) :
    i ∈ ((cfg1.win 5).blk t).view.set ↔ ∀ a : Fin 2, win1_5.index t a * S4000x128.size a ≤ (i a).val
      ∧ (i a).val < win1_5.index t a * S4000x128.size a + S4000x128.size a := by
  show i ∈ ((View.whole main_v29).slice (win1_5.rect t)).set ↔ _
  rw [View.set_slice_whole, Rect.mem_set_unit]
  exact Iff.rfl

/-- Every index of the result array is in some point's block: row r is in the block of point r / 4000. -/
theorem cover (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : grid1.N = 25 := N_1
  have hlt : (i 0).val / 4000 < cfg1.N := by show _ < grid1.N; rw [hN]; omega
  obtain ⟨-, -, -, -, -, -, -, -, -, -, e0, e1⟩ := idx_facts ⟨(i 0).val / 4000, hlt⟩
  refine ⟨⟨(i 0).val / 4000, hlt⟩, flush1_5 _, ?_⟩
  rw [mem_blk]
  intro a
  match a with
  | ⟨0, _⟩ =>
    show win1_5.index ⟨(i 0).val / 4000, hlt⟩ (0 : Fin 2) * 4000 ≤ (i 0).val
      ∧ (i 0).val < win1_5.index ⟨(i 0).val / 4000, hlt⟩ (0 : Fin 2) * 4000 + 4000
    rw [e0]; show (i 0).val / 4000 * 4000 ≤ (i 0).val ∧ (i 0).val < (i 0).val / 4000 * 4000 + 4000; omega
  | ⟨1, _⟩ =>
    show win1_5.index ⟨(i 0).val / 4000, hlt⟩ (1 : Fin 2) * 128 ≤ (i 1).val
      ∧ (i 1).val < win1_5.index ⟨(i 0).val / 4000, hlt⟩ (1 : Fin 2) * 128 + 128
    rw [e1]; omega

/-- THE RESULT ARRAY after the region is the layer of the arrays the region finds. -/
theorem arr (c : Dev nD) : (dat1 V c).arrAt 5 cfg1.N = G V c :=
  (dat1 V c).arrAt_eq_of_cover 5 (G V c) (fun t _ => flushed_eq V c t) cover

end Cert.KernelIdeal.Region1

end
-- ==== Proof.Region2.lean ====
/-
  Region 2 of the kernel program: the rectified layer on tiles of 4000 rows.

  The grid has 25 points; point t stages rows 4000 t ... 4000 t + 3999 of the feature array and of the array of
  neighbourhood means, the two 128 x 128 weights and the bias row whole, and writes back rows 4000 t ... of the result.
  On a tile the body computes max ((h . Ws + mn . Wn) + B, 0) with both operands of each product rounded to bfloat16, which on the
  extended reals changes nothing.  An entry of the layer only reads its own row of h and of mn, so what point t writes
  back is block t of the layer of the WHOLE arrays as the region finds them; the 25 blocks tile the result, so after
  the region the result array is that layer.  Everything is stated for arbitrary entry contents V.
-/
import proofs.«126515_j28973849378860_1_alg».proof.Proof.Gen.KernelIdeal.Frame
import proofs.«126515_j28973849378860_1_alg».proof.Proof.LibSageLayer
import Idealize.ShloMosaic.Lib.Pipeline.Value
import Idealize.ShloMosaic.Lib.ValueIdx

set_option maxRecDepth 16384

noncomputable section

namespace Cert.KernelIdeal.Region2

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The tile's arithmetic is the rectified layer of the five loaded blocks. -/
theorem pay_eq (x0 x1 : Vec Ideal S4000x128 .f32) (x2 x3 : Vec Ideal S128x128 .f32) (x4 : Vec Ideal S1x128 .f32) :
    k2_pay1 (F := Ideal) x0 x1 x2 x3 x4 = Cert.LibSageLayer.act x0 x1 x2 x3 x4 := by
  have e0 : shapeCast S4000x128 x0 shapeCasts_S4000x128_S4000x128 = x0 := shapeCast_self x0 _
  have e1 : shapeCast S4000x128 x1 shapeCasts_S4000x128_S4000x128 = x1 := shapeCast_self x1 _
  unfold k2_pay1
  rw [e0, e1]
  exact Cert.LibSageLayer.tile_act dot_S4000x128_S128x128_S4000x128_1_0_0_1_n_n rfl rfl rfl rfl rfl rfl x0 x1 x2 x3 x4
    bitsLt_bf16_f32 shapeCasts_S1x128_S1x128 broadcasts_S1x128_S4000x128

/-- The region's result array as ONE function of the arrays the region finds: the rectified layer of the features, the
    means, the two weights and the bias row. -/
abbrev G (c : Dev nD) : S100000x128.Idx → EReal :=
  Cert.LibSageLayer.act (V c main_v29) (V c main_v42) (V c main_arg9) (V c main_arg10) (V c main_v43)

/-- The index maps over the grid: the row windows and the result window are at block t of the rows; the weights and
    the bias stay at block 0. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The features' block at point t holds rows 4000 t ... of the feature array. -/
theorem blk_h (c : Dev nD) (t : Fin cfg2.N) (y : S4000x128.Idx) (i : S100000x128.Idx)
    (h0 : (i 0).val = t.val * 4000 + (y 0).val) (h1 : (i 1).val = (y 1).val) :
    (iblk2 V c 0 t : Vec Ideal S4000x128 .f32) y = (V c main_v29 : S100000x128.Idx → EReal) i := by
  obtain ⟨e0, e1, -⟩ := idx_facts t
  unfold iblk2
  rw [View.read_apply]
  refine congrArg (V c main_v29 : S100000x128.Idx → EReal) (funext fun a => Fin.ext ?_)
  match a with
  | ⟨0, _⟩ => show win2_0.index t (0 : Fin 2) * 4000 + 1 * (y 0).val = (i 0).val; omega
  | ⟨1, _⟩ => show win2_0.index t (1 : Fin 2) * 128 + 1 * (y 1).val = (i 1).val; omega

/-- The means' block at point t holds rows 4000 t ... of the array of means. -/
theorem blk_m (c : Dev nD) (t : Fin cfg2.N) (y : S4000x128.Idx) (i : S100000x128.Idx)
    (h0 : (i 0).val = t.val * 4000 + (y 0).val) (h1 : (i 1).val = (y 1).val) :
    (iblk2 V c 1 t : Vec Ideal S4000x128 .f32) y = (V c main_v42 : S100000x128.Idx → EReal) i := by
  obtain ⟨-, -, e0, e1, -⟩ := idx_facts t
  unfold iblk2
  rw [View.read_apply]
  refine congrArg (V c main_v42 : S100000x128.Idx → EReal) (funext fun a => Fin.ext ?_)
  match a with
  | ⟨0, _⟩ => show win2_1.index t (0 : Fin 2) * 4000 + 1 * (y 0).val = (i 0).val; omega
  | ⟨1, _⟩ => show win2_1.index t (1 : Fin 2) * 128 + 1 * (y 1).val = (i 1).val; omega

/-- The self weight's block is the whole weight, at every point. -/
theorem blk_ws (c : Dev nD) (t : Fin cfg2.N) (y : S128x128.Idx) :
    (iblk2 V c 2 t : Vec Ideal S128x128 .f32) y = (V c main_arg9 : S128x128.Idx → EReal) y := by
  obtain ⟨-, -, -, -, e0, e1, -⟩ := idx_facts t
  unfold iblk2
  rw [View.read_apply]
  refine congrArg (V c main_arg9 : S128x128.Idx → EReal) (funext fun a => Fin.ext ?_)
  match a with
  | ⟨0, _⟩ => show win2_2.index t (0 : Fin 2) * 128 + 1 * (y 0).val = (y 0).val; omega
  | ⟨1, _⟩ => show win2_2.index t (1 : Fin 2) * 128 + 1 * (y 1).val = (y 1).val; omega

/-- The neighbour weight's block is the whole weight, at every point. -/
theorem blk_wn (c : Dev nD) (t : Fin cfg2.N) (y : S128x128.Idx) :
    (iblk2 V c 3 t : Vec Ideal S128x128 .f32) y = (V c main_arg10 : S128x128.Idx → EReal) y := by
  obtain ⟨-, -, -, -, -, -, e0, e1, -⟩ := idx_facts t
  unfold iblk2
  rw [View.read_apply]
  refine congrArg (V c main_arg10 : S128x128.Idx → EReal) (funext fun a => Fin.ext ?_)
  match a with
  | ⟨0, _⟩ => show win2_3.index t (0 : Fin 2) * 128 + 1 * (y 0).val = (y 0).val; omega
  | ⟨1, _⟩ => show win2_3.index t (1 : Fin 2) * 128 + 1 * (y 1).val = (y 1).val; omega

/-- The bias row's block is the whole row, at every point. -/
theorem blk_b (c : Dev nD) (t : Fin cfg2.N) (y : S1x128.Idx) :
    (iblk2 V c 4 t : Vec Ideal S1x128 .f32) y = (V c main_v43 : S1x128.Idx → EReal) y := by
  obtain ⟨-, -, -, -, -, -, -, -, e0, e1, -⟩ := idx_facts t
  unfold iblk2
  rw [View.read_apply]
  refine congrArg (V c main_v43 : S1x128.Idx → EReal) (funext fun a => Fin.ext ?_)
  match a with
  | ⟨0, _⟩ => show win2_4.index t (0 : Fin 2) * 1 + 1 * (y 0).val = (y 0).val; omega
  | ⟨1, _⟩ => show win2_4.index t (1 : Fin 2) * 128 + 1 * (y 1).val = (y 1).val; omega

/-- Where the result's block at point t sits in the result array: rows 4000 t ..., all 128 columns. -/
theorem emb_out (t : Fin cfg2.N) (j : S4000x128.Idx) :
    ((((cfg2.win 5).blk t).view.emb j : S100000x128.Idx) 0).val = t.val * 4000 + (j 0).val
    ∧ ((((cfg2.win 5).blk t).view.emb j : S100000x128.Idx) 1).val = (j 1).val := by
  obtain ⟨-, -, -, -, -, -, -, -, -, -, e0, e1⟩ := idx_facts t
  constructor
  · show win2_5.index t (0 : Fin 2) * 4000 + 1 * (j 0).val = t.val * 4000 + (j 0).val; omega
  · show win2_5.index t (1 : Fin 2) * 128 + 1 * (j 1).val = (j 1).val; omega

/-- WHAT POINT t WRITES BACK is block t of the layer of the whole arrays. -/
theorem flushed_eq (c : Dev nD) (t : Fin cfg2.N) :
    (dat2 V c).flushed 5 t = ((cfg2.win 5).blk t).view.read (Elt Ideal) (G V c) := by
  show (cfg2.win 5).cut (grid2.coords t) ((dat2 V c).after 5 t) = _
  rw [after2_5]
  unfold out2_5
  rw [View.canon_unit_zero hz]
  simp only [View.ld_unit_zero (S := S4000x128) hz, View.ld_unit_zero (S := S128x128) hz, View.ld_unit_zero (S := S1x128) hz]
  rw [pay_eq]
  funext j
  show Cert.LibSageLayer.act (iblk2 V c 0 t : Vec Ideal S4000x128 .f32) (iblk2 V c 1 t : Vec Ideal S4000x128 .f32)
      (iblk2 V c 2 t : Vec Ideal S128x128 .f32) (iblk2 V c 3 t : Vec Ideal S128x128 .f32) (iblk2 V c 4 t : Vec Ideal S1x128 .f32) j
    = G V c (((cfg2.win 5).blk t).view.emb j)
  obtain ⟨hr, hq⟩ := emb_out t j
  refine Cert.LibSageLayer.act_at (V c main_v29) (V c main_v42) (V c main_arg9) (V c main_arg10) (V c main_v43)
    (iblk2 V c 0 t : Vec Ideal S4000x128 .f32) (iblk2 V c 1 t : Vec Ideal S4000x128 .f32)
    (iblk2 V c 2 t : Vec Ideal S128x128 .f32) (iblk2 V c 3 t : Vec Ideal S128x128 .f32) (iblk2 V c 4 t : Vec Ideal S1x128 .f32)
    j (((cfg2.win 5).blk t).view.emb j) ?_ ?_ ?_ ?_ ?_ ?_
  · intro k; exact blk_h V c t (ix2 (j 0) k) (ix2 ((((cfg2.win 5).blk t).view.emb j : S100000x128.Idx) 0) k) hr rfl
  · intro k; exact blk_m V c t (ix2 (j 0) k) (ix2 ((((cfg2.win 5).blk t).view.emb j : S100000x128.Idx) 0) k) hr rfl
  · intro y; exact blk_ws V c t y
  · intro y; exact blk_wn V c t y
  · intro y; exact blk_b V c t y
  · exact Fin.ext hq.symm

/-- An index of the result array is in point t's block iff each coordinate is in the block's range on its axis. -/
theorem mem_blk (t : Fin cfg2.N) (i : S100000x128.Idx) :
    i ∈ ((cfg2.win 5).blk t).view.set ↔ ∀ a : Fin 2, win2_5.index t a * S4000x128.size a ≤ (i a).val
      ∧ (i a).val < win2_5.index t a * S4000x128.size a + S4000x128.size a := by
  show i ∈ ((View.whole main_v44).slice (win2_5.rect t)).set ↔ _
  rw [View.set_slice_whole, Rect.mem_set_unit]
  exact Iff.rfl

/-- Every index of the result array is in some point's block: row r is in the block of point r / 4000. -/
theorem cover (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  have hN : grid2.N = 25 := N_2
  have hlt : (i 0).val / 4000 < cfg2.N := by show _ < grid2.N; rw [hN]; omega
  obtain ⟨-, -, -, -, -, -, -, -, -, -, e0, e1⟩ := idx_facts ⟨(i 0).val / 4000, hlt⟩
  refine ⟨⟨(i 0).val / 4000, hlt⟩, flush2_5 _, ?_⟩
  rw [mem_blk]
  intro a
  match a with
  | ⟨0, _⟩ =>
    show win2_5.index ⟨(i 0).val / 4000, hlt⟩ (0 : Fin 2) * 4000 ≤ (i 0).val
      ∧ (i 0).val < win2_5.index ⟨(i 0).val / 4000, hlt⟩ (0 : Fin 2) * 4000 + 4000
    rw [e0]; show (i 0).val / 4000 * 4000 ≤ (i 0).val ∧ (i 0).val < (i 0).val / 4000 * 4000 + 4000; omega
  | ⟨1, _⟩ =>
    show win2_5.index ⟨(i 0).val / 4000, hlt⟩ (1 : Fin 2) * 128 ≤ (i 1).val
      ∧ (i 1).val < win2_5.index ⟨(i 0).val / 4000, hlt⟩ (1 : Fin 2) * 128 + 128
    rw [e1]; omega

/-- THE RESULT ARRAY after the region is the layer of the arrays the region finds. -/
theorem arr (c : Dev nD) : (dat2 V c).arrAt 5 cfg2.N = G V c :=
  (dat2 V c).arrAt_eq_of_cover 5 (G V c) (fun t _ => flushed_eq V c t) cover

end Cert.KernelIdeal.Region2

end
-- ==== Proof.Region3.lean ====
/-
  Region 3 of the kernel program: the layer on tiles of 4000 rows.

  The grid has 25 points; point t stages rows 4000 t ... 4000 t + 3999 of the feature array and of the array of
  neighbourhood means, the two 128 x 128 weights and the bias row whole, and writes back rows 4000 t ... of the result.
  On a tile the body computes (h . Ws + mn . Wn) + B with both operands of each product rounded to bfloat16, which on the
  extended reals changes nothing.  An entry of the layer only reads its own row of h and of mn, so what point t writes
  back is block t of the layer of the WHOLE arrays as the region finds them; the 25 blocks tile the result, so after
  the region the result array is that layer.  Everything is stated for arbitrary entry contents V.
-/
import proofs.«126515_j28973849378860_1_alg».proof.Proof.Gen.KernelIdeal.Frame
import proofs.«126515_j28973849378860_1_alg».proof.Proof.LibSageLayer
import Idealize.ShloMosaic.Lib.Pipeline.Value
import Idealize.ShloMosaic.Lib.ValueIdx

set_option maxRecDepth 16384

noncomputable section

namespace Cert.KernelIdeal.Region3

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The tile's arithmetic is the layer of the five loaded blocks. -/
theorem pay_eq (x0 x1 : Vec Ideal S4000x128 .f32) (x2 x3 : Vec Ideal S128x128 .f32) (x4 : Vec Ideal S1x128 .f32) :
    k3_pay1 (F := Ideal) x0 x1 x2 x3 x4 = Cert.LibSageLayer.lin x0 x1 x2 x3 x4 := by
  have e0 : shapeCast S4000x128 x0 shapeCasts_S4000x128_S4000x128 = x0 := shapeCast_self x0 _
  have e1 : shapeCast S4000x128 x1 shapeCasts_S4000x128_S4000x128 = x1 := shapeCast_self x1 _
  unfold k3_pay1
  rw [e0, e1]
  exact Cert.LibSageLayer.tile_lin dot_S4000x128_S128x128_S4000x128_1_0_0_1_n_n rfl rfl rfl rfl rfl rfl x0 x1 x2 x3 x4
    bitsLt_bf16_f32 shapeCasts_S1x128_S1x128 broadcasts_S1x128_S4000x128

/-- The region's result array as ONE function of the arrays the region finds: the layer of the features, the
    means, the two weights and the bias row. -/
abbrev G (c : Dev nD) : S100000x128.Idx → EReal :=
  Cert.LibSageLayer.lin (V c main_v44) (V c main_v57) (V c main_arg12) (V c main_arg13) (V c main_v58)

/-- The index maps over the grid: the row windows and the result window are at block t of the rows; the weights and
    the bias stay at block 0. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- The features' block at point t holds rows 4000 t ... of the feature array. -/
theorem blk_h (c : Dev nD) (t : Fin cfg3.N) (y : S4000x128.Idx) (i : S100000x128.Idx)
    (h0 : (i 0).val = t.val * 4000 + (y 0).val) (h1 : (i 1).val = (y 1).val) :
    (iblk3 V c 0 t : Vec Ideal S4000x128 .f32) y = (V c main_v44 : S100000x128.Idx → EReal) i := by
  obtain ⟨e0, e1, -⟩ := idx_facts t
  unfold iblk3
  rw [View.read_apply]
  refine congrArg (V c main_v44 : S100000x128.Idx → EReal) (funext fun a => Fin.ext ?_)
  match a with
  | ⟨0, _⟩ => show win3_0.index t (0 : Fin 2) * 4000 + 1 * (y 0).val = (i 0).val; omega
  | ⟨1, _⟩ => show win3_0.index t (1 : Fin 2) * 128 + 1 * (y 1).val = (i 1).val; omega

/-- The means' block at point t holds rows 4000 t ... of the array of means. -/
theorem blk_m (c : Dev nD) (t : Fin cfg3.N) (y : S4000x128.Idx) (i : S100000x128.Idx)
    (h0 : (i 0).val = t.val * 4000 + (y 0).val) (h1 : (i 1).val = (y 1).val) :
    (iblk3 V c 1 t : Vec Ideal S4000x128 .f32) y = (V c main_v57 : S100000x128.Idx → EReal) i := by
  obtain ⟨-, -, e0, e1, -⟩ := idx_facts t
  unfold iblk3
  rw [View.read_apply]
  refine congrArg (V c main_v57 : S100000x128.Idx → EReal) (funext fun a => Fin.ext ?_)
  match a with
  | ⟨0, _⟩ => show win3_1.index t (0 : Fin 2) * 4000 + 1 * (y 0).val = (i 0).val; omega
  | ⟨1, _⟩ => show win3_1.index t (1 : Fin 2) * 128 + 1 * (y 1).val = (i 1).val; omega

/-- The self weight's block is the whole weight, at every point. -/
theorem blk_ws (c : Dev nD) (t : Fin cfg3.N) (y : S128x128.Idx) :
    (iblk3 V c 2 t : Vec Ideal S128x128 .f32) y = (V c main_arg12 : S128x128.Idx → EReal) y := by
  obtain ⟨-, -, -, -, e0, e1, -⟩ := idx_facts t
  unfold iblk3
  rw [View.read_apply]
  refine congrArg (V c main_arg12 : S128x128.Idx → EReal) (funext fun a => Fin.ext ?_)
  match a with
  | ⟨0, _⟩ => show win3_2.index t (0 : Fin 2) * 128 + 1 * (y 0).val = (y 0).val; omega
  | ⟨1, _⟩ => show win3_2.index t (1 : Fin 2) * 128 + 1 * (y 1).val = (y 1).val; omega

/-- The neighbour weight's block is the whole weight, at every point. -/
theorem blk_wn (c : Dev nD) (t : Fin cfg3.N) (y : S128x128.Idx) :
    (iblk3 V c 3 t : Vec Ideal S128x128 .f32) y = (V c main_arg13 : S128x128.Idx → EReal) y := by
  obtain ⟨-, -, -, -, -, -, e0, e1, -⟩ := idx_facts t
  unfold iblk3
  rw [View.read_apply]
  refine congrArg (V c main_arg13 : S128x128.Idx → EReal) (funext fun a => Fin.ext ?_)
  match a with
  | ⟨0, _⟩ => show win3_3.index t (0 : Fin 2) * 128 + 1 * (y 0).val = (y 0).val; omega
  | ⟨1, _⟩ => show win3_3.index t (1 : Fin 2) * 128 + 1 * (y 1).val = (y 1).val; omega

/-- The bias row's block is the whole row, at every point. -/
theorem blk_b (c : Dev nD) (t : Fin cfg3.N) (y : S1x128.Idx) :
    (iblk3 V c 4 t : Vec Ideal S1x128 .f32) y = (V c main_v58 : S1x128.Idx → EReal) y := by
  obtain ⟨-, -, -, -, -, -, -, -, e0, e1, -⟩ := idx_facts t
  unfold iblk3
  rw [View.read_apply]
  refine congrArg (V c main_v58 : S1x128.Idx → EReal) (funext fun a => Fin.ext ?_)
  match a with
  | ⟨0, _⟩ => show win3_4.index t (0 : Fin 2) * 1 + 1 * (y 0).val = (y 0).val; omega
  | ⟨1, _⟩ => show win3_4.index t (1 : Fin 2) * 128 + 1 * (y 1).val = (y 1).val; omega

/-- Where the result's block at point t sits in the result array: rows 4000 t ..., all 128 columns. -/
theorem emb_out (t : Fin cfg3.N) (j : S4000x128.Idx) :
    ((((cfg3.win 5).blk t).view.emb j : S100000x128.Idx) 0).val = t.val * 4000 + (j 0).val
    ∧ ((((cfg3.win 5).blk t).view.emb j : S100000x128.Idx) 1).val = (j 1).val := by
  obtain ⟨-, -, -, -, -, -, -, -, -, -, e0, e1⟩ := idx_facts t
  constructor
  · show win3_5.index t (0 : Fin 2) * 4000 + 1 * (j 0).val = t.val * 4000 + (j 0).val; omega
  · show win3_5.index t (1 : Fin 2) * 128 + 1 * (j 1).val = (j 1).val; omega

/-- WHAT POINT t WRITES BACK is block t of the layer of the whole arrays. -/
theorem flushed_eq (c : Dev nD) (t : Fin cfg3.N) :
    (dat3 V c).flushed 5 t = ((cfg3.win 5).blk t).view.read (Elt Ideal) (G V c) := by
  show (cfg3.win 5).cut (grid3.coords t) ((dat3 V c).after 5 t) = _
  rw [after3_5]
  unfold out3_5
  rw [View.canon_unit_zero hz]
  simp only [View.ld_unit_zero (S := S4000x128) hz, View.ld_unit_zero (S := S128x128) hz, View.ld_unit_zero (S := S1x128) hz]
  rw [pay_eq]
  funext j
  show Cert.LibSageLayer.lin (iblk3 V c 0 t : Vec Ideal S4000x128 .f32) (iblk3 V c 1 t : Vec Ideal S4000x128 .f32)
      (iblk3 V c 2 t : Vec Ideal S128x128 .f32) (iblk3 V c 3 t : Vec Ideal S128x128 .f32) (iblk3 V c 4 t : Vec Ideal S1x128 .f32) j
    = G V c (((cfg3.win 5).blk t).view.emb j)
  obtain ⟨hr, hq⟩ := emb_out t j
  refine Cert.LibSageLayer.lin_at (V c main_v44) (V c main_v57) (V c main_arg12) (V c main_arg13) (V c main_v58)
    (iblk3 V c 0 t : Vec Ideal S4000x128 .f32) (iblk3 V c 1 t : Vec Ideal S4000x128 .f32)
    (iblk3 V c 2 t : Vec Ideal S128x128 .f32) (iblk3 V c 3 t : Vec Ideal S128x128 .f32) (iblk3 V c 4 t : Vec Ideal S1x128 .f32)
    j (((cfg3.win 5).blk t).view.emb j) ?_ ?_ ?_ ?_ ?_ ?_
  · intro k; exact blk_h V c t (ix2 (j 0) k) (ix2 ((((cfg3.win 5).blk t).view.emb j : S100000x128.Idx) 0) k) hr rfl
  · intro k; exact blk_m V c t (ix2 (j 0) k) (ix2 ((((cfg3.win 5).blk t).view.emb j : S100000x128.Idx) 0) k) hr rfl
  · intro y; exact blk_ws V c t y
  · intro y; exact blk_wn V c t y
  · intro y; exact blk_b V c t y
  · exact Fin.ext hq.symm

/-- An index of the result array is in point t's block iff each coordinate is in the block's range on its axis. -/
theorem mem_blk (t : Fin cfg3.N) (i : S100000x128.Idx) :
    i ∈ ((cfg3.win 5).blk t).view.set ↔ ∀ a : Fin 2, win3_5.index t a * S4000x128.size a ≤ (i a).val
      ∧ (i a).val < win3_5.index t a * S4000x128.size a + S4000x128.size a := by
  show i ∈ ((View.whole main_v59).slice (win3_5.rect t)).set ↔ _
  rw [View.set_slice_whole, Rect.mem_set_unit]
  exact Iff.rfl

/-- Every index of the result array is in some point's block: row r is in the block of point r / 4000. -/
theorem cover (i : S100000x128.Idx) :
    ∃ t : Fin cfg3.N, (cfg3.win 5).flush t = true ∧ i ∈ ((cfg3.win 5).blk t).view.set := by
  have hi0 : (i 0).val < 100000 := (i 0).isLt
  have hi1 : (i 1).val < 128 := (i 1).isLt
  have hN : grid3.N = 25 := N_3
  have hlt : (i 0).val / 4000 < cfg3.N := by show _ < grid3.N; rw [hN]; omega
  obtain ⟨-, -, -, -, -, -, -, -, -, -, e0, e1⟩ := idx_facts ⟨(i 0).val / 4000, hlt⟩
  refine ⟨⟨(i 0).val / 4000, hlt⟩, flush3_5 _, ?_⟩
  rw [mem_blk]
  intro a
  match a with
  | ⟨0, _⟩ =>
    show win3_5.index ⟨(i 0).val / 4000, hlt⟩ (0 : Fin 2) * 4000 ≤ (i 0).val
      ∧ (i 0).val < win3_5.index ⟨(i 0).val / 4000, hlt⟩ (0 : Fin 2) * 4000 + 4000
    rw [e0]; show (i 0).val / 4000 * 4000 ≤ (i 0).val ∧ (i 0).val < (i 0).val / 4000 * 4000 + 4000; omega
  | ⟨1, _⟩ =>
    show win3_5.index ⟨(i 0).val / 4000, hlt⟩ (1 : Fin 2) * 128 ≤ (i 1).val
      ∧ (i 1).val < win3_5.index ⟨(i 0).val / 4000, hlt⟩ (1 : Fin 2) * 128 + 128
    rw [e1]; omega

/-- THE RESULT ARRAY after the region is the layer of the arrays the region finds. -/
theorem arr (c : Dev nD) : (dat3 V c).arrAt 5 cfg3.N = G V c :=
  (dat3 V c).arrAt_eq_of_cover 5 (G V c) (fun t _ => flushed_eq V c t) cover

end Cert.KernelIdeal.Region3

end
-- ==== Proof.RefTerms.lean ====
import proofs.«126515_j28973849378860_1_alg».proof.ReferenceIdeal

noncomputable section

namespace Cert.ReferenceIdeal.Terms
open Cert.ReferenceIdeal Idealize.ShloMosaic
variable {F : FTy → Type} [FloatOps F] [Facts]
open Facts₀ Facts

/-- The rows of `h` picked by `src` (an index below zero wraps round by the row count; an index outside the array reads a filler). -/
def take (h : (⟨S100000x128, .f32⟩ : BufTy).Contents (Elt F)) (src : (⟨S1600000, .i32⟩ : BufTy).Contents (Elt F)) :
    (⟨S1600000x128, .f32⟩ : BufTy).Contents (Elt F) :=
  select
    (broadcastInDim S1600000x128 ![0] bcast_S1600000_S1600000x128_0
      (Host.reduce IntOp.andi
        (andi
          (cmpi .sge (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src))
            (broadcastInDim S1600000x1 ![] bcast_S_S1600000x1 (constantI S_ 32 0#32)))
          (cmpi .sle (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src))
            (broadcastInDim S1600000x1 ![0, 1] bcast_S1x1_S1600000x1_0_1 (broadcastInDim S1x1 ![1] bcast_S1_S1x1_1 (constantI S1 32 99999#32)))))
        (constantI S_ 1 1#1) reducesTo_S1600000x1_S1600000_d1 h_S_))
    (Host.gather gather_S100000x128_S1600000x1_S1600000x128_1_0_n_n_0_1_1128 h
      (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src)))
    (broadcastInDim S1600000x128 ![] bcast_S_S1600000x128 (constant S_ .f32 0x7FC00000#32))

/-- The mean over each node's incoming edges: the picked rows summed into their destination rows, divided by the
    number of incoming edges (at least one). -/
def mean (h : (⟨S100000x128, .f32⟩ : BufTy).Contents (Elt F)) (src dst : (⟨S1600000, .i32⟩ : BufTy).Contents (Elt F)) :
    (⟨S100000x128, .f32⟩ : BufTy).Contents (Elt F) :=
  Host.divf
    (Host.scatterAdd scatter_S100000x128_S1600000x1_S1600000x128_1_0_0_1
      (broadcastInDim S100000x128 ![] bcast_S_S100000x128 (constant S_ .f32 0x00000000#32))
      (broadcastInDim S1600000x1 ![0] bcast_S1600000_S1600000x1_0 dst) (take h src))
    (broadcastInDim S100000x128 ![0, 1] bcast_S100000x1_S100000x128_0_1
      (broadcastInDim S100000x1 ![0] bcast_S100000_S100000x1_0
        (maximumf
          (Host.scatterAdd scatter_S100000_S1600000x1_S1600000_n_0_0_1
            (broadcastInDim S100000 ![] bcast_S_S100000 (constant S_ .f32 0x00000000#32))
            (broadcastInDim S1600000x1 ![0] bcast_S1600000_S1600000x1_0 dst)
            (broadcastInDim S1600000 ![] bcast_S_S1600000 (constant S_ .f32 0x3F800000#32)))
          (broadcastInDim S100000 ![] bcast_S_S100000 (constant S_ .f32 0x3F800000#32)))))

/-- One layer before the rectifier: h . ws + mean . wn, plus the bias laid over the rows. -/
def layerLin (h : (⟨S100000x128, .f32⟩ : BufTy).Contents (Elt F)) (src dst : (⟨S1600000, .i32⟩ : BufTy).Contents (Elt F))
    (ws wn : (⟨S128x128, .f32⟩ : BufTy).Contents (Elt F)) (b : (⟨S128, .f32⟩ : BufTy).Contents (Elt F)) :
    (⟨S100000x128, .f32⟩ : BufTy).Contents (Elt F) :=
  addf (addf (Host.dotGeneral dot_S100000x128_S128x128_S100000x128_1_0_0_1_n_n none h ws)
      (Host.dotGeneral dot_S100000x128_S128x128_S100000x128_1_0_0_1_n_n none (mean h src dst) wn))
    (broadcastInDim S100000x128 ![0, 1] bcast_S1x128_S100000x128_0_1 (broadcastInDim S1x128 ![1] bcast_S128_S1x128_1 b))

/-- The rectified layer: the larger of that and zero. -/
def layerAct (h : (⟨S100000x128, .f32⟩ : BufTy).Contents (Elt F)) (src dst : (⟨S1600000, .i32⟩ : BufTy).Contents (Elt F))
    (ws wn : (⟨S128x128, .f32⟩ : BufTy).Contents (Elt F)) (b : (⟨S128, .f32⟩ : BufTy).Contents (Elt F)) :
    (⟨S100000x128, .f32⟩ : BufTy).Contents (Elt F) :=
  maximumf (layerLin h src dst ws wn b) (broadcastInDim S100000x128 ![] bcast_S_S100000x128 (constant S_ .f32 0x00000000#32))

/-- The four layers composed. -/
def out (x : (⟨S100000x128, .f32⟩ : BufTy).Contents (Elt F)) (src dst : (⟨S1600000, .i32⟩ : BufTy).Contents (Elt F))
    (ws0 wn0 : (⟨S128x128, .f32⟩ : BufTy).Contents (Elt F)) (b0 : (⟨S128, .f32⟩ : BufTy).Contents (Elt F))
    (ws1 wn1 : (⟨S128x128, .f32⟩ : BufTy).Contents (Elt F)) (b1 : (⟨S128, .f32⟩ : BufTy).Contents (Elt F))
    (ws2 wn2 : (⟨S128x128, .f32⟩ : BufTy).Contents (Elt F)) (b2 : (⟨S128, .f32⟩ : BufTy).Contents (Elt F))
    (ws3 wn3 : (⟨S128x128, .f32⟩ : BufTy).Contents (Elt F)) (b3 : (⟨S128, .f32⟩ : BufTy).Contents (Elt F)) :
    (⟨S100000x128, .f32⟩ : BufTy).Contents (Elt F) :=
  layerLin (layerAct (layerAct (layerAct x src dst ws0 wn0 b0) src dst ws1 wn1 b1) src dst ws2 wn2 b2) src dst ws3 wn3 b3

end Cert.ReferenceIdeal.Terms

end
-- ==== Proof.Bridge.lean ====
/-
  The four-layer network as ONE function, and the two programs' spellings of its pieces.

  With M the operator that sends a feature array to the array of neighbourhood means (the picked rows summed into
  their destination rows and divided by the in-degree, at least one), the network is
      h1 = act x  (M x)  Ws0 Wn0 B0,   h2 = act h1 (M h1) Ws1 Wn1 B1,   h3 = act h2 (M h2) Ws2 Wn2 B2,
      out = lin h3 (M h3) Ws3 Wn3 B3,
  the three inner layers rectified and the last one not.  Both programs build M by the same chain of host operations
  over the same index arrays, so the chain is carried as one function and never opened: the two programs' chains are
  one term, their dimension records having the same fields.  The reference lays the bias out as a row by a
  broadcast_in_dim, the kernel program by a reshape: one array.  The reference's layer, spelt with the host's
  dot_general, is the layer of LibSageLayer.
-/
import proofs.«126515_j28973849378860_1_alg».proof.Proof.KernelTerms
import proofs.«126515_j28973849378860_1_alg».proof.Proof.RefTerms
import proofs.«126515_j28973849378860_1_alg».proof.Proof.Gen.KernelIdeal
import proofs.«126515_j28973849378860_1_alg».proof.Proof.Gen.ReferenceIdeal
import proofs.«126515_j28973849378860_1_alg».proof.Proof.LibSageLayer

noncomputable section

namespace Cert.Sage

open Idealize.ShloMosaic Idealize.ShloMosaic.ValueIdx

/-- The network over an arbitrary neighbourhood-mean operator M: three rectified layers, then one that is not. -/
def net (M : ((⟨2, ![100000, 128]⟩ : Shape).Idx → EReal) → ((⟨2, ![100000, 128]⟩ : Shape).Idx → EReal))
    (x : (⟨2, ![100000, 128]⟩ : Shape).Idx → EReal)
    (ws0 wn0 : (⟨2, ![128, 128]⟩ : Shape).Idx → EReal) (B0 : (⟨2, ![1, 128]⟩ : Shape).Idx → EReal)
    (ws1 wn1 : (⟨2, ![128, 128]⟩ : Shape).Idx → EReal) (B1 : (⟨2, ![1, 128]⟩ : Shape).Idx → EReal)
    (ws2 wn2 : (⟨2, ![128, 128]⟩ : Shape).Idx → EReal) (B2 : (⟨2, ![1, 128]⟩ : Shape).Idx → EReal)
    (ws3 wn3 : (⟨2, ![128, 128]⟩ : Shape).Idx → EReal) (B3 : (⟨2, ![1, 128]⟩ : Shape).Idx → EReal) :
    (⟨2, ![100000, 128]⟩ : Shape).Idx → EReal :=
  Cert.LibSageLayer.lin
    (Cert.LibSageLayer.act
      (Cert.LibSageLayer.act (Cert.LibSageLayer.act x (M x) ws0 wn0 B0) (M (Cert.LibSageLayer.act x (M x) ws0 wn0 B0)) ws1 wn1 B1)
      (M (Cert.LibSageLayer.act (Cert.LibSageLayer.act x (M x) ws0 wn0 B0) (M (Cert.LibSageLayer.act x (M x) ws0 wn0 B0)) ws1 wn1 B1))
      ws2 wn2 B2)
    (M (Cert.LibSageLayer.act
      (Cert.LibSageLayer.act (Cert.LibSageLayer.act x (M x) ws0 wn0 B0) (M (Cert.LibSageLayer.act x (M x) ws0 wn0 B0)) ws1 wn1 B1)
      (M (Cert.LibSageLayer.act (Cert.LibSageLayer.act x (M x) ws0 wn0 B0) (M (Cert.LibSageLayer.act x (M x) ws0 wn0 B0)) ws1 wn1 B1))
      ws2 wn2 B2))
    ws3 wn3 B3

/-! ## The two programs' neighbourhood means are one operator -/

/-- The kernel program's chain and the reference's are the same term: the same operations over records with the
    same fields. -/
theorem mean_eq (h : (⟨2, ![100000, 128]⟩ : Shape).Idx → EReal) (src dst : (⟨Cert.KernelIdeal.S1600000, .i32⟩ : BufTy).Contents (Elt Ideal)) :
    Cert.KernelIdeal.Terms.mean (F := Ideal) h src dst = Cert.ReferenceIdeal.Terms.mean (F := Ideal) h src dst := rfl

/-! ## The reference's spelling -/

section Reference

open Cert.ReferenceIdeal Cert.ReferenceIdeal.Facts₀ Cert.ReferenceIdeal.Facts

/-- The bias as the reference lays it out: one row. -/
abbrev rowR (b : (⟨S128, .f32⟩ : BufTy).Contents (Elt Ideal)) : (⟨2, ![1, 128]⟩ : Shape).Idx → EReal :=
  broadcastInDim S1x128 ![1] bcast_S128_S1x128_1 b

/-- The reference's rectified layer is the layer of the features, their neighbourhood means, the weights and the
    bias row. -/
theorem ref_layerAct (h : (⟨S100000x128, .f32⟩ : BufTy).Contents (Elt Ideal)) (src dst : (⟨S1600000, .i32⟩ : BufTy).Contents (Elt Ideal))
    (ws wn : (⟨S128x128, .f32⟩ : BufTy).Contents (Elt Ideal)) (b : (⟨S128, .f32⟩ : BufTy).Contents (Elt Ideal)) :
    Terms.layerAct (F := Ideal) h src dst ws wn b
      = Cert.LibSageLayer.act h (Terms.mean (F := Ideal) h src dst) ws wn (rowR b) := by
  unfold Terms.layerAct Terms.layerLin
  exact Cert.LibSageLayer.host_act dot_S100000x128_S128x128_S100000x128_1_0_0_1_n_n rfl rfl rfl rfl rfl rfl
    h (Terms.mean (F := Ideal) h src dst) ws wn (rowR b) bcast_S1x128_S100000x128_0_1 bcast_S_S100000x128

/-- The same without the rectifier. -/
theorem ref_layerLin (h : (⟨S100000x128, .f32⟩ : BufTy).Contents (Elt Ideal)) (src dst : (⟨S1600000, .i32⟩ : BufTy).Contents (Elt Ideal))
    (ws wn : (⟨S128x128, .f32⟩ : BufTy).Contents (Elt Ideal)) (b : (⟨S128, .f32⟩ : BufTy).Contents (Elt Ideal)) :
    Terms.layerLin (F := Ideal) h src dst ws wn b
      = Cert.LibSageLayer.lin h (Terms.mean (F := Ideal) h src dst) ws wn (rowR b) := by
  unfold Terms.layerLin
  exact Cert.LibSageLayer.host_lin dot_S100000x128_S128x128_S100000x128_1_0_0_1_n_n rfl rfl rfl rfl rfl rfl
    h (Terms.mean (F := Ideal) h src dst) ws wn (rowR b) bcast_S1x128_S100000x128_0_1

/-- The reference's four layers composed are the network over its own neighbourhood-mean operator. -/
theorem ref_out (x : (⟨S100000x128, .f32⟩ : BufTy).Contents (Elt Ideal)) (src dst : (⟨S1600000, .i32⟩ : BufTy).Contents (Elt Ideal))
    (ws0 wn0 : (⟨S128x128, .f32⟩ : BufTy).Contents (Elt Ideal)) (b0 : (⟨S128, .f32⟩ : BufTy).Contents (Elt Ideal))
    (ws1 wn1 : (⟨S128x128, .f32⟩ : BufTy).Contents (Elt Ideal)) (b1 : (⟨S128, .f32⟩ : BufTy).Contents (Elt Ideal))
    (ws2 wn2 : (⟨S128x128, .f32⟩ : BufTy).Contents (Elt Ideal)) (b2 : (⟨S128, .f32⟩ : BufTy).Contents (Elt Ideal))
    (ws3 wn3 : (⟨S128x128, .f32⟩ : BufTy).Contents (Elt Ideal)) (b3 : (⟨S128, .f32⟩ : BufTy).Contents (Elt Ideal)) :
    Terms.out (F := Ideal) x src dst ws0 wn0 b0 ws1 wn1 b1 ws2 wn2 b2 ws3 wn3 b3
      = net (fun h => Terms.mean (F := Ideal) h src dst) x ws0 wn0 (rowR b0) ws1 wn1 (rowR b1) ws2 wn2 (rowR b2) ws3 wn3 (rowR b3) := by
  unfold Terms.out net
  simp only [ref_layerLin, ref_layerAct]

end Reference

/-! ## The kernel program's bias row -/

section Kernel

open Cert.KernelIdeal Cert.KernelIdeal.Facts₀ Cert.KernelIdeal.Facts

/-- The bias reshaped to one row (the kernel program) is the bias laid out as one row (the reference). -/
theorem row_eq (b : (⟨S128, .f32⟩ : BufTy).Contents (Elt Ideal)) :
    (shapeCast S1x128 b shapeCasts_S128_S1x128 : (⟨2, ![1, 128]⟩ : Shape).Idx → EReal) = rowR b :=
  Cert.Dense.row_cast_eq_bcast b shapeCasts_S128_S1x128 Cert.ReferenceIdeal.Facts₀.bcast_S128_S1x128_1

end Kernel

end Cert.Sage

end
-- ==== Proof.KernelValue.lean ====
/-
  The kernel program's result as the network of its arguments.

  Region r's result array after its run is the layer of the arrays the region finds (Region r), and what it finds is:
  the previous region's result (the features), their neighbourhood means by the host chain, two weight arguments
  unchanged since the launch, and a bias argument reshaped to one row.  Chaining the four regions, the result array
  of the last one is the four-layer network of the fifteen arguments, the neighbourhood-mean operator being the host
  chain over the two index arguments.
-/
import proofs.«126515_j28973849378860_1_alg».proof.Proof.KernelRun
import proofs.«126515_j28973849378860_1_alg».proof.Proof.Region0
import proofs.«126515_j28973849378860_1_alg».proof.Proof.Region1
import proofs.«126515_j28973849378860_1_alg».proof.Proof.Region2
import proofs.«126515_j28973849378860_1_alg».proof.Proof.Region3
import proofs.«126515_j28973849378860_1_alg».proof.Proof.Bridge

set_option maxRecDepth 16384

noncomputable section

namespace Cert.KernelIdeal.KValue

open Cert.KernelIdeal Cert.KernelIdeal.Gen Idealize.ShloMosaic Idealize.ShloMosaic.TcCoe Idealize.SL.Sem
open Cert.KernelIdeal.Facts₀ Cert.KernelIdeal.Facts

variable (m : (ℓ : Loc nD τ sig) → Buf (Elt Ideal) ℓ) (ρ : Dev nD → PrngReg)

/-- The neighbourhood-mean operator of this run: the host chain over the launch contents of the two index arguments. -/
abbrev MK (c : Dev nD) : (S100000x128.Idx → EReal) → (S100000x128.Idx → EReal) :=
  fun h => Terms.mean (F := Ideal) h (m ((c : Thread nD τ).loc main_arg1)) (m ((c : Thread nD τ).loc main_arg2))

/-- A bias argument reshaped to one row. -/
abbrev row (b : (⟨S128, .f32⟩ : BufTy).Contents (Elt Ideal)) : S1x128.Idx → EReal := shapeCast S1x128 b Facts₀.shapeCasts_S128_S1x128

/-- The features after the first, second and third layer, and the result. -/
def H1 (c : Dev nD) : S100000x128.Idx → EReal :=
  Cert.LibSageLayer.act (m ((c : Thread nD τ).loc main_arg0)) (MK m c (m ((c : Thread nD τ).loc main_arg0))) (m ((c : Thread nD τ).loc main_arg3)) (m ((c : Thread nD τ).loc main_arg4)) (row (m ((c : Thread nD τ).loc main_arg5)))
def H2 (c : Dev nD) : S100000x128.Idx → EReal :=
  Cert.LibSageLayer.act (H1 m c) (MK m c (H1 m c)) (m ((c : Thread nD τ).loc main_arg6)) (m ((c : Thread nD τ).loc main_arg7)) (row (m ((c : Thread nD τ).loc main_arg8)))
def H3 (c : Dev nD) : S100000x128.Idx → EReal :=
  Cert.LibSageLayer.act (H2 m c) (MK m c (H2 m c)) (m ((c : Thread nD τ).loc main_arg9)) (m ((c : Thread nD τ).loc main_arg10)) (row (m ((c : Thread nD τ).loc main_arg11)))
def OUT (c : Dev nD) : S100000x128.Idx → EReal :=
  Cert.LibSageLayer.lin (H3 m c) (MK m c (H3 m c)) (m ((c : Thread nD τ).loc main_arg12)) (m ((c : Thread nD τ).loc main_arg13)) (row (m ((c : Thread nD τ).loc main_arg14)))

/-- Region 0 leaves the first layer of the arguments. -/
theorem h1_eq (c : Dev nD) : (dat0 (V2 m ρ) c).arrAt 5 cfg0.N = H1 m c := by
  rw [Cert.KernelIdeal.Region0.arr (V2 m ρ) c]
  show Cert.LibSageLayer.act (V2 m ρ c main_arg0) (V2 m ρ c main_v12) (V2 m ρ c main_arg3) (V2 m ρ c main_arg4) (V2 m ρ c main_v13) = _
  rw [KRun.entry0_h, KRun.entry0_mean, KRun.entry0_ws, KRun.entry0_wn, KRun.entry0_b]
  rfl

/-- Region 1 leaves the second layer. -/
theorem h2_eq (c : Dev nD) : (dat1 (V5 m ρ) c).arrAt 5 cfg1.N = H2 m c := by
  rw [Cert.KernelIdeal.Region1.arr (V5 m ρ) c]
  show Cert.LibSageLayer.act (V5 m ρ c main_v14) (V5 m ρ c main_v27) (V5 m ρ c main_arg6) (V5 m ρ c main_arg7) (V5 m ρ c main_v28) = _
  rw [KRun.entry1_h, KRun.entry1_mean, KRun.entry1_ws, KRun.entry1_wn, KRun.entry1_b, h1_eq]
  rfl

/-- Region 2 leaves the third layer. -/
theorem h3_eq (c : Dev nD) : (dat2 (V8 m ρ) c).arrAt 5 cfg2.N = H3 m c := by
  rw [Cert.KernelIdeal.Region2.arr (V8 m ρ) c]
  show Cert.LibSageLayer.act (V8 m ρ c main_v29) (V8 m ρ c main_v42) (V8 m ρ c main_arg9) (V8 m ρ c main_arg10) (V8 m ρ c main_v43) = _
  rw [KRun.entry2_h, KRun.entry2_mean, KRun.entry2_ws, KRun.entry2_wn, KRun.entry2_b, h2_eq]
  rfl

/-- Region 3 leaves the result. -/
theorem out_eq (c : Dev nD) : (dat3 (V11 m ρ) c).arrAt 5 cfg3.N = OUT m c := by
  rw [Cert.KernelIdeal.Region3.arr (V11 m ρ) c]
  show Cert.LibSageLayer.lin (V11 m ρ c main_v44) (V11 m ρ c main_v57) (V11 m ρ c main_arg12) (V11 m ρ c main_arg13) (V11 m ρ c main_v58) = _
  rw [KRun.entry3_h, KRun.entry3_mean, KRun.entry3_ws, KRun.entry3_wn, KRun.entry3_b, h3_eq]
  rfl

/-- The result is the network of the fifteen arguments. -/
theorem OUT_eq_net (c : Dev nD) :
    OUT m c = Cert.Sage.net (MK m c) (m ((c : Thread nD τ).loc main_arg0))
      (m ((c : Thread nD τ).loc main_arg3)) (m ((c : Thread nD τ).loc main_arg4)) (shapeCast S1x128 (m ((c : Thread nD τ).loc main_arg5)) Facts₀.shapeCasts_S128_S1x128)
      (m ((c : Thread nD τ).loc main_arg6)) (m ((c : Thread nD τ).loc main_arg7)) (shapeCast S1x128 (m ((c : Thread nD τ).loc main_arg8)) Facts₀.shapeCasts_S128_S1x128)
      (m ((c : Thread nD τ).loc main_arg9)) (m ((c : Thread nD τ).loc main_arg10)) (shapeCast S1x128 (m ((c : Thread nD τ).loc main_arg11)) Facts₀.shapeCasts_S128_S1x128)
      (m ((c : Thread nD τ).loc main_arg12)) (m ((c : Thread nD τ).loc main_arg13)) (shapeCast S1x128 (m ((c : Thread nD τ).loc main_arg14)) Facts₀.shapeCasts_S128_S1x128) := rfl

/-- Every weakly fair execution of the kernel program ends with the network of its arguments in the result array and
    the arguments unchanged. -/
theorem run : θ_run defs (onTc (τ := τ) (main (F := Ideal))) ⟨m, fun _ => 0, ρ⟩ (fun r => ∀ c : Dev nD,
      r.2.mem ((c.tc : Thread nD τ).loc main_v59) = OUT m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨(h c).1.trans (out_eq m ρ c), (h c).2⟩) (KRun.run (F := Ideal) m ρ)

end Cert.KernelIdeal.KValue

end
-- ==== Proof.RefOps.lean ====
import proofs.«126515_j28973849378860_1_alg».proof.Proof.RefTerms
import proofs.«126515_j28973849378860_1_alg».proof.Proof.Gen.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Facts₀ Facts

variable {F : FTy → Type} [FloatOps F]

/-! ## The program as a list of operations, one list per layer

Each layer picks the rows of its input by `src` (23 operations, over the buffers of that layer's call of the
row-picking function, the nested index selection one `select`), sums them into their destination rows and divides by
the in-degree (16), adds the two products and the bias (6), and, except the last, takes the larger of that and zero (3,
over the buffers of that layer's call of the rectifier). -/

/-- Layer 0: from `main_arg0` to `main_v19`, weights `main_arg3`, `main_arg4`, bias `main_arg5`. -/
abbrev L0 : List (HloOp τ sig (Elt F)) :=
  [ StableHlo.TRef.nullary main_call0.c (constantI S_ 32 0#32),
    StableHlo.TRef.unary main_call0.c main_call0.v0 (broadcastInDim S1600000 ![] bcast_S_S1600000),
    StableHlo.TRef.binary (.of main_arg1 : StableHlo.TRef sig ⟨S1600000, .i32⟩) main_call0.v0 main_call0.v1 (cmpi .slt),
    StableHlo.TRef.nullary main_call0.c_0 (constantI S_ 32 100000#32),
    StableHlo.TRef.unary main_call0.c_0 main_call0.v2 (broadcastInDim S1600000 ![] bcast_S_S1600000),
    StableHlo.TRef.binary (.of main_arg1 : StableHlo.TRef sig ⟨S1600000, .i32⟩) main_call0.v2 main_call0.v3 addi,
    StableHlo.TRef.ternary main_call0.v1 main_call0.v3 (.of main_arg1 : StableHlo.TRef sig ⟨S1600000, .i32⟩) main_call0.call0.v0 select,
    StableHlo.TRef.unary main_call0.call0.v0 main_call0.v5 (broadcastInDim S1600000x1 ![0] bcast_S1600000_S1600000x1_0),
    StableHlo.TRef.nullary main_call0.c_1 (constantI S1 32 99999#32),
    StableHlo.TRef.nullary main_call0.c_2 (constantI S_ 32 0#32),
    StableHlo.TRef.unary main_call0.c_2 main_call0.v6 (broadcastInDim S1600000x1 ![] bcast_S_S1600000x1),
    StableHlo.TRef.binary main_call0.v5 main_call0.v6 main_call0.v7 (cmpi .sge),
    StableHlo.TRef.unary main_call0.c_1 main_call0.v8 (broadcastInDim S1x1 ![1] bcast_S1_S1x1_1),
    StableHlo.TRef.unary main_call0.v8 main_call0.v9 (broadcastInDim S1600000x1 ![0, 1] bcast_S1x1_S1600000x1_0_1),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S1600000x1_S1600000_d1 h_S_),
    StableHlo.TRef.binary (.of main_arg0 : StableHlo.TRef sig ⟨S100000x128, .f32⟩) main_call0.v5 main_call0.v13 (fun x i => Host.gather gather_S100000x128_S1600000x1_S1600000x128_1_0_n_n_0_1_1128 x i),
    StableHlo.TRef.unary main_call0.v12 main_call0.v14 (broadcastInDim S1600000x128 ![0] bcast_S1600000_S1600000x128_0),
    StableHlo.TRef.nullary main_call0.cst (constant S_ .f32 0x7FC00000#32),
    StableHlo.TRef.unary main_call0.cst main_call0.v15 (broadcastInDim S1600000x128 ![] bcast_S_S1600000x128),
    StableHlo.TRef.ternary main_call0.v14 main_call0.v13 main_call0.v15 main_call0.v16 select,
    StableHlo.nullary main_cst (constant S_ .f32 0x00000000#32),
    StableHlo.unary main_cst main_v1 (broadcastInDim S100000x128 ![] bcast_S_S100000x128 : (⟨S_, .f32⟩ : BufTy).Contents (Elt F) → (⟨S100000x128, .f32⟩ : BufTy).Contents (Elt F)),
    StableHlo.unary main_arg2 main_v2 (broadcastInDim S1600000x1 ![0] bcast_S1600000_S1600000x1_0 : (⟨S1600000, .i32⟩ : BufTy).Contents (Elt F) → (⟨S1600000x1, .i32⟩ : BufTy).Contents (Elt F)),
    StableHlo.ternary main_v1 main_v2 main_v0 main_v3 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.nullary main_cst_0 (constant S_ .f32 0x3F800000#32),
    StableHlo.unary main_cst_0 main_v4 (broadcastInDim S1600000 ![] bcast_S_S1600000 : (⟨S_, .f32⟩ : BufTy).Contents (Elt F) → (⟨S1600000, .f32⟩ : BufTy).Contents (Elt F)),
    StableHlo.nullary main_cst_1 (constant S_ .f32 0x00000000#32),
    StableHlo.unary main_cst_1 main_v5 (broadcastInDim S100000 ![] bcast_S_S100000 : (⟨S_, .f32⟩ : BufTy).Contents (Elt F) → (⟨S100000, .f32⟩ : BufTy).Contents (Elt F)),
    StableHlo.unary main_arg2 main_v6 (broadcastInDim S1600000x1 ![0] bcast_S1600000_S1600000x1_0 : (⟨S1600000, .i32⟩ : BufTy).Contents (Elt F) → (⟨S1600000x1, .i32⟩ : BufTy).Contents (Elt F)),
    StableHlo.ternary main_v5 main_v6 main_v4 main_v7 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_2 (constant S_ .f32 0x3F800000#32),
    StableHlo.unary main_cst_2 main_v8 (broadcastInDim S100000 ![] bcast_S_S100000 : (⟨S_, .f32⟩ : BufTy).Contents (Elt F) → (⟨S100000, .f32⟩ : BufTy).Contents (Elt F)),
    StableHlo.binary main_v7 main_v8 main_v9 (maximumf : (⟨S100000, .f32⟩ : BufTy).Contents (Elt F) → (⟨S100000, .f32⟩ : BufTy).Contents (Elt F) → (⟨S100000, .f32⟩ : BufTy).Contents (Elt F)),
    StableHlo.unary main_v9 main_v10 (broadcastInDim S100000x1 ![0] bcast_S100000_S100000x1_0 : (⟨S100000, .f32⟩ : BufTy).Contents (Elt F) → (⟨S100000x1, .f32⟩ : BufTy).Contents (Elt F)),
    StableHlo.unary main_v10 main_v11 (broadcastInDim S100000x128 ![0, 1] bcast_S100000x1_S100000x128_0_1 : (⟨S100000x1, .f32⟩ : BufTy).Contents (Elt F) → (⟨S100000x128, .f32⟩ : BufTy).Contents (Elt F)),
    StableHlo.binary main_v3 main_v11 main_v12 (Host.divf : (⟨S100000x128, .f32⟩ : BufTy).Contents (Elt F) → (⟨S100000x128, .f32⟩ : BufTy).Contents (Elt F) → (⟨S100000x128, .f32⟩ : BufTy).Contents (Elt F)),
    StableHlo.binary main_arg0 main_arg3 main_v13 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v12 main_arg4 main_v14 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v13 main_v14 main_v15 (addf : (⟨S100000x128, .f32⟩ : BufTy).Contents (Elt F) → (⟨S100000x128, .f32⟩ : BufTy).Contents (Elt F) → (⟨S100000x128, .f32⟩ : BufTy).Contents (Elt F)),
    StableHlo.unary main_arg5 main_v16 (broadcastInDim S1x128 ![1] bcast_S128_S1x128_1 : (⟨S128, .f32⟩ : BufTy).Contents (Elt F) → (⟨S1x128, .f32⟩ : BufTy).Contents (Elt F)),
    StableHlo.unary main_v16 main_v17 (broadcastInDim S100000x128 ![0, 1] bcast_S1x128_S100000x128_0_1 : (⟨S1x128, .f32⟩ : BufTy).Contents (Elt F) → (⟨S100000x128, .f32⟩ : BufTy).Contents (Elt F)),
    StableHlo.binary main_v15 main_v17 main_v18 (addf : (⟨S100000x128, .f32⟩ : BufTy).Contents (Elt F) → (⟨S100000x128, .f32⟩ : BufTy).Contents (Elt F) → (⟨S100000x128, .f32⟩ : BufTy).Contents (Elt F)),
    StableHlo.TRef.nullary main_call1.cst (constant S_ .f32 0x00000000#32),
    StableHlo.TRef.unary main_call1.cst main_call1.v0 (broadcastInDim S100000x128 ![] bcast_S_S100000x128),
    StableHlo.TRef.binary (.of main_v18 : StableHlo.TRef sig ⟨S100000x128, .f32⟩) main_call1.v0 main_call1.v1 maximumf ]

/-- The buffers layer 0's operations write, in order. -/
abbrev W0 : List (Ref sig .tc) :=
  [ main_call0.c.ref, main_call0.v0.ref, main_call0.v1.ref, main_call0.c_0.ref, main_call0.v2.ref, main_call0.v3.ref, main_call0.call0.v0.ref, main_call0.v5.ref, main_call0.c_1.ref, main_call0.c_2.ref, main_call0.v6.ref, main_call0.v7.ref, main_call0.v8.ref, main_call0.v9.ref, main_call0.v10.ref, main_call0.v11.ref, main_call0.c_3.ref, main_call0.v12.ref, main_call0.v13.ref, main_call0.v14.ref, main_call0.cst.ref, main_call0.v15.ref, main_call0.v16.ref, main_cst, main_v1, main_v2, main_v3, main_cst_0, main_v4, main_cst_1, main_v5, main_v6, main_v7, main_cst_2, main_v8, main_v9, main_v10, main_v11, main_v12, main_v13, main_v14, main_v15, main_v16, main_v17, main_v18, main_call1.cst.ref, main_call1.v0.ref, main_call1.v1.ref ]

/-- Each operation of layer 0 touches TensorCore buffers only. -/
theorem L0_sub : (L0 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., binary_bufs_sub .., binary_bufs_sub .., unary_bufs_sub .., unary_bufs_sub .., binary_bufs_sub .., nullary_bufs_sub .., unary_bufs_sub .., binary_bufs_sub ..⟩

/-- Each operation of layer 0 determines what it writes. -/
theorem L0_fresh : (L0 : List (HloOp τ sig (Elt F))).Forall fun op => op.fresh = ∅ := by
  simp only [List.Forall]; repeat' constructor

/-- Each operation of layer 0 writes a buffer of `W0`. -/
theorem L0_writes : (L0 : List (HloOp τ sig (Elt F))).Forall fun op =>
    op.writes ⊆ (W0.map (Proc.devRef (τ := τ) .tc)).toFinset := by
  simp only [List.Forall]
  repeat' apply And.intro
  all_goals (simp only [nullary_writes, unary_writes, binary_writes, ternary_writes, Finset.singleton_subset_iff, List.mem_toFinset]; exact List.mem_map_of_mem (by decide))

/-- Layer 1: from `main_v19` to `main_v39`, weights `main_arg6`, `main_arg7`, bias `main_arg8`. -/
abbrev L1 : List (HloOp τ sig (Elt F)) :=
  [ StableHlo.TRef.nullary main_call2.c (constantI S_ 32 0#32),
    StableHlo.TRef.unary main_call2.c main_call2.v0 (broadcastInDim S1600000 ![] bcast_S_S1600000),
    StableHlo.TRef.binary (.of main_arg1 : StableHlo.TRef sig ⟨S1600000, .i32⟩) main_call2.v0 main_call2.v1 (cmpi .slt),
    StableHlo.TRef.nullary main_call2.c_0 (constantI S_ 32 100000#32),
    StableHlo.TRef.unary main_call2.c_0 main_call2.v2 (broadcastInDim S1600000 ![] bcast_S_S1600000),
    StableHlo.TRef.binary (.of main_arg1 : StableHlo.TRef sig ⟨S1600000, .i32⟩) main_call2.v2 main_call2.v3 addi,
    StableHlo.TRef.ternary main_call2.v1 main_call2.v3 (.of main_arg1 : StableHlo.TRef sig ⟨S1600000, .i32⟩) main_call2.call0.v0 select,
    StableHlo.TRef.unary main_call2.call0.v0 main_call2.v5 (broadcastInDim S1600000x1 ![0] bcast_S1600000_S1600000x1_0),
    StableHlo.TRef.nullary main_call2.c_1 (constantI S1 32 99999#32),
    StableHlo.TRef.nullary main_call2.c_2 (constantI S_ 32 0#32),
    StableHlo.TRef.unary main_call2.c_2 main_call2.v6 (broadcastInDim S1600000x1 ![] bcast_S_S1600000x1),
    StableHlo.TRef.binary main_call2.v5 main_call2.v6 main_call2.v7 (cmpi .sge),
    StableHlo.TRef.unary main_call2.c_1 main_call2.v8 (broadcastInDim S1x1 ![1] bcast_S1_S1x1_1),
    StableHlo.TRef.unary main_call2.v8 main_call2.v9 (broadcastInDim S1600000x1 ![0, 1] bcast_S1x1_S1600000x1_0_1),
    StableHlo.TRef.binary main_call2.v5 main_call2.v9 main_call2.v10 (cmpi .sle),
    StableHlo.TRef.binary main_call2.v7 main_call2.v10 main_call2.v11 andi,
    StableHlo.TRef.nullary main_call2.c_3 (constantI S_ 1 1#1),
    StableHlo.TRef.binary main_call2.v11 main_call2.c_3 main_call2.v12 (fun x v => Host.reduce IntOp.andi x v reducesTo_S1600000x1_S1600000_d1 h_S_),
    StableHlo.TRef.binary (.of main_v19 : StableHlo.TRef sig ⟨S100000x128, .f32⟩) main_call2.v5 main_call2.v13 (fun x i => Host.gather gather_S100000x128_S1600000x1_S1600000x128_1_0_n_n_0_1_1128 x i),
    StableHlo.TRef.unary main_call2.v12 main_call2.v14 (broadcastInDim S1600000x128 ![0] bcast_S1600000_S1600000x128_0),
    StableHlo.TRef.nullary main_call2.cst (constant S_ .f32 0x7FC00000#32),
    StableHlo.TRef.unary main_call2.cst main_call2.v15 (broadcastInDim S1600000x128 ![] bcast_S_S1600000x128),
    StableHlo.TRef.ternary main_call2.v14 main_call2.v13 main_call2.v15 main_call2.v16 select,
    StableHlo.nullary main_cst_3 (constant S_ .f32 0x00000000#32),
    StableHlo.unary main_cst_3 main_v21 (broadcastInDim S100000x128 ![] bcast_S_S100000x128 : (⟨S_, .f32⟩ : BufTy).Contents (Elt F) → (⟨S100000x128, .f32⟩ : BufTy).Contents (Elt F)),
    StableHlo.unary main_arg2 main_v22 (broadcastInDim S1600000x1 ![0] bcast_S1600000_S1600000x1_0 : (⟨S1600000, .i32⟩ : BufTy).Contents (Elt F) → (⟨S1600000x1, .i32⟩ : BufTy).Contents (Elt F)),
    StableHlo.ternary main_v21 main_v22 main_v20 main_v23 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.nullary main_cst_4 (constant S_ .f32 0x3F800000#32),
    StableHlo.unary main_cst_4 main_v24 (broadcastInDim S1600000 ![] bcast_S_S1600000 : (⟨S_, .f32⟩ : BufTy).Contents (Elt F) → (⟨S1600000, .f32⟩ : BufTy).Contents (Elt F)),
    StableHlo.nullary main_cst_5 (constant S_ .f32 0x00000000#32),
    StableHlo.unary main_cst_5 main_v25 (broadcastInDim S100000 ![] bcast_S_S100000 : (⟨S_, .f32⟩ : BufTy).Contents (Elt F) → (⟨S100000, .f32⟩ : BufTy).Contents (Elt F)),
    StableHlo.unary main_arg2 main_v26 (broadcastInDim S1600000x1 ![0] bcast_S1600000_S1600000x1_0 : (⟨S1600000, .i32⟩ : BufTy).Contents (Elt F) → (⟨S1600000x1, .i32⟩ : BufTy).Contents (Elt F)),
    StableHlo.ternary main_v25 main_v26 main_v24 main_v27 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_6 (constant S_ .f32 0x3F800000#32),
    StableHlo.unary main_cst_6 main_v28 (broadcastInDim S100000 ![] bcast_S_S100000 : (⟨S_, .f32⟩ : BufTy).Contents (Elt F) → (⟨S100000, .f32⟩ : BufTy).Contents (Elt F)),
    StableHlo.binary main_v27 main_v28 main_v29 (maximumf : (⟨S100000, .f32⟩ : BufTy).Contents (Elt F) → (⟨S100000, .f32⟩ : BufTy).Contents (Elt F) → (⟨S100000, .f32⟩ : BufTy).Contents (Elt F)),
    StableHlo.unary main_v29 main_v30 (broadcastInDim S100000x1 ![0] bcast_S100000_S100000x1_0 : (⟨S100000, .f32⟩ : BufTy).Contents (Elt F) → (⟨S100000x1, .f32⟩ : BufTy).Contents (Elt F)),
    StableHlo.unary main_v30 main_v31 (broadcastInDim S100000x128 ![0, 1] bcast_S100000x1_S100000x128_0_1 : (⟨S100000x1, .f32⟩ : BufTy).Contents (Elt F) → (⟨S100000x128, .f32⟩ : BufTy).Contents (Elt F)),
    StableHlo.binary main_v23 main_v31 main_v32 (Host.divf : (⟨S100000x128, .f32⟩ : BufTy).Contents (Elt F) → (⟨S100000x128, .f32⟩ : BufTy).Contents (Elt F) → (⟨S100000x128, .f32⟩ : BufTy).Contents (Elt F)),
    StableHlo.binary main_v19 main_arg6 main_v33 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v32 main_arg7 main_v34 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v33 main_v34 main_v35 (addf : (⟨S100000x128, .f32⟩ : BufTy).Contents (Elt F) → (⟨S100000x128, .f32⟩ : BufTy).Contents (Elt F) → (⟨S100000x128, .f32⟩ : BufTy).Contents (Elt F)),
    StableHlo.unary main_arg8 main_v36 (broadcastInDim S1x128 ![1] bcast_S128_S1x128_1 : (⟨S128, .f32⟩ : BufTy).Contents (Elt F) → (⟨S1x128, .f32⟩ : BufTy).Contents (Elt F)),
    StableHlo.unary main_v36 main_v37 (broadcastInDim S100000x128 ![0, 1] bcast_S1x128_S100000x128_0_1 : (⟨S1x128, .f32⟩ : BufTy).Contents (Elt F) → (⟨S100000x128, .f32⟩ : BufTy).Contents (Elt F)),
    StableHlo.binary main_v35 main_v37 main_v38 (addf : (⟨S100000x128, .f32⟩ : BufTy).Contents (Elt F) → (⟨S100000x128, .f32⟩ : BufTy).Contents (Elt F) → (⟨S100000x128, .f32⟩ : BufTy).Contents (Elt F)),
    StableHlo.TRef.nullary main_call3.cst (constant S_ .f32 0x00000000#32),
    StableHlo.TRef.unary main_call3.cst main_call3.v0 (broadcastInDim S100000x128 ![] bcast_S_S100000x128),
    StableHlo.TRef.binary (.of main_v38 : StableHlo.TRef sig ⟨S100000x128, .f32⟩) main_call3.v0 main_call3.v1 maximumf ]

/-- The buffers layer 1's operations write, in order. -/
abbrev W1 : List (Ref sig .tc) :=
  [ main_call2.c.ref, main_call2.v0.ref, main_call2.v1.ref, main_call2.c_0.ref, main_call2.v2.ref, main_call2.v3.ref, main_call2.call0.v0.ref, main_call2.v5.ref, main_call2.c_1.ref, main_call2.c_2.ref, main_call2.v6.ref, main_call2.v7.ref, main_call2.v8.ref, main_call2.v9.ref, main_call2.v10.ref, main_call2.v11.ref, main_call2.c_3.ref, main_call2.v12.ref, main_call2.v13.ref, main_call2.v14.ref, main_call2.cst.ref, main_call2.v15.ref, main_call2.v16.ref, main_cst_3, main_v21, main_v22, main_v23, main_cst_4, main_v24, main_cst_5, main_v25, main_v26, main_v27, main_cst_6, main_v28, main_v29, main_v30, main_v31, main_v32, main_v33, main_v34, main_v35, main_v36, main_v37, main_v38, main_call3.cst.ref, main_call3.v0.ref, main_call3.v1.ref ]

/-- Each operation of layer 1 touches TensorCore buffers only. -/
theorem L1_sub : (L1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., binary_bufs_sub .., binary_bufs_sub .., unary_bufs_sub .., unary_bufs_sub .., binary_bufs_sub .., nullary_bufs_sub .., unary_bufs_sub .., binary_bufs_sub ..⟩

/-- Each operation of layer 1 determines what it writes. -/
theorem L1_fresh : (L1 : List (HloOp τ sig (Elt F))).Forall fun op => op.fresh = ∅ := by
  simp only [List.Forall]; repeat' constructor

/-- Each operation of layer 1 writes a buffer of `W1`. -/
theorem L1_writes : (L1 : List (HloOp τ sig (Elt F))).Forall fun op =>
    op.writes ⊆ (W1.map (Proc.devRef (τ := τ) .tc)).toFinset := by
  simp only [List.Forall]
  repeat' apply And.intro
  all_goals (simp only [nullary_writes, unary_writes, binary_writes, ternary_writes, Finset.singleton_subset_iff, List.mem_toFinset]; exact List.mem_map_of_mem (by decide))

/-- Layer 2: from `main_v39` to `main_v59`, weights `main_arg9`, `main_arg10`, bias `main_arg11`. -/
abbrev L2 : List (HloOp τ sig (Elt F)) :=
  [ StableHlo.TRef.nullary main_call4.c (constantI S_ 32 0#32),
    StableHlo.TRef.unary main_call4.c main_call4.v0 (broadcastInDim S1600000 ![] bcast_S_S1600000),
    StableHlo.TRef.binary (.of main_arg1 : StableHlo.TRef sig ⟨S1600000, .i32⟩) main_call4.v0 main_call4.v1 (cmpi .slt),
    StableHlo.TRef.nullary main_call4.c_0 (constantI S_ 32 100000#32),
    StableHlo.TRef.unary main_call4.c_0 main_call4.v2 (broadcastInDim S1600000 ![] bcast_S_S1600000),
    StableHlo.TRef.binary (.of main_arg1 : StableHlo.TRef sig ⟨S1600000, .i32⟩) main_call4.v2 main_call4.v3 addi,
    StableHlo.TRef.ternary main_call4.v1 main_call4.v3 (.of main_arg1 : StableHlo.TRef sig ⟨S1600000, .i32⟩) main_call4.call0.v0 select,
    StableHlo.TRef.unary main_call4.call0.v0 main_call4.v5 (broadcastInDim S1600000x1 ![0] bcast_S1600000_S1600000x1_0),
    StableHlo.TRef.nullary main_call4.c_1 (constantI S1 32 99999#32),
    StableHlo.TRef.nullary main_call4.c_2 (constantI S_ 32 0#32),
    StableHlo.TRef.unary main_call4.c_2 main_call4.v6 (broadcastInDim S1600000x1 ![] bcast_S_S1600000x1),
    StableHlo.TRef.binary main_call4.v5 main_call4.v6 main_call4.v7 (cmpi .sge),
    StableHlo.TRef.unary main_call4.c_1 main_call4.v8 (broadcastInDim S1x1 ![1] bcast_S1_S1x1_1),
    StableHlo.TRef.unary main_call4.v8 main_call4.v9 (broadcastInDim S1600000x1 ![0, 1] bcast_S1x1_S1600000x1_0_1),
    StableHlo.TRef.binary main_call4.v5 main_call4.v9 main_call4.v10 (cmpi .sle),
    StableHlo.TRef.binary main_call4.v7 main_call4.v10 main_call4.v11 andi,
    StableHlo.TRef.nullary main_call4.c_3 (constantI S_ 1 1#1),
    StableHlo.TRef.binary main_call4.v11 main_call4.c_3 main_call4.v12 (fun x v => Host.reduce IntOp.andi x v reducesTo_S1600000x1_S1600000_d1 h_S_),
    StableHlo.TRef.binary (.of main_v39 : StableHlo.TRef sig ⟨S100000x128, .f32⟩) main_call4.v5 main_call4.v13 (fun x i => Host.gather gather_S100000x128_S1600000x1_S1600000x128_1_0_n_n_0_1_1128 x i),
    StableHlo.TRef.unary main_call4.v12 main_call4.v14 (broadcastInDim S1600000x128 ![0] bcast_S1600000_S1600000x128_0),
    StableHlo.TRef.nullary main_call4.cst (constant S_ .f32 0x7FC00000#32),
    StableHlo.TRef.unary main_call4.cst main_call4.v15 (broadcastInDim S1600000x128 ![] bcast_S_S1600000x128),
    StableHlo.TRef.ternary main_call4.v14 main_call4.v13 main_call4.v15 main_call4.v16 select,
    StableHlo.nullary main_cst_7 (constant S_ .f32 0x00000000#32),
    StableHlo.unary main_cst_7 main_v41 (broadcastInDim S100000x128 ![] bcast_S_S100000x128 : (⟨S_, .f32⟩ : BufTy).Contents (Elt F) → (⟨S100000x128, .f32⟩ : BufTy).Contents (Elt F)),
    StableHlo.unary main_arg2 main_v42 (broadcastInDim S1600000x1 ![0] bcast_S1600000_S1600000x1_0 : (⟨S1600000, .i32⟩ : BufTy).Contents (Elt F) → (⟨S1600000x1, .i32⟩ : BufTy).Contents (Elt F)),
    StableHlo.ternary main_v41 main_v42 main_v40 main_v43 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.nullary main_cst_8 (constant S_ .f32 0x3F800000#32),
    StableHlo.unary main_cst_8 main_v44 (broadcastInDim S1600000 ![] bcast_S_S1600000 : (⟨S_, .f32⟩ : BufTy).Contents (Elt F) → (⟨S1600000, .f32⟩ : BufTy).Contents (Elt F)),
    StableHlo.nullary main_cst_9 (constant S_ .f32 0x00000000#32),
    StableHlo.unary main_cst_9 main_v45 (broadcastInDim S100000 ![] bcast_S_S100000 : (⟨S_, .f32⟩ : BufTy).Contents (Elt F) → (⟨S100000, .f32⟩ : BufTy).Contents (Elt F)),
    StableHlo.unary main_arg2 main_v46 (broadcastInDim S1600000x1 ![0] bcast_S1600000_S1600000x1_0 : (⟨S1600000, .i32⟩ : BufTy).Contents (Elt F) → (⟨S1600000x1, .i32⟩ : BufTy).Contents (Elt F)),
    StableHlo.ternary main_v45 main_v46 main_v44 main_v47 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_10 (constant S_ .f32 0x3F800000#32),
    StableHlo.unary main_cst_10 main_v48 (broadcastInDim S100000 ![] bcast_S_S100000 : (⟨S_, .f32⟩ : BufTy).Contents (Elt F) → (⟨S100000, .f32⟩ : BufTy).Contents (Elt F)),
    StableHlo.binary main_v47 main_v48 main_v49 (maximumf : (⟨S100000, .f32⟩ : BufTy).Contents (Elt F) → (⟨S100000, .f32⟩ : BufTy).Contents (Elt F) → (⟨S100000, .f32⟩ : BufTy).Contents (Elt F)),
    StableHlo.unary main_v49 main_v50 (broadcastInDim S100000x1 ![0] bcast_S100000_S100000x1_0 : (⟨S100000, .f32⟩ : BufTy).Contents (Elt F) → (⟨S100000x1, .f32⟩ : BufTy).Contents (Elt F)),
    StableHlo.unary main_v50 main_v51 (broadcastInDim S100000x128 ![0, 1] bcast_S100000x1_S100000x128_0_1 : (⟨S100000x1, .f32⟩ : BufTy).Contents (Elt F) → (⟨S100000x128, .f32⟩ : BufTy).Contents (Elt F)),
    StableHlo.binary main_v43 main_v51 main_v52 (Host.divf : (⟨S100000x128, .f32⟩ : BufTy).Contents (Elt F) → (⟨S100000x128, .f32⟩ : BufTy).Contents (Elt F) → (⟨S100000x128, .f32⟩ : BufTy).Contents (Elt F)),
    StableHlo.binary main_v39 main_arg9 main_v53 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v52 main_arg10 main_v54 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v53 main_v54 main_v55 (addf : (⟨S100000x128, .f32⟩ : BufTy).Contents (Elt F) → (⟨S100000x128, .f32⟩ : BufTy).Contents (Elt F) → (⟨S100000x128, .f32⟩ : BufTy).Contents (Elt F)),
    StableHlo.unary main_arg11 main_v56 (broadcastInDim S1x128 ![1] bcast_S128_S1x128_1 : (⟨S128, .f32⟩ : BufTy).Contents (Elt F) → (⟨S1x128, .f32⟩ : BufTy).Contents (Elt F)),
    StableHlo.unary main_v56 main_v57 (broadcastInDim S100000x128 ![0, 1] bcast_S1x128_S100000x128_0_1 : (⟨S1x128, .f32⟩ : BufTy).Contents (Elt F) → (⟨S100000x128, .f32⟩ : BufTy).Contents (Elt F)),
    StableHlo.binary main_v55 main_v57 main_v58 (addf : (⟨S100000x128, .f32⟩ : BufTy).Contents (Elt F) → (⟨S100000x128, .f32⟩ : BufTy).Contents (Elt F) → (⟨S100000x128, .f32⟩ : BufTy).Contents (Elt F)),
    StableHlo.TRef.nullary main_call5.cst (constant S_ .f32 0x00000000#32),
    StableHlo.TRef.unary main_call5.cst main_call5.v0 (broadcastInDim S100000x128 ![] bcast_S_S100000x128),
    StableHlo.TRef.binary (.of main_v58 : StableHlo.TRef sig ⟨S100000x128, .f32⟩) main_call5.v0 main_call5.v1 maximumf ]

/-- The buffers layer 2's operations write, in order. -/
abbrev W2 : List (Ref sig .tc) :=
  [ main_call4.c.ref, main_call4.v0.ref, main_call4.v1.ref, main_call4.c_0.ref, main_call4.v2.ref, main_call4.v3.ref, main_call4.call0.v0.ref, main_call4.v5.ref, main_call4.c_1.ref, main_call4.c_2.ref, main_call4.v6.ref, main_call4.v7.ref, main_call4.v8.ref, main_call4.v9.ref, main_call4.v10.ref, main_call4.v11.ref, main_call4.c_3.ref, main_call4.v12.ref, main_call4.v13.ref, main_call4.v14.ref, main_call4.cst.ref, main_call4.v15.ref, main_call4.v16.ref, main_cst_7, main_v41, main_v42, main_v43, main_cst_8, main_v44, main_cst_9, main_v45, main_v46, main_v47, main_cst_10, main_v48, main_v49, main_v50, main_v51, main_v52, main_v53, main_v54, main_v55, main_v56, main_v57, main_v58, main_call5.cst.ref, main_call5.v0.ref, main_call5.v1.ref ]

/-- Each operation of layer 2 touches TensorCore buffers only. -/
theorem L2_sub : (L2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., binary_bufs_sub .., binary_bufs_sub .., unary_bufs_sub .., unary_bufs_sub .., binary_bufs_sub .., nullary_bufs_sub .., unary_bufs_sub .., binary_bufs_sub ..⟩

/-- Each operation of layer 2 determines what it writes. -/
theorem L2_fresh : (L2 : List (HloOp τ sig (Elt F))).Forall fun op => op.fresh = ∅ := by
  simp only [List.Forall]; repeat' constructor

/-- Each operation of layer 2 writes a buffer of `W2`. -/
theorem L2_writes : (L2 : List (HloOp τ sig (Elt F))).Forall fun op =>
    op.writes ⊆ (W2.map (Proc.devRef (τ := τ) .tc)).toFinset := by
  simp only [List.Forall]
  repeat' apply And.intro
  all_goals (simp only [nullary_writes, unary_writes, binary_writes, ternary_writes, Finset.singleton_subset_iff, List.mem_toFinset]; exact List.mem_map_of_mem (by decide))

/-- Layer 3, not rectified: from `main_v59` to `main_v78`, weights `main_arg12`, `main_arg13`, bias `main_arg14`. -/
abbrev L3 : List (HloOp τ sig (Elt F)) :=
  [ StableHlo.TRef.nullary main_call6.c (constantI S_ 32 0#32),
    StableHlo.TRef.unary main_call6.c main_call6.v0 (broadcastInDim S1600000 ![] bcast_S_S1600000),
    StableHlo.TRef.binary (.of main_arg1 : StableHlo.TRef sig ⟨S1600000, .i32⟩) main_call6.v0 main_call6.v1 (cmpi .slt),
    StableHlo.TRef.nullary main_call6.c_0 (constantI S_ 32 100000#32),
    StableHlo.TRef.unary main_call6.c_0 main_call6.v2 (broadcastInDim S1600000 ![] bcast_S_S1600000),
    StableHlo.TRef.binary (.of main_arg1 : StableHlo.TRef sig ⟨S1600000, .i32⟩) main_call6.v2 main_call6.v3 addi,
    StableHlo.TRef.ternary main_call6.v1 main_call6.v3 (.of main_arg1 : StableHlo.TRef sig ⟨S1600000, .i32⟩) main_call6.call0.v0 select,
    StableHlo.TRef.unary main_call6.call0.v0 main_call6.v5 (broadcastInDim S1600000x1 ![0] bcast_S1600000_S1600000x1_0),
    StableHlo.TRef.nullary main_call6.c_1 (constantI S1 32 99999#32),
    StableHlo.TRef.nullary main_call6.c_2 (constantI S_ 32 0#32),
    StableHlo.TRef.unary main_call6.c_2 main_call6.v6 (broadcastInDim S1600000x1 ![] bcast_S_S1600000x1),
    StableHlo.TRef.binary main_call6.v5 main_call6.v6 main_call6.v7 (cmpi .sge),
    StableHlo.TRef.unary main_call6.c_1 main_call6.v8 (broadcastInDim S1x1 ![1] bcast_S1_S1x1_1),
    StableHlo.TRef.unary main_call6.v8 main_call6.v9 (broadcastInDim S1600000x1 ![0, 1] bcast_S1x1_S1600000x1_0_1),
    StableHlo.TRef.binary main_call6.v5 main_call6.v9 main_call6.v10 (cmpi .sle),
    StableHlo.TRef.binary main_call6.v7 main_call6.v10 main_call6.v11 andi,
    StableHlo.TRef.nullary main_call6.c_3 (constantI S_ 1 1#1),
    StableHlo.TRef.binary main_call6.v11 main_call6.c_3 main_call6.v12 (fun x v => Host.reduce IntOp.andi x v reducesTo_S1600000x1_S1600000_d1 h_S_),
    StableHlo.TRef.binary (.of main_v59 : StableHlo.TRef sig ⟨S100000x128, .f32⟩) main_call6.v5 main_call6.v13 (fun x i => Host.gather gather_S100000x128_S1600000x1_S1600000x128_1_0_n_n_0_1_1128 x i),
    StableHlo.TRef.unary main_call6.v12 main_call6.v14 (broadcastInDim S1600000x128 ![0] bcast_S1600000_S1600000x128_0),
    StableHlo.TRef.nullary main_call6.cst (constant S_ .f32 0x7FC00000#32),
    StableHlo.TRef.unary main_call6.cst main_call6.v15 (broadcastInDim S1600000x128 ![] bcast_S_S1600000x128),
    StableHlo.TRef.ternary main_call6.v14 main_call6.v13 main_call6.v15 main_call6.v16 select,
    StableHlo.nullary main_cst_11 (constant S_ .f32 0x00000000#32),
    StableHlo.unary main_cst_11 main_v61 (broadcastInDim S100000x128 ![] bcast_S_S100000x128 : (⟨S_, .f32⟩ : BufTy).Contents (Elt F) → (⟨S100000x128, .f32⟩ : BufTy).Contents (Elt F)),
    StableHlo.unary main_arg2 main_v62 (broadcastInDim S1600000x1 ![0] bcast_S1600000_S1600000x1_0 : (⟨S1600000, .i32⟩ : BufTy).Contents (Elt F) → (⟨S1600000x1, .i32⟩ : BufTy).Contents (Elt F)),
    StableHlo.ternary main_v61 main_v62 main_v60 main_v63 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.nullary main_cst_12 (constant S_ .f32 0x3F800000#32),
    StableHlo.unary main_cst_12 main_v64 (broadcastInDim S1600000 ![] bcast_S_S1600000 : (⟨S_, .f32⟩ : BufTy).Contents (Elt F) → (⟨S1600000, .f32⟩ : BufTy).Contents (Elt F)),
    StableHlo.nullary main_cst_13 (constant S_ .f32 0x00000000#32),
    StableHlo.unary main_cst_13 main_v65 (broadcastInDim S100000 ![] bcast_S_S100000 : (⟨S_, .f32⟩ : BufTy).Contents (Elt F) → (⟨S100000, .f32⟩ : BufTy).Contents (Elt F)),
    StableHlo.unary main_arg2 main_v66 (broadcastInDim S1600000x1 ![0] bcast_S1600000_S1600000x1_0 : (⟨S1600000, .i32⟩ : BufTy).Contents (Elt F) → (⟨S1600000x1, .i32⟩ : BufTy).Contents (Elt F)),
    StableHlo.ternary main_v65 main_v66 main_v64 main_v67 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_14 (constant S_ .f32 0x3F800000#32),
    StableHlo.unary main_cst_14 main_v68 (broadcastInDim S100000 ![] bcast_S_S100000 : (⟨S_, .f32⟩ : BufTy).Contents (Elt F) → (⟨S100000, .f32⟩ : BufTy).Contents (Elt F)),
    StableHlo.binary main_v67 main_v68 main_v69 (maximumf : (⟨S100000, .f32⟩ : BufTy).Contents (Elt F) → (⟨S100000, .f32⟩ : BufTy).Contents (Elt F) → (⟨S100000, .f32⟩ : BufTy).Contents (Elt F)),
    StableHlo.unary main_v69 main_v70 (broadcastInDim S100000x1 ![0] bcast_S100000_S100000x1_0 : (⟨S100000, .f32⟩ : BufTy).Contents (Elt F) → (⟨S100000x1, .f32⟩ : BufTy).Contents (Elt F)),
    StableHlo.unary main_v70 main_v71 (broadcastInDim S100000x128 ![0, 1] bcast_S100000x1_S100000x128_0_1 : (⟨S100000x1, .f32⟩ : BufTy).Contents (Elt F) → (⟨S100000x128, .f32⟩ : BufTy).Contents (Elt F)),
    StableHlo.binary main_v63 main_v71 main_v72 (Host.divf : (⟨S100000x128, .f32⟩ : BufTy).Contents (Elt F) → (⟨S100000x128, .f32⟩ : BufTy).Contents (Elt F) → (⟨S100000x128, .f32⟩ : BufTy).Contents (Elt F)),
    StableHlo.binary main_v59 main_arg12 main_v73 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v72 main_arg13 main_v74 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v73 main_v74 main_v75 (addf : (⟨S100000x128, .f32⟩ : BufTy).Contents (Elt F) → (⟨S100000x128, .f32⟩ : BufTy).Contents (Elt F) → (⟨S100000x128, .f32⟩ : BufTy).Contents (Elt F)),
    StableHlo.unary main_arg14 main_v76 (broadcastInDim S1x128 ![1] bcast_S128_S1x128_1 : (⟨S128, .f32⟩ : BufTy).Contents (Elt F) → (⟨S1x128, .f32⟩ : BufTy).Contents (Elt F)),
    StableHlo.unary main_v76 main_v77 (broadcastInDim S100000x128 ![0, 1] bcast_S1x128_S100000x128_0_1 : (⟨S1x128, .f32⟩ : BufTy).Contents (Elt F) → (⟨S100000x128, .f32⟩ : BufTy).Contents (Elt F)),
    StableHlo.binary main_v75 main_v77 main_v78 (addf : (⟨S100000x128, .f32⟩ : BufTy).Contents (Elt F) → (⟨S100000x128, .f32⟩ : BufTy).Contents (Elt F) → (⟨S100000x128, .f32⟩ : BufTy).Contents (Elt F)) ]

/-- The buffers layer 3's operations write, in order. -/
abbrev W3 : List (Ref sig .tc) :=
  [ main_call6.c.ref, main_call6.v0.ref, main_call6.v1.ref, main_call6.c_0.ref, main_call6.v2.ref, main_call6.v3.ref, main_call6.call0.v0.ref, main_call6.v5.ref, main_call6.c_1.ref, main_call6.c_2.ref, main_call6.v6.ref, main_call6.v7.ref, main_call6.v8.ref, main_call6.v9.ref, main_call6.v10.ref, main_call6.v11.ref, main_call6.c_3.ref, main_call6.v12.ref, main_call6.v13.ref, main_call6.v14.ref, main_call6.cst.ref, main_call6.v15.ref, main_call6.v16.ref, main_cst_11, main_v61, main_v62, main_v63, main_cst_12, main_v64, main_cst_13, main_v65, main_v66, main_v67, main_cst_14, main_v68, main_v69, main_v70, main_v71, main_v72, main_v73, main_v74, main_v75, main_v76, main_v77, main_v78 ]

/-- Each operation of layer 3 touches TensorCore buffers only. -/
theorem L3_sub : (L3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., binary_bufs_sub .., binary_bufs_sub .., unary_bufs_sub .., unary_bufs_sub .., binary_bufs_sub ..⟩

/-- Each operation of layer 3 determines what it writes. -/
theorem L3_fresh : (L3 : List (HloOp τ sig (Elt F))).Forall fun op => op.fresh = ∅ := by
  simp only [List.Forall]; repeat' constructor

/-- Each operation of layer 3 writes a buffer of `W3`. -/
theorem L3_writes : (L3 : List (HloOp τ sig (Elt F))).Forall fun op =>
    op.writes ⊆ (W3.map (Proc.devRef (τ := τ) .tc)).toFinset := by
  simp only [List.Forall]
  repeat' apply And.intro
  all_goals (simp only [nullary_writes, unary_writes, binary_writes, ternary_writes, Finset.singleton_subset_iff, List.mem_toFinset]; exact List.mem_map_of_mem (by decide))

/-- The whole program: the four layers in order. -/
abbrev ops : List (HloOp τ sig (Elt F)) := L0 ++ (L1 ++ (L2 ++ L3))

set_option maxRecDepth 65536 in
set_option maxHeartbeats 4000000 in
/-- @main is that straight line: each call is its function's body over the call's own buffers, the nested index
    selection its one `select`. -/
theorem main_eq (c : Dev nD) : main (F := F) c = seq ops := by
  simp only [main, main_part0, main_part1, fn_take.body, fn_take_0.body, fn_relu.body, fn_where.body,
    ops, L0, L1, L2, L3, seq, List.cons_append, List.nil_append, bind_assoc, pure_bind]
  all_goals rfl

set_option maxRecDepth 4096 in
/-- No buffer of the signature is scoped. -/
theorem scopedRefs_eq : (Finset.univ.filter fun b : Ref sig .tc => b.isScoped) = ∅ := by decide
/-- The signature has no semaphore. -/
theorem scopedSems_eq : (Finset.univ.filter fun sm : SemLoc sig => sm.isScoped .tc) = ∅ := by decide

/-- A property of every operation of each layer is one of every operation of the program. -/
theorem ops_forall {p : HloOp τ sig (Elt F) → Prop} (h0 : (L0 : List (HloOp τ sig (Elt F))).Forall p)
    (h1 : (L1 : List (HloOp τ sig (Elt F))).Forall p) (h2 : (L2 : List (HloOp τ sig (Elt F))).Forall p)
    (h3 : (L3 : List (HloOp τ sig (Elt F))).Forall p) : (ops : List (HloOp τ sig (Elt F))).Forall p := by
  rw [List.forall_iff_forall_mem] at h0 h1 h2 h3 ⊢
  intro op h
  rcases List.mem_append.1 h with h | h
  · exact h0 op h
  rcases List.mem_append.1 h with h | h
  · exact h1 op h
  rcases List.mem_append.1 h with h | h
  · exact h2 op h
  · exact h3 op h

theorem ops_sub : (ops : List (HloOp τ sig (Elt F))).Forall fun op => op.bufs ⊆ tcRefs τ sig :=
  ops_forall L0_sub L1_sub L2_sub L3_sub

theorem ops_fresh : ∀ op ∈ (ops : List (HloOp τ sig (Elt F))), op.fresh = ∅ :=
  List.forall_iff_forall_mem.1 (ops_forall L0_fresh L1_fresh L2_fresh L3_fresh)

end Cert.ReferenceIdeal.RefRun

end
-- ==== Proof.RefRun.lean ====
import proofs.«126515_j28973849378860_1_alg».proof.Proof.RefOps

noncomputable section

namespace Cert.ReferenceIdeal.RefRun
open Cert.ReferenceIdeal Cert.ReferenceIdeal.Gen Idealize.ShloMosaic Idealize.ShloMosaic.TcCoe Idealize.SL.Sem Idealize.ShloMosaic.StableHlo
variable {F : FTy → Type} [FloatOps F]

/-- The contents after two lines run one after the other: the second's fold over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- Contents carried to a typed reference's buffer type and back are unchanged. -/
theorem ofBuf_toBuf {Val : EltTy → Type} {T : BufTy} (x : StableHlo.TRef sig T) (v : T.Contents Val) :
    x.ofBuf (x.toBuf v) = v := by
  obtain ⟨r, h, h2, h3⟩ := x
  subst h
  rfl

/-! ## What each layer leaves unchanged -/

/-- A buffer layer 0 does not write keeps its contents through it. -/
theorem L0_keep (V : Valuation τ sig (Elt F)) (r : Ref sig .tc) (h : r ∉ W0) :
    after L0 V (Proc.devRef .tc r) = V (Proc.devRef .tc r) :=
  after_of_writes_sub L0 V L0_writes h

/-- A buffer layer 1 does not write keeps its contents through it. -/
theorem L1_keep (V : Valuation τ sig (Elt F)) (r : Ref sig .tc) (h : r ∉ W1) :
    after L1 V (Proc.devRef .tc r) = V (Proc.devRef .tc r) :=
  after_of_writes_sub L1 V L1_writes h

/-- A buffer layer 2 does not write keeps its contents through it. -/
theorem L2_keep (V : Valuation τ sig (Elt F)) (r : Ref sig .tc) (h : r ∉ W2) :
    after L2 V (Proc.devRef .tc r) = V (Proc.devRef .tc r) :=
  after_of_writes_sub L2 V L2_writes h

/-- A buffer layer 3 does not write keeps its contents through it. -/
theorem L3_keep (V : Valuation τ sig (Elt F)) (r : Ref sig .tc) (h : r ∉ W3) :
    after L3 V (Proc.devRef .tc r) = V (Proc.devRef .tc r) :=
  after_of_writes_sub L3 V L3_writes h

/-! ## What each layer computes

The fold read at the layer's result buffer: each operation's result at its own buffer is its function of the contents
of its operands' buffers, and at any other buffer what was there; what is left, once contents carried to a buffer's own type and
back are read as themselves, is the layer's term of the contents of the layer's six inputs before it. The gathers, scatters, reductions and products stay folded: the equation never looks
inside them. -/

attribute [local irreducible] Host.reduce Host.gather Host.scatterAdd Host.divf in
set_option maxRecDepth 16384 in
set_option maxHeartbeats 8000000 in
/-- Layer 0: `main_v19` ends at `Terms.layerAct` of `main_arg0`, the edges' ends and the layer's weights and bias. -/
theorem L0_out (V : Valuation τ sig (Elt F)) :
    after L0 V (Proc.devRef .tc main_v19)
      = Terms.layerAct (V (Proc.devRef .tc main_arg0)) (V (Proc.devRef .tc main_arg1)) (V (Proc.devRef .tc main_arg2))
          (V (Proc.devRef .tc main_arg3)) (V (Proc.devRef .tc main_arg4)) (V (Proc.devRef .tc main_arg5)) := by
  simp only [L0]
  after_results_simp
  simp only [ofBuf_toBuf]
  rfl

attribute [local irreducible] Host.reduce Host.gather Host.scatterAdd Host.divf in
set_option maxRecDepth 16384 in
set_option maxHeartbeats 8000000 in
/-- Layer 1: `main_v39` ends at `Terms.layerAct` of `main_v19`, the edges' ends and the layer's weights and bias. -/
theorem L1_out (V : Valuation τ sig (Elt F)) :
    after L1 V (Proc.devRef .tc main_v39)
      = Terms.layerAct (V (Proc.devRef .tc main_v19)) (V (Proc.devRef .tc main_arg1)) (V (Proc.devRef .tc main_arg2))
          (V (Proc.devRef .tc main_arg6)) (V (Proc.devRef .tc main_arg7)) (V (Proc.devRef .tc main_arg8)) := by
  simp only [L1]
  after_results_simp
  simp only [ofBuf_toBuf]
  rfl

attribute [local irreducible] Host.reduce Host.gather Host.scatterAdd Host.divf in
set_option maxRecDepth 16384 in
set_option maxHeartbeats 8000000 in
/-- Layer 2: `main_v59` ends at `Terms.layerAct` of `main_v39`, the edges' ends and the layer's weights and bias. -/
theorem L2_out (V : Valuation τ sig (Elt F)) :
    after L2 V (Proc.devRef .tc main_v59)
      = Terms.layerAct (V (Proc.devRef .tc main_v39)) (V (Proc.devRef .tc main_arg1)) (V (Proc.devRef .tc main_arg2))
          (V (Proc.devRef .tc main_arg9)) (V (Proc.devRef .tc main_arg10)) (V (Proc.devRef .tc main_arg11)) := by
  simp only [L2]
  after_results_simp
  simp only [ofBuf_toBuf]
  rfl

attribute [local irreducible] Host.reduce Host.gather Host.scatterAdd Host.divf in
set_option maxRecDepth 16384 in
set_option maxHeartbeats 8000000 in
/-- Layer 3: `main_v78` ends at `Terms.layerLin` of `main_v59`, the edges' ends and the layer's weights and bias. -/
theorem L3_out (V : Valuation τ sig (Elt F)) :
    after L3 V (Proc.devRef .tc main_v78)
      = Terms.layerLin (V (Proc.devRef .tc main_v59)) (V (Proc.devRef .tc main_arg1)) (V (Proc.devRef .tc main_arg2))
          (V (Proc.devRef .tc main_arg12)) (V (Proc.devRef .tc main_arg13)) (V (Proc.devRef .tc main_arg14)) := by
  simp only [L3]
  after_results_simp
  simp only [ofBuf_toBuf]
  rfl

/-! ## The whole program -/

/-- The result buffer after the four layers: the four layers' terms composed, over the contents of the fifteen arguments. -/
theorem out_eq (V : Valuation τ sig (Elt F)) :
    after ops V (Proc.devRef .tc main_v78)
      = Terms.out (V (Proc.devRef .tc main_arg0)) (V (Proc.devRef .tc main_arg1)) (V (Proc.devRef .tc main_arg2))
          (V (Proc.devRef .tc main_arg3)) (V (Proc.devRef .tc main_arg4)) (V (Proc.devRef .tc main_arg5)) (V (Proc.devRef .tc main_arg6)) (V (Proc.devRef .tc main_arg7)) (V (Proc.devRef .tc main_arg8))
          (V (Proc.devRef .tc main_arg9)) (V (Proc.devRef .tc main_arg10)) (V (Proc.devRef .tc main_arg11)) (V (Proc.devRef .tc main_arg12)) (V (Proc.devRef .tc main_arg13)) (V (Proc.devRef .tc main_arg14)) := by
  simp only [ops, after_append]
  rw [L3_out, L2_keep _ main_arg1 (by decide), L2_keep _ main_arg2 (by decide), L2_keep _ main_arg12 (by decide), L2_keep _ main_arg13 (by decide), L2_keep _ main_arg14 (by decide),
    L2_out, L1_keep _ main_arg1 (by decide), L1_keep _ main_arg2 (by decide), L1_keep _ main_arg9 (by decide), L1_keep _ main_arg10 (by decide), L1_keep _ main_arg11 (by decide), L1_keep _ main_arg12 (by decide), L1_keep _ main_arg13 (by decide), L1_keep _ main_arg14 (by decide),
    L1_out, L0_keep _ main_arg1 (by decide), L0_keep _ main_arg2 (by decide), L0_keep _ main_arg6 (by decide), L0_keep _ main_arg7 (by decide), L0_keep _ main_arg8 (by decide), L0_keep _ main_arg9 (by decide), L0_keep _ main_arg10 (by decide), L0_keep _ main_arg11 (by decide), L0_keep _ main_arg12 (by decide), L0_keep _ main_arg13 (by decide), L0_keep _ main_arg14 (by decide),
    L0_out]
  rfl

/-- A buffer no layer writes keeps its contents through the program. -/
theorem ops_keep (V : Valuation τ sig (Elt F)) (r : Ref sig .tc) (h0 : r ∉ W0) (h1 : r ∉ W1) (h2 : r ∉ W2) (h3 : r ∉ W3) :
    after ops V (Proc.devRef .tc r) = V (Proc.devRef .tc r) := by
  simp only [ops, after_append]
  rw [L3_keep _ r h3, L2_keep _ r h2, L1_keep _ r h1, L0_keep _ r h0]

/-- At the compiled mesh, for any float values, from any memory with zero counters: every weakly fair execution of
    @main terminates with the result buffer at the four layers' composed term of the arguments' launch contents and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v78)
          = Terms.out (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
              (m ((c.tc : Thread nD τ).loc main_arg6)) (m ((c.tc : Thread nD τ).loc main_arg7)) (m ((c.tc : Thread nD τ).loc main_arg8))
              (m ((c.tc : Thread nD τ).loc main_arg9)) (m ((c.tc : Thread nD τ).loc main_arg10)) (m ((c.tc : Thread nD τ).loc main_arg11))
              (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => ⟨(h c main_v78).trans (out_eq _),
      (h c main_arg0).trans (ops_keep _ main_arg0 (by decide) (by decide) (by decide) (by decide)),
      (h c main_arg1).trans (ops_keep _ main_arg1 (by decide) (by decide) (by decide) (by decide)),
      (h c main_arg2).trans (ops_keep _ main_arg2 (by decide) (by decide) (by decide) (by decide)),
      (h c main_arg3).trans (ops_keep _ main_arg3 (by decide) (by decide) (by decide) (by decide)),
      (h c main_arg4).trans (ops_keep _ main_arg4 (by decide) (by decide) (by decide) (by decide)),
      (h c main_arg5).trans (ops_keep _ main_arg5 (by decide) (by decide) (by decide) (by decide)),
      (h c main_arg6).trans (ops_keep _ main_arg6 (by decide) (by decide) (by decide) (by decide)),
      (h c main_arg7).trans (ops_keep _ main_arg7 (by decide) (by decide) (by decide) (by decide)),
      (h c main_arg8).trans (ops_keep _ main_arg8 (by decide) (by decide) (by decide) (by decide)),
      (h c main_arg9).trans (ops_keep _ main_arg9 (by decide) (by decide) (by decide) (by decide)),
      (h c main_arg10).trans (ops_keep _ main_arg10 (by decide) (by decide) (by decide) (by decide)),
      (h c main_arg11).trans (ops_keep _ main_arg11 (by decide) (by decide) (by decide) (by decide)),
      (h c main_arg12).trans (ops_keep _ main_arg12 (by decide) (by decide) (by decide) (by decide)),
      (h c main_arg13).trans (ops_keep _ main_arg13 (by decide) (by decide) (by decide) (by decide)),
      (h c main_arg14).trans (ops_keep _ main_arg14 (by decide) (by decide) (by decide) (by decide))⟩)
    (run_seq scopedRefs_eq scopedSems_eq defs main (fun _ => ops) main_eq (fun _ => ops_sub) m ρ (fun _ => ops_fresh))

end Cert.ReferenceIdeal.RefRun

end
-- ==== Proof.lean ====
/-
  A four-layer mean-aggregating graph network: the tiled kernel program against the whole-array reference.

  Per layer both programs form, on the host and by the same chain of operations, the array of neighbourhood means
  mn = M h (the rows of h picked by the source indices, summed into their destination rows, divided by the in-degree
  or by one), and then the layer  (h . Ws + mn . Wn) + b, rectified in the first three layers.  The kernel program
  computes the layer on 25 tiles of 4000 rows with the operands of each product rounded to bfloat16; the reference on
  the whole array with the host's dot_general.  On the extended reals the rounding is the identity, both products are
  the plain sums over the contracted axis, the two programs group the additions the same way, and an entry of a layer
  only reads its own row of h and of mn; so tile t's result is block t of the whole-array layer and the blocks tile
  the result.  No law beyond that is used: nothing is distributed or cancelled, so the finiteness of the inputs is
  never opened, and the neighbourhood-mean chain is carried as one function of h and never read.

  The kernel program's result is the network of its arguments (KernelValue, over the regions' blocks-to-array steps
  Region0 ... Region3 and the run with the result array kept, KernelRun); the reference's is the same network
  (RefRun for its run, Bridge for its layers); the two neighbourhood-mean chains are one term and the bias row is
  one array in its two spellings (Bridge).  The ideal pass rewrote nothing, so the preserved-idealization claim is
  trivial; the frames of the two kernel programs are the generated ones and the reference's is its run with the
  result forgotten.
-/
import proofs.«126515_j28973849378860_1_alg».proof.Defs
import proofs.«126515_j28973849378860_1_alg».proof.Proof.Gen.Kernel
import proofs.«126515_j28973849378860_1_alg».proof.Proof.Gen.Kernel.Skeleton
import proofs.«126515_j28973849378860_1_alg».proof.Proof.Gen.Kernel.Launch
import proofs.«126515_j28973849378860_1_alg».proof.Proof.Gen.Kernel.Points
import proofs.«126515_j28973849378860_1_alg».proof.Proof.Gen.Kernel.Frame
import proofs.«126515_j28973849378860_1_alg».proof.Proof.Gen.KernelIdeal
import proofs.«126515_j28973849378860_1_alg».proof.Proof.Gen.KernelIdeal.Skeleton
import proofs.«126515_j28973849378860_1_alg».proof.Proof.Gen.KernelIdeal.Launch
import proofs.«126515_j28973849378860_1_alg».proof.Proof.Gen.KernelIdeal.Points
import proofs.«126515_j28973849378860_1_alg».proof.Proof.Gen.KernelIdeal.Frame
import proofs.«126515_j28973849378860_1_alg».proof.Proof.Gen.ReferenceIdeal
import proofs.«126515_j28973849378860_1_alg».proof.Proof.Gen.Pre_finite_inputs
import proofs.«126515_j28973849378860_1_alg».proof.Proof.KernelValue
import proofs.«126515_j28973849378860_1_alg».proof.Proof.RefRun
import proofs.«126515_j28973849378860_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs and leaves its arguments as launched: its run, the result forgotten. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The ideal pass rewrote no operation. -/
theorem preserves : Cert.preserves_Kernel_KernelIdeal := trivial

/-- From memories agreeing on the fifteen arguments both programs end with the network of the arguments in their
    result arrays: the kernel program's neighbourhood-mean chain and bias rows are the reference's. -/
theorem algebraic : Cert.algebraic_KernelIdeal_ReferenceIdeal := by
  intro m ρ m' ρ' _ hagree
  refine ⟨fun c => Cert.KernelIdeal.KValue.OUT m c, Cert.KernelIdeal.KValue.run m ρ, ?_⟩
  refine (θ_run Cert.ReferenceIdeal.defs _ _).mono (fun r h c => ⟨(h c).1.trans ?_, (h c).2⟩)
    (Cert.ReferenceIdeal.RefRun.run (F := Ideal) m' ρ')
  obtain ⟨a0, a1, a2, a3, a4, a5, a6, a7, a8, a9, a10, a11, a12, a13, a14⟩ := hagree c
  show _ = Cert.KernelIdeal.KValue.OUT m c
  rw [a0, a1, a2, a3, a4, a5, a6, a7, a8, a9, a10, a11, a12, a13, a14, Cert.Sage.ref_out,
    Cert.KernelIdeal.KValue.OUT_eq_net]
  have hM : Cert.KernelIdeal.KValue.MK m c
      = fun h => Cert.ReferenceIdeal.Terms.mean (F := Ideal) h
          (m ((c : Thread Cert.KernelIdeal.nD Cert.KernelIdeal.τ).loc Cert.KernelIdeal.main_arg1))
          (m ((c : Thread Cert.KernelIdeal.nD Cert.KernelIdeal.τ).loc Cert.KernelIdeal.main_arg2)) :=
    funext fun h => Cert.Sage.mean_eq h _ _
  rw [hM]
  simp only [Cert.Sage.row_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
